-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x768 : Shape := ⟨3, ![32, 2048, 768]⟩
abbrev S32x2048 : Shape := ⟨2, ![32, 2048]⟩
abbrev S768x512 : Shape := ⟨2, ![768, 512]⟩
abbrev S512 : Shape := ⟨1, ![512]⟩
abbrev S512x512 : Shape := ⟨2, ![512, 512]⟩
abbrev S_ : Shape := ⟨0, ![]⟩

class Facts : Prop where
  bcast_S_S32x2048x768 : S_.BroadcastsInDim S32x2048x768 (![] : Fin 0 → Fin S32x2048x768.rank)
  reducesTo_S32x2048x768_S_d0_1_2 : S32x2048x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn_part2 {F : FTy → Type} [FloatOps F] (main_arg1 : IVec S32x2048 32) (main_v33 : IVec S_ 1) : IVec S_ 1 :=
  let main_c_12 : IVec S_ 32 := constantI S_ 32 0#32
  let main_v34 : IVec S32x2048 32 := broadcastInDim S32x2048 ![] bcast_S_S32x2048 main_c_12
  let main_v35 : IVec S32x2048 1 := cmpi .eq main_arg1 main_v34
  let main_c_13 : IVec S_ 32 := constantI S_ 32 1#32
  let main_v36 : IVec S32x2048 32 := broadcastInDim S32x2048 ![] bcast_S_S32x2048 main_c_13
  let main_v37 : IVec S32x2048 1 := cmpi .eq main_arg1 main_v36
  let main_v38 : IVec S32x2048 1 := ori main_v35 main_v37
  let main_c_14 : IVec S_ 1 := constantI S_ 1 1#1
  let main_v39 : IVec S_ 1 := (fun x v => Host.reduce IntOp.andi x v reducesTo_S32x2048_S_d0_1 h_S_) main_v38 main_c_14
  let main_v40 : IVec S_ 1 := andi main_v33 main_v39
  main_v40

def fn_part1 {F : FTy → Type} [FloatOps F] (main_arg1 : IVec S32x2048 32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_v33

def fn {F : FTy → Type} [FloatOps F] (main_arg0 : FVec F S32x2048x768 .f32) (main_arg1 : IVec S32x2048 32) (main_arg2 : FVec F S768x512 .f32) (main_arg3 : FVec F S512 .f32) (main_arg4 : FVec F S512 .f32) (main_arg5 : FVec F S512 .f32) (main_arg6 : FVec F S512x512 .f32) (main_arg7 : FVec F S512 .f32) : IVec S_ 1 :=
  let main_v0 : FVec F S32x2048x768 .f32 := Host.absf main_arg0
  let main_cst : FVec F S_ .f32 := constant S_ .f32 0x7F800000#32
  let main_v1 : FVec F S32x2048x768 .f32 := broadcastInDim S32x2048x768 ![] bcast_S_S32x2048x768 main_cst
  let main_v2 : IVec S32x2048x768 1 := cmpf .olt main_v0 main_v1
  let main_c : IVec S_ 1 := constantI S_ 1 1#1
  let main_v3 : IVec S_ 1 := (fun x v => Host.reduce IntOp.andi x v reducesTo_S32x2048x768_S_d0_1_2 h_S_) main_v2 main_c
  let main_v4 : FVec F S768x512 .f32 := Host.absf main_arg2
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_v13 main_v16
-- ==== Kernel.lean ====
abbrev S32x2048x768 : Shape := ⟨3, ![32, 2048, 768]⟩
abbrev S32x2048 : Shape := ⟨2, ![32, 2048]⟩
abbrev S768x512 : Shape := ⟨2, ![768, 512]⟩
abbrev S512 : Shape := ⟨1, ![512]⟩
abbrev S512x512 : Shape := ⟨2, ![512, 512]⟩
abbrev S32x2048x1 : Shape := ⟨3, ![32, 2048, 1]⟩
abbrev S1x512 : Shape := ⟨2, ![1, 512]⟩
abbrev S32x2048x512 : Shape := ⟨3, ![32, 2048, 512]⟩
abbrev S32x1x512 : Shape := ⟨3, ![32, 1, 512]⟩
abbrev S1x1024x768 : Shape := ⟨3, ![1, 1024, 768]⟩
abbrev S1x1024x1 : Shape := ⟨3, ![1, 1024, 1]⟩
abbrev S1x1024x512 : Shape := ⟨3, ![1, 1024, 512]⟩
abbrev S1x1x512 : Shape := ⟨3, ![1, 1, 512]⟩
abbrev S1024x768 : Shape := ⟨2, ![1024, 768]⟩
abbrev S1024x512 : Shape := ⟨2, ![1024, 512]⟩
abbrev S1024x1 : Shape := ⟨2, ![1024, 1]⟩
abbrev S32x512 : Shape := ⟨2, ![32, 512]⟩
abbrev S_ : Shape := ⟨0, ![]⟩
abbrev S1x2048x512 : Shape := ⟨3, ![1, 2048, 512]⟩
abbrev S1x2048x1 : Shape := ⟨3, ![1, 2048, 1]⟩
abbrev S2048x512 : Shape := ⟨2, ![2048, 512]⟩
abbrev S2048x1 : Shape := ⟨2, ![2048, 1]⟩
abbrev S32x1 : Shape := ⟨2, ![32, 1]⟩

abbrev nBuf : Space → Nat
  | .hbm => 52
  | .vmem => 24
  | .smem => 0
  | _ => 0

abbrev bufTy : (tb : Table) → Fin (tcTables nBuf tb) → BufTy
  | .hbm, ⟨0, _⟩ => ⟨S32x2048x768, .f32⟩
  | .hbm, ⟨1, _⟩ => ⟨S32x2048, .i32⟩
  | .hbm, ⟨2, _⟩ => ⟨S768x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x2048, .f32⟩
  | .hbm, ⟨9, _⟩ => ⟨S32x2048x1, .f32⟩
  | .hbm, ⟨10, _⟩ => ⟨S1x512, .f32⟩
  | .hbm, ⟨11, _⟩ => ⟨S1x512, .f32⟩
  | .hbm, ⟨12, _⟩ => ⟨S768x512, .bf16⟩
  | .hbm, ⟨13, _⟩ => ⟨S512x512, .bf16⟩
  | .hbm, ⟨14, _⟩ => ⟨S32x2048x512, .bf16⟩
  | .hbm, ⟨15, _⟩ => ⟨S32x1x512, .f32⟩
  | .hbm, ⟨16, _⟩ => ⟨S32x1x512, .f32⟩
  | .hbm, ⟨17, _⟩ => ⟨S32x512, .f32⟩
  | .hbm, ⟨18, _⟩ => ⟨S32x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S1x512, .f32⟩
  | .hbm, ⟨43, _⟩ => ⟨S32x1x512, .f32⟩
  | .hbm, ⟨44, _⟩ => ⟨S32x512, .f32⟩
  | .hbm, ⟨45, _⟩ => ⟨S_, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x512, .f32⟩
  | .hbm, ⟨51, _⟩ => ⟨S32x512, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x1, .f32⟩
  | .local _ .vmem, ⟨3, _⟩ => ⟨S1x1024x1, .f32⟩
  | .local _ .vmem, ⟨4, _⟩ => ⟨S768x512, .bf16⟩
  | .local _ .vmem, ⟨5, _⟩ => ⟨S1x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x512, .f32⟩
  | .local _ .vmem, ⟨13, _⟩ => ⟨S1x512, .f32⟩
  | .local _ .vmem, ⟨14, _⟩ => ⟨S1x2048x512, .bf16⟩
  | .local _ .vmem, ⟨15, _⟩ => ⟨S1x2048x512, .bf16⟩
  | .local _ .vmem, ⟨16, _⟩ => ⟨S1x2048x1, .f32⟩
  | .local _ .vmem, ⟨17, _⟩ => ⟨S1x2048x1, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S1x512, .f32⟩
  | .local _ .vmem, ⟨22, _⟩ => ⟨S1x1x512, .f32⟩
  | .local _ .vmem, ⟨23, _⟩ => ⟨S1x1x512, .f32⟩
  | _, _ => ⟨S32x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_25 : BitVec 32 := 0#32
  let v42 : BitVec 1 := Scalar.cmpi .ne v41 c0_i32_25
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S32x2048_S32x2048x1_0_1 : S32x2048.BroadcastsInDim S32x2048x1 (![0, 1] : Fin 2 → Fin S32x2048x1.rank)
  shapeCasts_S512_S1x512 : S512.ShapeCasts S1x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x512 : S1024x1.Broadcasts S1024x512
  reduces_S1024x512_S512 : S1024x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S32x1x512_S32x512 : S32x1x512.ShapeCasts S32x512
  reducesTo_S32x2048x1_S_d0_1_2 : S32x2048x1.ReducesTo [0, 1, 2] S_
  h_S_ : 0 < S_.numel
  reducesTo_S32x512_S512_d0 : S32x512.ReducesTo [0] S512
  bcast_S_S512 : S_.BroadcastsInDim S512 (![] : Fin 0 → Fin S512.rank)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x512 : S2048x1.Broadcasts S2048x512
  reduces_S2048x512_S512 : S2048x512.Reduces [0] S512
  reducesTo_S32x2048x1_S32x1_d1 : S32x2048x1.ReducesTo [1] S32x1
  bcast_S_S32x1 : S_.BroadcastsInDim S32x1 (![] : Fin 0 → Fin S32x1.rank)
  bcast_S32x1_S32x512_0_1 : S32x1.BroadcastsInDim S32x512 (![0, 1] : Fin 2 → Fin S32x512.rank)
  dot_S1024x768_S768x512_S1024x512_1_0_0_1_n_n_wf : DotDims.WF S1024x768 S768x512 S1024x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x2048x768.size a
  hwx0_0 : ∀ i : grid0.Coords, EltTy.bits .f32 = 32 ∨ (Rect.block (s := S32x2048x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x2048x1.size a
  hwx0_1 : ∀ i : grid0.Coords, EltTy.bits .f32 = 32 ∨ (Rect.block (s := S32x2048x1) S1x1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S32x2048x512.size a
  hwx0_4 : ∀ i : grid0.Coords, EltTy.bits .bf16 = 32 ∨ (Rect.block (s := S32x2048x512) S1x1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x512.size a
  hwx0_5 : ∀ i : grid0.Coords, EltTy.bits .f32 = 32 ∨ (Rect.block (s := S32x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x512.size a
  hwx0_6 : ∀ i : grid0.Coords, EltTy.bits .f32 = 32 ∨ (Rect.block (s := S32x1x512) S1x1x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S32x2048x512.size a
  hwx1_0 : ∀ i : grid1.Coords, EltTy.bits .bf16 = 32 ∨ (Rect.block (s := S32x2048x512) S1x2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1.size a ≤ S32x2048x1.size a
  hwx1_1 : ∀ i : grid1.Coords, EltTy.bits .f32 = 32 ∨ (Rect.block (s := S32x2048x1) S1x2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x512.size a ≤ S32x1x512.size a
  hwx1_6 : ∀ i : grid1.Coords, EltTy.bits .f32 = 32 ∨ (Rect.block (s := S32x1x512) S1x1x512.size (cc1_transform_6 i) (hinb1_6 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v6_0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x1x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x2048x768 : Shape := ⟨3, ![32, 2048, 768]⟩
abbrev S32x2048 : Shape := ⟨2, ![32, 2048]⟩
abbrev S768x512 : Shape := ⟨2, ![768, 512]⟩
abbrev S512 : Shape := ⟨1, ![512]⟩
abbrev S512x512 : Shape := ⟨2, ![512, 512]⟩
abbrev S32x2048x1 : Shape := ⟨3, ![32, 2048, 1]⟩
abbrev S_ : Shape := ⟨0, ![]⟩
abbrev S32x2048x512 : Shape := ⟨3, ![32, 2048, 512]⟩
abbrev S1x1x512 : Shape := ⟨3, ![1, 1, 512]⟩
abbrev S32x1 : Shape := ⟨2, ![32, 1]⟩
abbrev S32x512 : Shape := ⟨2, ![32, 512]⟩

abbrev nBuf : Space → Nat
  | .hbm => 68
  | .vmem => 0
  | .smem => 0
  | _ => 0

abbrev bufTy : (tb : Table) → Fin (tcTables nBuf tb) → BufTy
  | .hbm, ⟨0, _⟩ => ⟨S32x2048x768, .f32⟩
  | .hbm, ⟨1, _⟩ => ⟨S32x2048, .i32⟩
  | .hbm, ⟨2, _⟩ => ⟨S768x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x2048x512, .f32⟩
  | .hbm, ⟨15, _⟩ => ⟨S1x1x512, .f32⟩
  | .hbm, ⟨16, _⟩ => ⟨S32x2048x512, .f32⟩
  | .hbm, ⟨17, _⟩ => ⟨S32x2048x512, .f32⟩
  | .hbm, ⟨18, _⟩ => ⟨S32x2048x512, .f32⟩
  | .hbm, ⟨19, _⟩ => ⟨S32x2048x512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S1x1x512, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S1x1x512, .f32⟩
  | .hbm, ⟨35, _⟩ => ⟨S32x2048x512, .f32⟩
  | .hbm, ⟨36, _⟩ => ⟨S32x2048x512, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S1x1x512, .f32⟩
  | .hbm, ⟨42, _⟩ => ⟨S32x2048x512, .f32⟩
  | .hbm, ⟨43, _⟩ => ⟨S32x2048x512, .f32⟩
  | .hbm, ⟨44, _⟩ => ⟨S1x1x512, .f32⟩
  | .hbm, ⟨45, _⟩ => ⟨S32x2048x512, .f32⟩
  | .hbm, ⟨46, _⟩ => ⟨S32x2048x512, .f32⟩
  | .hbm, ⟨47, _⟩ => ⟨S1x1x512, .f32⟩
  | .hbm, ⟨48, _⟩ => ⟨S32x2048x512, .f32⟩
  | .hbm, ⟨49, _⟩ => ⟨S32x2048x512, .f32⟩
  | .hbm, ⟨50, _⟩ => ⟨S_, .f32⟩
  | .hbm, ⟨51, _⟩ => ⟨S32x2048x512, .f32⟩
  | .hbm, ⟨52, _⟩ => ⟨S32x2048x512, .f32⟩
  | .hbm, ⟨53, _⟩ => ⟨S32x2048x512, .f32⟩
  | .hbm, ⟨54, _⟩ => ⟨S1x1x512, .f32⟩
  | .hbm, ⟨55, _⟩ => ⟨S32x2048x512, .f32⟩
  | .hbm, ⟨56, _⟩ => ⟨S32x2048x512, .f32⟩
  | .hbm, ⟨57, _⟩ => ⟨S_, .f32⟩
  | .hbm, ⟨58, _⟩ => ⟨S32x1, .f32⟩
  | .hbm, ⟨59, _⟩ => ⟨S_, .f32⟩
  | .hbm, ⟨60, _⟩ => ⟨S32x1, .f32⟩
  | .hbm, ⟨61, _⟩ => ⟨S32x1, .f32⟩
  | .hbm, ⟨62, _⟩ => ⟨S32x2048x512, .f32⟩
  | .hbm, ⟨63, _⟩ => ⟨S32x2048x512, .f32⟩
  | .hbm, ⟨64, _⟩ => ⟨S_, .f32⟩
  | .hbm, ⟨65, _⟩ => ⟨S32x512, .f32⟩
  | .hbm, ⟨66, _⟩ => ⟨S32x512, .f32⟩
  | .hbm, ⟨67, _⟩ => ⟨S32x512, .f32⟩
  | _, _ => ⟨S32x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  reducesTo_S32x2048x1_S_d0_1_2 : S32x2048x1.ReducesTo [0, 1, 2] S_
  h_S_ : 0 < S_.numel
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  bcast_S32x2048x1_S32x2048x512_0_1_2 : S32x2048x1.BroadcastsInDim S32x2048x512 (![0, 1, 2] : Fin 3 → Fin S32x2048x512.rank)
  reducesTo_S32x2048x512_S512_d0_1 : S32x2048x512.ReducesTo [0, 1] S512
  bcast_S_S512 : S_.BroadcastsInDim S512 (![] : Fin 0 → Fin S512.rank)
  bcast_S_S32x2048x512 : S_.BroadcastsInDim S32x2048x512 (![] : Fin 0 → Fin S32x2048x512.rank)
  reducesTo_S32x2048x1_S32x1_d1 : S32x2048x1.ReducesTo [1] S32x1
  bcast_S_S32x1 : S_.BroadcastsInDim S32x1 (![] : Fin 0 → Fin S32x1.rank)
  reducesTo_S32x2048x512_S32x512_d1 : S32x2048x512.ReducesTo [1] S32x512
  bcast_S32x1_S32x512_0_1 : S32x1.BroadcastsInDim S32x512 (![0, 1] : Fin 2 → Fin S32x512.rank)
  dot_S32x2048x768_S768x512_S32x2048x512_2_0_01_1_n_n_wf : DotDims.WF S32x2048x768 S768x512 S32x2048x512 [2] [0] [0, 1] [1] [] []
  dot_S32x2048x512_S512x512_S32x2048x512_2_0_01_1_n_n_wf : DotDims.WF S32x2048x512 S512x512 S32x2048x512 [2] [0] [0, 1] [1] [] []

variable [Facts₀]

def dot_S32x2048x768_S768x512_S32x2048x512_2_0_01_1_n_n : DotDims S32x2048x768 S768x512 S32x2048x512 where
  lhsContracting := [2]
  rhsContracting := [0]
  lhsNonContracting := [0, 1]
  rhsNonContracting := [1]
  lhsBatch := []
  rhsBatch := []
  wf := dot_S32x2048x768_S768x512_S32x2048x512_2_0_01_1_n_n_wf
def dot_S32x2048x512_S512x512_S32x2048x512_2_0_01_1_n_n : DotDims S32x2048x512 S512x512 S32x2048x512 where
  lhsContracting := [2]
  rhsContracting := [0]
  lhsNonContracting := [0, 1]
  rhsNonContracting := [1]
  lhsBatch := []
  rhsBatch := []
  wf := dot_S32x2048x512_S512x512_S32x2048x512_2_0_01_1_n_n_wf

class Facts : Prop extends Facts₀ where

variable [Facts]
-- ==== Proof.Stage1Base.lean ====
/-
  The statistics pass (the first pallas_call: grid 32 sequences × 2 tiles of 1024 tokens), the part every later
  module of its frame is stated over. At a grid point t = 2·b + l the body sees the tile l of sequence b of the
  hidden states and of the mask, the whole first-layer weight and bias, and writes the tile's activations; two
  one-row accumulators (the masked sum and the masked sum of squares of the activations less the bias) live in
  scratch memory across the two tiles of a sequence: cleared at l = 0, added to at both tiles, copied out at l = 1.
  So the body has two control cases, decided by the parity of the point, and the two per-sequence outputs are
  idle (neither stored nor written back) at even points. Everything is stated at a parameter `V`, the buffer
  contents the region is entered with, and at any float instance.
-/
import proofs.«153426_j55430847922218_2_alg».proof.Proof.Gen.KernelIdeal.Launch
import proofs.«153426_j55430847922218_2_alg».proof.Proof.Gen.KernelIdeal.Skeleton
import proofs.«153426_j55430847922218_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "This is the first tile of the sequence": the accumulators are cleared. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last tile of the sequence": the accumulators are copied out. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first tile the two per-sequence outputs are idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At a last tile they are live. -/
theorem liveAt0_5_B : ∀ t : Fin cfg0.N, ¬cond0_0 (grid0.coords t) → cond0_1 (grid0.coords t) → cfg0.idle 5 (grid0.coords t) = false := by decide +kernel
theorem liveAt0_6_B : ∀ t : Fin cfg0.N, ¬cond0_0 (grid0.coords t) → cond0_1 (grid0.coords t) → cfg0.idle 6 (grid0.coords t) = false := by decide +kernel

/-! ## The staging and scratch memrefs -/

/-- One staging buffer of each output window, through which its contents are stated. -/
abbrev VO0_4 : View sig .tc .vmem S1x1024x512 .bf16 := (Memref.whole cc0_stg4_0 : Memref sig .tc .vmem S1x1024x512 .bf16).view
abbrev VO0_5 : View sig .tc .vmem S1x1x512 .f32 := (Memref.whole cc0_stg5_0 : Memref sig .tc .vmem S1x1x512 .f32).view
abbrev VO0_6 : View sig .tc .vmem S1x1x512 .f32 := (Memref.whole cc0_stg6_0 : Memref sig .tc .vmem S1x1x512 .f32).view
/-- Each window's current staging memref at point `t`, as the pipeline passes it, and its wholeness. -/
abbrev ms0_0 (t : Fin cfg0.N) : Memref sig .tc .vmem S1x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
/-- The two accumulators: whole scoped buffers of the kernel's own, passed beside the windows. -/
abbrev scM0_0 : Memref sig .tc .vmem S1x512 .f32 := Memref.whole cc0_scratch0
abbrev scM0_1 : Memref sig .tc .vmem S1x512 .f32 := Memref.whole cc0_scratch1
abbrev VS0_0 : View sig .tc .vmem S1x512 .f32 := scM0_0.view
abbrev VS0_1 : View sig .tc .vmem S1x512 .f32 := scM0_1.view

/-- The core's scoped buffers that this pallas_call neither stages through nor keeps as scratch (the second
    call's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 (F := F) c) ∗ (∃ r, prngReg c r)) := by
  unfold Pipeline.ΦA otherScoped0; rw [scopedRest0_eq]; simp only [scM0_0, scM0_1, owns_whole]; try rfl

end Cert.KernelIdeal.Gen

end
-- ==== Proof.Stage1ResetRun.lean ====
/-
  The statistics pass at the FIRST tile of a sequence: the body clears both accumulators, computes the tile's
  activations, stores them, and adds the tile's masked column sums to the accumulators. It neither reads what the
  accumulators held before nor touches the two per-sequence outputs. The run below is the body's triple in that case,
  the pieces each written buffer ends with found by the symbolic execution itself.
-/
import proofs.«153426_j55430847922218_2_alg».proof.Proof.Stage1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole memrefs: the four inputs at their contents, the activations' buffer and the two
    accumulators at anything, the two per-sequence outputs at contents handed back untouched. -/
noncomputable def kernelRun0_A (c : Dev nD) (i : grid0.Coords) (arg2 : Memref sig .tc .vmem S1x1024x768 .f32) (harg2 : arg2.IsWhole) (arg3 : Memref sig .tc .vmem S1x1024x1 .f32) (harg3 : arg3.IsWhole) (arg4 : Memref sig .tc .vmem S768x512 .bf16) (harg4 : arg4.IsWhole) (arg5 : Memref sig .tc .vmem S1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond0_0 i) (hc1 : ¬cond0_1 i)
    (x0 : Vec F S1x1024x768 .f32) (x1 : Vec F S1x1024x1 .f32) (x2 : Vec F S768x512 .bf16) (x3 : Vec F S1x512 .f32) :
    Σ' (L4 : List (View.Piece (Elt F) S1x1024x512 .bf16)) (LS0 : List (View.Piece (Elt F) S1x512 .f32)), { LS1 : List (View.Piece (Elt F) S1x512 .f32) //
      ∀ (xi5 xi6 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xi5 ∗ owns (c : Thread nD τ) arg8 fullShare xi6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Gen

end
-- ==== Proof.Stage1EmitRun.lean ====
/-
  The statistics pass at the LAST tile of a sequence: the body reads both accumulators as the first tile left them,
  computes and stores the tile's activations, adds the tile's masked column sums to the accumulators, and copies
  the two accumulators out to the per-sequence outputs. The run below is the body's triple in that case.
-/
import proofs.«153426_j55430847922218_2_alg».proof.Proof.Stage1ResetRun

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile, on whole memrefs: the four inputs at their contents, the two accumulators at what the
    tile before left (`xs0`, `xs1`), the three output buffers at anything. -/
noncomputable def kernelRun0_B (c : Dev nD) (i : grid0.Coords) (arg2 : Memref sig .tc .vmem S1x1024x768 .f32) (harg2 : arg2.IsWhole) (arg3 : Memref sig .tc .vmem S1x1024x1 .f32) (harg3 : arg3.IsWhole) (arg4 : Memref sig .tc .vmem S768x512 .bf16) (harg4 : arg4.IsWhole) (arg5 : Memref sig .tc .vmem S1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond0_0 i) (hc1 : cond0_1 i)
    (x0 : Vec F S1x1024x768 .f32) (x1 : Vec F S1x1024x1 .f32) (x2 : Vec F S768x512 .bf16) (x3 : Vec F S1x512 .f32) (xs0 xs1 : Vec F S1x512 .f32) :
    Σ' (L4 : List (View.Piece (Elt F) S1x1024x512 .bf16)) (L5 L6 : List (View.Piece (Elt F) S1x1x512 .f32)) (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Gen

end
-- ==== Proof.Stage1Region.lean ====
/-
  The statistics pass, point by point. What the two accumulators hold after each grid point (a first tile starts
  them afresh; a last tile continues from what its sequence's first tile left), what each output's staging
  buffer holds there, the region invariant that carries the accumulators from one point to the next, and the
  pipeline's proof data.
-/
import proofs.«153426_j55430847922218_2_alg».proof.Proof.Stage1EmitRun

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two cases at a grid point -/

theorem evenA (t : Fin cfg0.N) (h0 : t.val % 2 = 0) : cond0_0 (grid0.coords t) ∧ ¬cond0_1 (grid0.coords t) :=
  ⟨(hcond0_0 t).mpr h0, fun h => by have := (hcond0_1 t).mp h; omega⟩
theorem oddB (t : Fin cfg0.N) (h1 : t.val % 2 = 1) : ¬cond0_0 (grid0.coords t) ∧ cond0_1 (grid0.coords t) :=
  ⟨fun h => by have := (hcond0_0 t).mp h; omega, (hcond0_1 t).mpr h1⟩

/-- The body's run at a first tile `t`, on the memrefs and blocks of that point. -/
noncomputable def runA0 (c : Dev nD) (t : Fin cfg0.N) (h0 : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (evenA t h0).1 (evenA t h0).2 (iblk0 V c 0 t) (iblk0 V c 1 t) (iblk0 V c 2 t) (iblk0 V c 3 t)
/-- The body's run at a last tile `t`, the accumulators entering at `xs0`, `xs1`. -/
noncomputable def runB0 (c : Dev nD) (t : Fin cfg0.N) (h1 : t.val % 2 = 1) (xs0 xs1 : Vec F S1x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (oddB t h1).1 (oddB t h1).2 (iblk0 V c 0 t) (iblk0 V c 1 t) (iblk0 V c 2 t) (iblk0 V c 3 t) xs0 xs1

/-! ## The pieces each written buffer ends with, by name -/

/-- First tile: the activations' pieces and the two accumulators'. -/
noncomputable def pA4 (c : Dev nD) (t : Fin cfg0.N) (h0 : t.val % 2 = 0) : List (View.Piece (Elt F) S1x1024x512 .bf16) := (runA0 V c t h0).1
noncomputable def pAS0 (c : Dev nD) (t : Fin cfg0.N) (h0 : t.val % 2 = 0) : List (View.Piece (Elt F) S1x512 .f32) := (runA0 V c t h0).2.1
noncomputable def pAS1 (c : Dev nD) (t : Fin cfg0.N) (h0 : t.val % 2 = 0) : List (View.Piece (Elt F) S1x512 .f32) := (runA0 V c t h0).2.2.1
/-- Last tile: the activations', the two per-sequence outputs' and the two accumulators'. -/
noncomputable def pB4 (c : Dev nD) (t : Fin cfg0.N) (h1 : t.val % 2 = 1) (xs0 xs1 : Vec F S1x512 .f32) : List (View.Piece (Elt F) S1x1024x512 .bf16) := (runB0 V c t h1 xs0 xs1).1
noncomputable def pB5 (c : Dev nD) (t : Fin cfg0.N) (h1 : t.val % 2 = 1) (xs0 xs1 : Vec F S1x512 .f32) : List (View.Piece (Elt F) S1x1x512 .f32) := (runB0 V c t h1 xs0 xs1).2.1
noncomputable def pB6 (c : Dev nD) (t : Fin cfg0.N) (h1 : t.val % 2 = 1) (xs0 xs1 : Vec F S1x512 .f32) : List (View.Piece (Elt F) S1x1x512 .f32) := (runB0 V c t h1 xs0 xs1).2.2.1
noncomputable def pBS0 (c : Dev nD) (t : Fin cfg0.N) (h1 : t.val % 2 = 1) (xs0 xs1 : Vec F S1x512 .f32) : List (View.Piece (Elt F) S1x512 .f32) := (runB0 V c t h1 xs0 xs1).2.2.2.1
noncomputable def pBS1 (c : Dev nD) (t : Fin cfg0.N) (h1 : t.val % 2 = 1) (xs0 xs1 : Vec F S1x512 .f32) : List (View.Piece (Elt F) S1x512 .f32) := (runB0 V c t h1 xs0 xs1).2.2.2.2.1

/-- The first tile's triple, over the named pieces. -/
theorem runA0_spec (c : Dev nD) (t : Fin cfg0.N) (h0 : t.val % 2 = 0) (xi5 xi6 : Vec F S1x1x512 .f32) (E : Set ℕ) (K : PUnit → sProp 𝕄) :
    iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
        ∗ (∃ d, owns (c : Thread nD τ) (ms0_4 t) fullShare d) ∗ owns (c : Thread nD τ) (ms0_5 t) fullShare xi5 ∗ owns (c : Thread nD τ) (ms0_6 t) fullShare xi6
        ∗ (∃ d, owns (c : Thread nD τ) scM0_0 fullShare d) ∗ (∃ d, owns (c : Thread nD τ) scM0_1 fullShare d)
        ∗ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
            ∗ (∃ f, (ms0_4 t).view.loc (c : Thread nD τ) ↦[(ms0_4 t).view.set]{fullShare} (ms0_4 t).view.writes (Elt F) f (pA4 V c t h0)) ∗ owns (c : Thread nD τ) (ms0_5 t) fullShare xi5 ∗ owns (c : Thread nD τ) (ms0_6 t) fullShare xi6
            ∗ (∃ f, scM0_0.view.loc (c : Thread nD τ) ↦[scM0_0.view.set]{fullShare} scM0_0.view.writes (Elt F) f (pAS0 V c t h0)) ∗ (∃ f, scM0_1.view.loc (c : Thread nD τ) ↦[scM0_1.view.set]{fullShare} scM0_1.view.writes (Elt F) f (pAS1 V c t h0))) -∗ K ⟨⟩))
      ⊢ wp frame (wpE (defs₀ (F := F)) Variants.none c none) E (bodyAt0 t) K :=
  (runA0 V c t h0).2.2.2 xi5 xi6 E K

/-- The last tile's triple, over the named pieces. -/
theorem runB0_spec (c : Dev nD) (t : Fin cfg0.N) (h1 : t.val % 2 = 1) (xs0 xs1 : Vec F S1x512 .f32) (E : Set ℕ) (K : PUnit → sProp 𝕄) :
    iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
        ∗ (∃ d, owns (c : Thread nD τ) (ms0_4 t) fullShare d) ∗ (∃ d, owns (c : Thread nD τ) (ms0_5 t) fullShare d) ∗ (∃ d, owns (c : Thread nD τ) (ms0_6 t) fullShare d)
        ∗ owns (c : Thread nD τ) scM0_0 fullShare xs0 ∗ owns (c : Thread nD τ) scM0_1 fullShare xs1
        ∗ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
            ∗ (∃ f, (ms0_4 t).view.loc (c : Thread nD τ) ↦[(ms0_4 t).view.set]{fullShare} (ms0_4 t).view.writes (Elt F) f (pB4 V c t h1 xs0 xs1)) ∗ (∃ f, (ms0_5 t).view.loc (c : Thread nD τ) ↦[(ms0_5 t).view.set]{fullShare} (ms0_5 t).view.writes (Elt F) f (pB5 V c t h1 xs0 xs1)) ∗ (∃ f, (ms0_6 t).view.loc (c : Thread nD τ) ↦[(ms0_6 t).view.set]{fullShare} (ms0_6 t).view.writes (Elt F) f (pB6 V c t h1 xs0 xs1))
            ∗ (∃ f, scM0_0.view.loc (c : Thread nD τ) ↦[scM0_0.view.set]{fullShare} scM0_0.view.writes (Elt F) f (pBS0 V c t h1 xs0 xs1)) ∗ (∃ f, scM0_1.view.loc (c : Thread nD τ) ↦[scM0_1.view.set]{fullShare} scM0_1.view.writes (Elt F) f (pBS1 V c t h1 xs0 xs1))) -∗ K ⟨⟩))
      ⊢ wp frame (wpE (defs₀ (F := F)) Variants.none c none) E (bodyAt0 t) K :=
  (runB0 V c t h1 xs0 xs1).2.2.2.2.2 E K

/-! ## The pieces cover their buffers -/

theorem cover0_A_4 (c : Dev nD) (t : Fin cfg0.N) (h0 : t.val % 2 = 0) (y : S1x1024x512.Idx) :
    ∃ pc ∈ pA4 V c t h0, y ∈ pc.1.set :=
  View.cover_of_tiledL (pA4 V c t h0) S1x1024x512.size (by unfold pA4 runA0; sl_kernel_rfl) y
theorem scover0_A_0 (c : Dev nD) (t : Fin cfg0.N) (h0 : t.val % 2 = 0) (y : S1x512.Idx) :
    ∃ pc ∈ pAS0 V c t h0, y ∈ pc.1.set :=
  View.cover_of_tiledL (pAS0 V c t h0) S1x512.size (by unfold pAS0 runA0; sl_kernel_rfl) y
theorem scover0_A_1 (c : Dev nD) (t : Fin cfg0.N) (h0 : t.val % 2 = 0) (y : S1x512.Idx) :
    ∃ pc ∈ pAS1 V c t h0, y ∈ pc.1.set :=
  View.cover_of_tiledL (pAS1 V c t h0) S1x512.size (by unfold pAS1 runA0; sl_kernel_rfl) y
theorem cover0_B_4 (c : Dev nD) (t : Fin cfg0.N) (h1 : t.val % 2 = 1) (xs0 xs1 : Vec F S1x512 .f32) (y : S1x1024x512.Idx) :
    ∃ pc ∈ pB4 V c t h1 xs0 xs1, y ∈ pc.1.set :=
  View.cover_of_tiledL (pB4 V c t h1 xs0 xs1) S1x1024x512.size (by unfold pB4 runB0; sl_kernel_rfl) y
theorem cover0_B_5 (c : Dev nD) (t : Fin cfg0.N) (h1 : t.val % 2 = 1) (xs0 xs1 : Vec F S1x512 .f32) (y : S1x1x512.Idx) :
    ∃ pc ∈ pB5 V c t h1 xs0 xs1, y ∈ pc.1.set :=
  View.cover_of_tiledL (pB5 V c t h1 xs0 xs1) S1x1x512.size (by unfold pB5 runB0; sl_kernel_rfl) y
theorem cover0_B_6 (c : Dev nD) (t : Fin cfg0.N) (h1 : t.val % 2 = 1) (xs0 xs1 : Vec F S1x512 .f32) (y : S1x1x512.Idx) :
    ∃ pc ∈ pB6 V c t h1 xs0 xs1, y ∈ pc.1.set :=
  View.cover_of_tiledL (pB6 V c t h1 xs0 xs1) S1x1x512.size (by unfold pB6 runB0; sl_kernel_rfl) y
theorem scover0_B_0 (c : Dev nD) (t : Fin cfg0.N) (h1 : t.val % 2 = 1) (xs0 xs1 : Vec F S1x512 .f32) (y : S1x512.Idx) :
    ∃ pc ∈ pBS0 V c t h1 xs0 xs1, y ∈ pc.1.set :=
  View.cover_of_tiledL (pBS0 V c t h1 xs0 xs1) S1x512.size (by unfold pBS0 runB0; sl_kernel_rfl) y
theorem scover0_B_1 (c : Dev nD) (t : Fin cfg0.N) (h1 : t.val % 2 = 1) (xs0 xs1 : Vec F S1x512 .f32) (y : S1x512.Idx) :
    ∃ pc ∈ pBS1 V c t h1 xs0 xs1, y ∈ pc.1.set :=
  View.cover_of_tiledL (pBS1 V c t h1 xs0 xs1) S1x512.size (by unfold pBS1 runB0; sl_kernel_rfl) y

/-! ## What the accumulators hold after each point -/

/-- Pieces read back over junk: what a covered buffer holds. -/
abbrev back4 (L : List (View.Piece (Elt F) S1x1024x512 .bf16)) : Vec F S1x1024x512 .bf16 := VO0_4.read (Elt F) (VO0_4.writes (Elt F) VO0_4.junk L)
abbrev back5 (L : List (View.Piece (Elt F) S1x1x512 .f32)) : Vec F S1x1x512 .f32 := VO0_5.read (Elt F) (VO0_5.writes (Elt F) VO0_5.junk L)
abbrev back6 (L : List (View.Piece (Elt F) S1x1x512 .f32)) : Vec F S1x1x512 .f32 := VO0_6.read (Elt F) (VO0_6.writes (Elt F) VO0_6.junk L)
abbrev backS0 (L : List (View.Piece (Elt F) S1x512 .f32)) : Vec F S1x512 .f32 := VS0_0.read (Elt F) (VS0_0.writes (Elt F) VS0_0.junk L)
abbrev backS1 (L : List (View.Piece (Elt F) S1x512 .f32)) : Vec F S1x512 .f32 := VS0_1.read (Elt F) (VS0_1.writes (Elt F) VS0_1.junk L)

/-- The pair (masked sum, masked sum of squares) a first tile leaves in the accumulators. -/
noncomputable def accA0 (c : Dev nD) (t : Fin cfg0.N) (h0 : t.val % 2 = 0) : Vec F S1x512 .f32 × Vec F S1x512 .f32 :=
  (backS0 (pAS0 V c t h0), backS1 (pAS1 V c t h0))
/-- The point before a last tile is its sequence's first tile. -/
theorem pred_even (t : Fin cfg0.N) (h1 : t.val % 2 = 1) : t.val - 1 < cfg0.N ∧ (t.val - 1) % 2 = 0 :=
  ⟨Nat.lt_of_le_of_lt (Nat.sub_le _ _) t.isLt, by omega⟩
/-- What the accumulators hold when a last tile `t` starts: what its sequence's first tile left. -/
noncomputable def prevAcc0 (c : Dev nD) (t : Fin cfg0.N) (h1 : t.val % 2 = 1) : Vec F S1x512 .f32 × Vec F S1x512 .f32 :=
  accA0 V c ⟨t.val - 1, (pred_even t h1).1⟩ (pred_even t h1).2
/-- The pair a last tile leaves. -/
noncomputable def accB0 (c : Dev nD) (t : Fin cfg0.N) (h1 : t.val % 2 = 1) : Vec F S1x512 .f32 × Vec F S1x512 .f32 :=
  (backS0 (pBS0 V c t h1 (prevAcc0 V c t h1).1 (prevAcc0 V c t h1).2), backS1 (pBS1 V c t h1 (prevAcc0 V c t h1).1 (prevAcc0 V c t h1).2))

/-- THE ACCUMULATION: what the accumulators hold after the body at position `n`. -/
noncomputable def accAt0 (c : Dev nD) (n : ℕ) (hn : n < cfg0.N) : Vec F S1x512 .f32 × Vec F S1x512 .f32 :=
  if h0 : n % 2 = 0 then accA0 V c ⟨n, hn⟩ h0 else accB0 V c ⟨n, hn⟩ (Nat.mod_two_ne_zero.mp h0)

theorem accAt0_A (c : Dev nD) (t : Fin cfg0.N) (h0 : t.val % 2 = 0) : accAt0 V c t.val t.isLt = accA0 V c t h0 := by
  unfold accAt0; exact dif_pos h0
theorem accAt0_B (c : Dev nD) (t : Fin cfg0.N) (h1 : t.val % 2 = 1) : accAt0 V c t.val t.isLt = accB0 V c t h1 := by
  unfold accAt0; exact dif_neg (Nat.mod_two_ne_zero.mpr h1)
/-- Before a last tile the accumulators hold what the first tile left. -/
theorem accAt0_pred (c : Dev nD) (t : Fin cfg0.N) (h1 : t.val % 2 = 1) (hlt : t.val - 1 < cfg0.N) :
    accAt0 V c (t.val - 1) hlt = prevAcc0 V c t h1 :=
  accAt0_A V c ⟨t.val - 1, hlt⟩ (pred_even t h1).2

/-- What each output's staging buffer holds after the body at point `t` (for the two per-sequence outputs at a first
    tile, where they are idle, a placeholder nothing consults). -/
noncomputable def out4At0 (c : Dev nD) (t : Fin cfg0.N) : Vec F S1x1024x512 .bf16 :=
  if h0 : t.val % 2 = 0 then back4 (pA4 V c t h0)
  else back4 (pB4 V c t (Nat.mod_two_ne_zero.mp h0) (prevAcc0 V c t (Nat.mod_two_ne_zero.mp h0)).1 (prevAcc0 V c t (Nat.mod_two_ne_zero.mp h0)).2)
noncomputable def out5At0 (c : Dev nD) (t : Fin cfg0.N) : Vec F S1x1x512 .f32 :=
  if h0 : t.val % 2 = 0 then back5 []
  else back5 (pB5 V c t (Nat.mod_two_ne_zero.mp h0) (prevAcc0 V c t (Nat.mod_two_ne_zero.mp h0)).1 (prevAcc0 V c t (Nat.mod_two_ne_zero.mp h0)).2)
noncomputable def out6At0 (c : Dev nD) (t : Fin cfg0.N) : Vec F S1x1x512 .f32 :=
  if h0 : t.val % 2 = 0 then back6 []
  else back6 (pB6 V c t (Nat.mod_two_ne_zero.mp h0) (prevAcc0 V c t (Nat.mod_two_ne_zero.mp h0)).1 (prevAcc0 V c t (Nat.mod_two_ne_zero.mp h0)).2)

theorem out4At0_A (c : Dev nD) (t : Fin cfg0.N) (h0 : t.val % 2 = 0) : out4At0 V c t = back4 (pA4 V c t h0) := by
  unfold out4At0; exact dif_pos h0
theorem out4At0_B (c : Dev nD) (t : Fin cfg0.N) (h1 : t.val % 2 = 1) :
    out4At0 V c t = back4 (pB4 V c t h1 (prevAcc0 V c t h1).1 (prevAcc0 V c t h1).2) := by
  unfold out4At0; exact dif_neg (Nat.mod_two_ne_zero.mpr h1)
theorem out5At0_B (c : Dev nD) (t : Fin cfg0.N) (h1 : t.val % 2 = 1) :
    out5At0 V c t = back5 (pB5 V c t h1 (prevAcc0 V c t h1).1 (prevAcc0 V c t h1).2) := by
  unfold out5At0; exact dif_neg (Nat.mod_two_ne_zero.mpr h1)
theorem out6At0_B (c : Dev nD) (t : Fin cfg0.N) (h1 : t.val % 2 = 1) :
    out6At0 V c t = back6 (pB6 V c t h1 (prevAcc0 V c t h1).1 (prevAcc0 V c t h1).2) := by
  unfold out6At0; exact dif_neg (Nat.mod_two_ne_zero.mpr h1)

/-! ## The region invariant -/

/-- Before the first point the class's invariant (every scratch at anything); before any later point the two
    accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2 ∗ otherScoped0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2 ∗ otherScoped0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out4At0 V c t
    | ⟨5, _⟩ => out5At0 V c t
    | ⟨6, _⟩ => out6At0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out4At0 V c t := by dsimp only [dat0]
theorem after0_5 (c : Dev nD) (t : Fin cfg0.N) : (dat0 V c).after 5 t = out5At0 V c t := by dsimp only [dat0]
theorem after0_6 (c : Dev nD) (t : Fin cfg0.N) : (dat0 V c).after 6 t = out6At0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Gen

end
-- ==== Proof.Stage1Body.lean ====
/-
  The statistics pass: the body's obligation at every grid point. At a first tile the accumulators may hold
  anything (they are cleared before they are read); at a last tile they hold what the first tile left, which is
  what the invariant carries. Either way the run of the matching case applies, and the invariant takes the
  accumulators back at the contents the accumulation names.
-/
import proofs.«153426_j55430847922218_2_alg».proof.Proof.Stage1Region

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

/-- At any position the invariant yields the two accumulators at SOME contents (what a first tile needs). -/
theorem Phi_any0 (c : Dev nD) (n : ℕ) (h : n ≤ cfg0.N) :
    PhiS0 V c n h ⊢ iprop(iprop((∃ d, owns (c : Thread nD τ) scM0_0 fullShare d) ∗ (∃ d, owns (c : Thread nD τ) scM0_1 fullShare d) ∗ otherScoped0 (F := F) c) ∗ (∃ r, prngReg c r)) := by
  by_cases hz : n = 0
  · rw [PhiS0_zero V c n h hz, PhiA0_eq]
  · rw [PhiS0_pos V c n h hz]
    iintro ⟨⟨HS0, HS1, Hrest⟩, Hg⟩
    isplitl [HS0 HS1 Hrest]
    · isplitl [HS0]; · iexists _; iexact HS0
      isplitl [HS1]; · iexists _; iexact HS1
      iexact Hrest
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [PhiS0_castSucc V c t]
  by_cases h0 : t.val % 2 = 0
  · -- a first tile
    rw [Dat.leavesExact_idle (dat0 V c) 5 t (idleAt0_5_A t (evenA t h0).1 (evenA t h0).2) (noFlush0_5_A t (evenA t h0).1 (evenA t h0).2)]
    rw [Dat.leavesExact_idle (dat0 V c) 6 t (idleAt0_6_A t (evenA t h0).1 (evenA t h0).2) (noFlush0_6_A t (evenA t h0).1 (evenA t h0).2)]
    rw [out4At0_A V c t h0, accAt0_A V c t h0]
    unfold accA0; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi_any0 V c t.val (Nat.le_of_lt t.isLt)) $$ HΦ
    icases HΦ' with ⟨⟨HS0, HS1, Hrest⟩, Hg⟩
    iapply (runA0_spec V c t h0 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 V c t h0)
        isplitl [HS1]
        · unfold owns; iexists _; isplitr
          swap; · iexact HS1
          ipureintro; exact View.read_writes_of_cover _ _ _ _ _ (scover0_A_1 V c t h0)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 V c t h0)
    isplitl [H5]; · iexists _; iexact H5
    iexists _; iexact H6
  · -- a last tile
    have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5_B t (oddB t h1).1 (oddB t h1).2], after0_5]
    rw [show (dat0 V c).leavesExact 6 t = owns (c : Thread nD τ) (ms0_6 t) fullShare ((dat0 V c).after 6 t) from by
      unfold Dat.leavesExact; rw [liveAt0_6_B t (oddB t h1).1 (oddB t h1).2], after0_6]
    rw [out4At0_B V c t h1, out5At0_B V c t h1, out6At0_B V c t h1, accAt0_B V c t h1]
    unfold accB0; dsimp only
    rw [PhiS0_pos V c _ _ hz, accAt0_pred V c t h1]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (runB0_spec V c t h1 (prevAcc0 V c t h1).1 (prevAcc0 V c t h1).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_B_0 V c t h1 _ _)
        isplitl [HS1]
        · unfold owns; iexists _; isplitr
          swap; · iexact HS1
          ipureintro; exact View.read_writes_of_cover _ _ _ _ _ (scover0_B_1 V c t h1 _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 V c t h1 _ _)
    isplitl [H5]
    · unfold owns; iexists _; isplitr
      swap; · iexact H5
      ipureintro; exact View.read_writes_of_cover _ _ _ _ _ (cover0_B_5 V c t h1 _ _)
    unfold owns; iexists _; isplitr
    swap; · iexact H6
    ipureintro; exact View.read_writes_of_cover _ _ _ _ _ (cover0_B_6 V c t h1 _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact Phi_any0 V c _ _

end Cert.KernelIdeal.Gen

end
-- ==== Proof.Stage2Region.lean ====
/-
  The second region of the kernel program (the per-sequence stage: normalise, rectify, second layer, masked sum),
  as separation logic at any float instance: what each window's staging buffer holds when the body is entered at
  a grid point, what the body leaves in the output's staging buffer, and the body's triple at every point — all
  stated at a parameter V, the contents of the core's buffers when the region is entered.

  The region runs over the 32 sequences. At sequence t its windows are
    0  the first layer's values of the sequence's tokens, [1, 2048, 512] in bf16      (a new block at every point)
    1  the mask column of the sequence, [1, 2048, 1] in f32                           (a new block at every point)
    2  the scale row,  3  the shift row, [1, 512] in f32                              (one block, fetched once)
    4  the second layer's matrix, [512, 512] in bf16                                  (one block, fetched once)
    5  the second layer's bias row, [1, 512] in f32                                   (one block, fetched once)
    6  the output row of the sequence, [1, 1, 512] in f32                             (written back at every point)
  The body reads the six inputs whole and overwrites the whole output row with one value computed from them; so the
  output's buffer after the body is a closed function of the six input blocks (pooledBlock), whatever it held before.
-/
import proofs.«153426_j55430847922218_2_alg».proof.Proof.Gen.KernelIdeal.Launch
import proofs.«153426_j55430847922218_2_alg».proof.Proof.Gen.KernelIdeal.Skeleton
import proofs.«153426_j55430847922218_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 2048 coordinates is decided one coordinate at a time
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Stage2
-- the contents of the core's buffers when the region is entered
variable (V : (c : Dev nD) → (b : Ref sig .tc) → Buf (Elt F) ((c : Thread nD τ).loc b))

/-! ## The windows' blocks -/

/-- Window w's block at sequence t: the part of its array, as the region finds it, that its index map selects. -/
def blk2 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where the
    pipeline does not fetch, the block index has not moved and the body left the block in place. Stated for any proof
    data whose array is V's and whose body leaves the block. Windows 0 and 1 move with the sequence; windows 2 to 5
    have one block, fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = blk2 V c 0 t) (t : Fin cfg1.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk2 V c 1 t) (t : Fin cfg1.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk2 V c 2 t) (t : Fin cfg1.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk2 V c 3 t) (t : Fin cfg1.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blk2 V c 4 t) (t : Fin cfg1.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = blk2 V c 5 t) (t : Fin cfg1.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every load and the one store take a whole buffer -/

abbrev rTokens : Rect S1x2048x512 := Rect.unit (s := S1x2048x512) ![0, 0, 0] S1x2048x512.size inb_S1x2048x512_S1x2048x512_0_0_0
abbrev rMask : Rect S1x2048x1 := Rect.unit (s := S1x2048x1) ![0, 0, 0] S1x2048x1.size inb_S1x2048x1_S1x2048x1_0_0_0
abbrev rRow : Rect S1x512 := Rect.unit (s := S1x512) ![0, 0] S1x512.size inb_S1x512_S1x512_0_0
abbrev rMatrix : Rect S512x512 := Rect.unit (s := S512x512) ![0, 0] S512x512.size inb_S512x512_S512x512_0_0
abbrev rPooled : Rect S1x1x512 := Rect.unit (s := S1x1x512) ![0, 0, 0] S1x1x512.size inb_S1x1x512_S1x1x512_0_0_0

/-! ## What the body leaves in the output's buffer -/

/-- The output row's staging buffer after the body, from the six input blocks (x0 the tokens' first-layer values,
    x1 the mask column, x2 the scale, x3 the shift, x4 the matrix, x5 the bias): its one store, over the whole row. -/
def pooledBlock (x0 : Vec F S1x2048x512 .bf16) (x1 : Vec F S1x2048x1 .f32) (x2 : Vec F S1x512 .f32) (x3 : Vec F S1x512 .f32)
    (x4 : Vec F S512x512 .bf16) (x5 : Vec F S1x512 .f32) : Vec F S1x1x512 .f32 :=
  View.canon [⟨rPooled, k1_pay1 (View.ld x0 rTokens) (View.ld x2 rRow) (View.ld x3 rRow) (View.ld x4 rMatrix) (View.ld x5 rRow) (View.ld x1 rMask)⟩]

/-- The one store's rectangle is the whole row, so it covers it. -/
theorem cover1_6 (p0 : Vec F S1x1x512 .f32) (y : S1x1x512.Idx) :
    ∃ pc ∈ ([⟨rPooled, p0⟩] : List (View.Piece (Elt F) S1x1x512 .f32)), y ∈ pc.1.set :=
  View.cover_of_tiled [⟨rPooled, p0⟩] S1x1x512.size (by rfl) y

/-! ## The body's triple -/

set_option maxHeartbeats 1000000 in
/-- The body on whole staging memrefs, the inputs' at read contents x0 … x5 and the output's at anything, runs to the
    continuation holding the inputs' as they were and the output's at pooledBlock of the inputs'. -/
theorem sound_kernel1 (c : Dev nD) (E : Set ℕ) (i : grid1.Coords)
    (arg1 : Memref sig .tc .vmem S1x2048x512 .bf16) (harg1 : arg1.IsWhole) (arg2 : Memref sig .tc .vmem S1x2048x1 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S1x1x512 .f32) (harg7 : arg7.IsWhole)
    (x0 : Vec F S1x2048x512 .bf16) (x1 : Vec F S1x2048x1 .f32) (x2 : Vec F S1x512 .f32) (x3 : Vec F S1x512 .f32)
    (x4 : Vec F S512x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (pooledBlock x0 x1 x2 x3 x4 x5)) -∗ K ⟨⟩))
      ⊢ wp frame (wpE (defs₀ (F := F)) Variants.none c none) E
          (cc1__stage2_kernel i arg1 harg1 arg2 harg2 arg3 harg3 arg4 harg4 arg5 harg5 arg6 harg6 arg7 harg7) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region on core c: the arrays as the region finds them; after the body at sequence t each
    input's buffer at its block and the output's at pooledBlock of the six input blocks; the invariant that of a body
    which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => pooledBlock (blk2 V c 0 t) (blk2 V c 1 t) (blk2 V c 2 t) (blk2 V c 3 t) (blk2 V c 4 t) (blk2 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk2 V c 0 t := by dsimp only [dat1]
theorem after1_1 (c : Dev nD) (t : Fin cfg1.N) : (dat1 V c).after 1 t = blk2 V c 1 t := by dsimp only [dat1]
theorem after1_2 (c : Dev nD) (t : Fin cfg1.N) : (dat1 V c).after 2 t = blk2 V c 2 t := by dsimp only [dat1]
theorem after1_3 (c : Dev nD) (t : Fin cfg1.N) : (dat1 V c).after 3 t = blk2 V c 3 t := by dsimp only [dat1]
theorem after1_4 (c : Dev nD) (t : Fin cfg1.N) : (dat1 V c).after 4 t = blk2 V c 4 t := by dsimp only [dat1]
theorem after1_5 (c : Dev nD) (t : Fin cfg1.N) : (dat1 V c).after 5 t = blk2 V c 5 t := by dsimp only [dat1]
theorem after1_6 (c : Dev nD) (t : Fin cfg1.N) : (dat1 V c).after 6 t =
    pooledBlock (blk2 V c 0 t) (blk2 V c 1 t) (blk2 V c 2 t) (blk2 V c 3 t) (blk2 V c 4 t) (blk2 V c 5 t) := by dsimp only [dat1]

/-- Each input's current staging buffer holds its block at every point, fetched there or not. -/
theorem before1_0 (c : Dev nD) (t : Fin cfg1.N) (d) : (dat1 V c).before 0 t d = blk2 V c 0 t :=
  before1_0_of V (dat1 V c) (A_eq1 V c 0) (after1_0 V c) t d
theorem before1_1 (c : Dev nD) (t : Fin cfg1.N) (d) : (dat1 V c).before 1 t d = blk2 V c 1 t :=
  before1_1_of V (dat1 V c) (A_eq1 V c 1) (after1_1 V c) t d
theorem before1_2 (c : Dev nD) (t : Fin cfg1.N) (d) : (dat1 V c).before 2 t d = blk2 V c 2 t :=
  before1_2_of V (dat1 V c) (A_eq1 V c 2) (after1_2 V c) t d
theorem before1_3 (c : Dev nD) (t : Fin cfg1.N) (d) : (dat1 V c).before 3 t d = blk2 V c 3 t :=
  before1_3_of V (dat1 V c) (A_eq1 V c 3) (after1_3 V c) t d
theorem before1_4 (c : Dev nD) (t : Fin cfg1.N) (d) : (dat1 V c).before 4 t d = blk2 V c 4 t :=
  before1_4_of V (dat1 V c) (A_eq1 V c 4) (after1_4 V c) t d
theorem before1_5 (c : Dev nD) (t : Fin cfg1.N) (d) : (dat1 V c).before 5 t d = blk2 V c 5 t :=
  before1_5_of V (dat1 V c) (A_eq1 V c 5) (after1_5 V c) t d

/-! ## The body obligation, at a generic point -/

/-- What the body is called with at sequence t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any sequence: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (blk2 V c 0 t) (blk2 V c 1 t) (blk2 V c 2 t) (blk2 V c 3 t) (blk2 V c 4 t) (blk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Stage2

end Cert.KernelIdeal.Gen

end
-- ==== Proof.KernelRun.lean ====
/-
  The whole program, launch to return: host operations, the statistics pass, host operations (the batch
  statistics turned into a scale and a shift), the normalise–project–pool pass, host operations (the division by
  the token counts). The buffer contents at each of the six boundaries are a fold from the launch memory: a stretch
  of host operations applies its operations' functions; a pallas_call leaves its input arrays as it found them and
  each output array at what its write-backs, point after point, add up to. Every weakly fair execution terminates
  with every unscoped buffer at the last boundary's contents; the argument arrays are read back through the fold
  to their launch contents.
-/
import proofs.«153426_j55430847922218_2_alg».proof.Proof.Stage1Body
import proofs.«153426_j55430847922218_2_alg».proof.Proof.Stage2Region
import proofs.«153426_j55430847922218_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch: the statistics pass is entered from these. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the statistics pass: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)
/-- After the second host stretch: the pooling pass is entered from these. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the pooling pass. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E3 m ρ c b :=
  fun b hb => B4_of_ne m ρ c b fun w e => hb (Finset.mem_image.mpr ⟨w, Finset.mem_univ _, e⟩)
/-- After the last host stretch: at the return. -/
abbrev B5 : Dev nD → Valuation τ sig (Elt F) := fun c => StableHlo.after hostOps2 (B4 m ρ c)

/-! ## No segment writes an argument -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (by decide : main_arg2 ∉ hostOps2_W)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl
theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl
theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- Every pipeline's proof data, each at its region's entry contents. -/
def pipeData : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev rest (c : Dev nD) : sProp 𝕄 := iprop((∃ r, prngReg c r) ∗ ∃ W, owes (c : Thread nD τ) (0 : CellTallies nD τ sig Unit) W)
/-- A host stretch as a segment over the unscoped references from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- The last thread state without the `owes`. -/
abbrev Tend (c : Dev nD) : sProp 𝕄 := iprop(StableHlo.held (c : Thread nD τ) (Pipeline.ucRefs τ sig) (B5 m ρ c) ∗ ∃ r, prngReg c r)

/-! ## The two pallas_calls as segments -/

set_option backward.isDefEq.respectTransparency.types false in
/-- The statistics pass over the thread state: entered from every unscoped buffer at `B1`, left at `B2`. The launch's
    class invariant is the region invariant before the first point, and after the last point the accumulators'
    named contents are forgotten. -/
def statsRegion : Pipeline.RegionSeg (pcfgs (F := F)) adm (pipeData m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ rest c)
  post c := iprop(StableHlo.held (c : Thread nD τ) (Pipeline.ucRefs τ sig) (B2 m ρ c) ∗ rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pipeData m ρ) launch0.win launch0.arr_whole c
      ((pipeData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipeData m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (pipeData m ρ 0 c).Φ (Fin.last _) ⊢ (iprop(Pipeline.scopedRest (Ix := Unit) (Name := ℕ) (U := UR sig nD τ) (Lvl := ℕ) (Val := Elt F) spec0 c ∗ ∃ r, prngReg c r) : sProp 𝕄) := by
      have h := hout0 (E1 m ρ) c
      unfold Pipeline.ΦA at h
      exact h
    refine hgive.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pipeData m ρ) ((pipeData m ρ 0 c).share_full fun _ => rfl)
      (E1 m ρ c) (X2 m ρ c) ((pipeData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling pass over the thread state: entered from every unscoped buffer at `B3`, left at `B4`. -/
def poolRegion : Pipeline.RegionSeg (pcfgs (F := F)) adm (pipeData m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ rest c)
  post c := iprop(StableHlo.held (c : Thread nD τ) (Pipeline.ucRefs τ sig) (B4 m ρ c) ∗ rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pipeData m ρ) launch1.win launch1.arr_whole c
      ((pipeData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipeData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pipeData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pipeData m ρ) ((pipeData m ρ 1 c).share_full fun _ => rfl)
      (E3 m ρ c) (X4 m ρ c) ((pipeData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segments : List (Pipeline.Seg (pcfgs (F := F)) adm (pipeData m ρ) () defs₀ 𝒱₀ L lv) :=
  [ .host (hostStretch hostOps0 hostOps0_sub hostOps0_fresh (B0 m ρ)),
    .region (statsRegion m ρ),
    .host (hostStretch hostOps1 hostOps1_sub hostOps1_fresh (B2 m ρ)),
    .region (poolRegion m ρ),
    .host (hostStretch hostOps2 hostOps2_sub hostOps2_fresh (B4 m ρ)) ]
theorem main_is_segments (c : Dev nD) : main (F := F) c = Pipeline.Seg.run (segments m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final state holds every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pipeData m ρ) () cellOf_inj emb₁ defs₀ 𝒱₀ L lv m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rest c)) (Tₙ := Tend m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ rest c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B5_main_arg0 m ρ c), (h c _ (mem_uc main_arg1 (by decide))).trans (B5_main_arg1 m ρ c),
     (h c _ (mem_uc main_arg2 (by decide))).trans (B5_main_arg2 m ρ c), (h c _ (mem_uc main_arg3 (by decide))).trans (B5_main_arg3 m ρ c),
     (h c _ (mem_uc main_arg4 (by decide))).trans (B5_main_arg4 m ρ c), (h c _ (mem_uc main_arg5 (by decide))).trans (B5_main_arg5 m ρ c),
     (h c _ (mem_uc main_arg6 (by decide))).trans (B5_main_arg6 m ρ c), (h c _ (mem_uc main_arg7 (by decide))).trans (B5_main_arg7 m ρ c)⟩)
    (run_all m ρ)

/-- THE RUN WITH ITS RESULT: every execution ends with the result buffer at the last boundary's contents and
    every argument array as launched. -/
theorem run_value : θ_run defs (onTc (τ := τ) (main (F := F))) ⟨m, fun _ => 0, ρ⟩ (fun r => ∀ c : Dev nD,
      r.2.mem ((c.tc : Thread nD τ).loc main_v34) = B5 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v34 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c),
     (h c _ (mem_uc main_arg5 (by decide))).trans (B5_main_arg5 m ρ c),
     (h c _ (mem_uc main_arg6 (by decide))).trans (B5_main_arg6 m ρ c),
     (h c _ (mem_uc main_arg7 (by decide))).trans (B5_main_arg7 m ρ c)⟩)
    (run_all m ρ)

end Cert.KernelIdeal.Gen

end
-- ==== Proof.WordStage1Base.lean ====
/-
  The statistics pass (the first pallas_call: grid 32 sequences × 2 tiles of 1024 tokens), the part every later
  module of its frame is stated over. At a grid point t = 2·b + l the body sees the tile l of sequence b of the
  hidden states and of the mask, the whole first-layer weight and bias, and writes the tile's activations; two
  one-row accumulators (the masked sum and the masked sum of squares of the activations less the bias) live in
  scratch memory across the two tiles of a sequence: cleared at l = 0, added to at both tiles, copied out at l = 1.
  So the body has two control cases, decided by the parity of the point, and the two per-sequence outputs are
  idle (neither stored nor written back) at even points. Everything is stated at a parameter `V`, the buffer
  contents the region is entered with, and at any float instance.
-/
import proofs.«153426_j55430847922218_2_alg».proof.Proof.Gen.Kernel.Launch
import proofs.«153426_j55430847922218_2_alg».proof.Proof.Gen.Kernel.Skeleton
import proofs.«153426_j55430847922218_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "This is the first tile of the sequence": the accumulators are cleared. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last tile of the sequence": the accumulators are copied out. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At a first tile the two per-sequence outputs are idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At a last tile they are live. -/
theorem liveAt0_5_B : ∀ t : Fin cfg0.N, ¬cond0_0 (grid0.coords t) → cond0_1 (grid0.coords t) → cfg0.idle 5 (grid0.coords t) = false := by decide +kernel
theorem liveAt0_6_B : ∀ t : Fin cfg0.N, ¬cond0_0 (grid0.coords t) → cond0_1 (grid0.coords t) → cfg0.idle 6 (grid0.coords t) = false := by decide +kernel

/-! ## The staging and scratch memrefs -/

/-- One staging buffer of each output window, through which its contents are stated. -/
abbrev VO0_4 : View sig .tc .vmem S1x1024x512 .bf16 := (Memref.whole cc0_stg4_0 : Memref sig .tc .vmem S1x1024x512 .bf16).view
abbrev VO0_5 : View sig .tc .vmem S1x1x512 .f32 := (Memref.whole cc0_stg5_0 : Memref sig .tc .vmem S1x1x512 .f32).view
abbrev VO0_6 : View sig .tc .vmem S1x1x512 .f32 := (Memref.whole cc0_stg6_0 : Memref sig .tc .vmem S1x1x512 .f32).view
/-- Each window's current staging memref at point `t`, as the pipeline passes it, and its wholeness. -/
abbrev ms0_0 (t : Fin cfg0.N) : Memref sig .tc .vmem S1x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
/-- The two accumulators: whole scoped buffers of the kernel's own, passed beside the windows. -/
abbrev scM0_0 : Memref sig .tc .vmem S1x512 .f32 := Memref.whole cc0_scratch0
abbrev scM0_1 : Memref sig .tc .vmem S1x512 .f32 := Memref.whole cc0_scratch1
abbrev VS0_0 : View sig .tc .vmem S1x512 .f32 := scM0_0.view
abbrev VS0_1 : View sig .tc .vmem S1x512 .f32 := scM0_1.view

/-- The core's scoped buffers that this pallas_call neither stages through nor keeps as scratch (the second
    call's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 (F := F) c) ∗ (∃ r, prngReg c r)) := by
  unfold Pipeline.ΦA otherScoped0; rw [scopedRest0_eq]; simp only [scM0_0, scM0_1, owns_whole]; try rfl

end Cert.Kernel.Gen

end
-- ==== Proof.WordStage1ResetRun.lean ====
/-
  The statistics pass at the FIRST tile of a sequence: the body clears both accumulators, computes the tile's
  activations, stores them, and adds the tile's masked column sums to the accumulators. It neither reads what the
  accumulators held before nor touches the two per-sequence outputs. The run below is the body's triple in that case,
  the pieces each written buffer ends with found by the symbolic execution itself.
-/
import proofs.«153426_j55430847922218_2_alg».proof.Proof.WordStage1Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile, on whole memrefs: the four inputs at their contents, the activations' buffer and the two
    accumulators at anything, the two per-sequence outputs at contents handed back untouched. -/
noncomputable def kernelRun0_A (c : Dev nD) (i : grid0.Coords) (arg2 : Memref sig .tc .vmem S1x1024x768 .f32) (harg2 : arg2.IsWhole) (arg3 : Memref sig .tc .vmem S1x1024x1 .f32) (harg3 : arg3.IsWhole) (arg4 : Memref sig .tc .vmem S768x512 .bf16) (harg4 : arg4.IsWhole) (arg5 : Memref sig .tc .vmem S1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : cond0_0 i) (hc1 : ¬cond0_1 i)
    (x0 : Vec F S1x1024x768 .f32) (x1 : Vec F S1x1024x1 .f32) (x2 : Vec F S768x512 .bf16) (x3 : Vec F S1x512 .f32) :
    Σ' (L4 : List (View.Piece (Elt F) S1x1024x512 .bf16)) (LS0 : List (View.Piece (Elt F) S1x512 .f32)), { LS1 : List (View.Piece (Elt F) S1x512 .f32) //
      ∀ (xi5 xi6 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xi5 ∗ owns (c : Thread nD τ) arg8 fullShare xi6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Gen

end
-- ==== Proof.WordStage1EmitRun.lean ====
/-
  The statistics pass at the LAST tile of a sequence: the body reads both accumulators as the first tile left them,
  computes and stores the tile's activations, adds the tile's masked column sums to the accumulators, and copies
  the two accumulators out to the per-sequence outputs. The run below is the body's triple in that case.
-/
import proofs.«153426_j55430847922218_2_alg».proof.Proof.WordStage1ResetRun

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last tile, on whole memrefs: the four inputs at their contents, the two accumulators at what the
    tile before left (`xs0`, `xs1`), the three output buffers at anything. -/
noncomputable def kernelRun0_B (c : Dev nD) (i : grid0.Coords) (arg2 : Memref sig .tc .vmem S1x1024x768 .f32) (harg2 : arg2.IsWhole) (arg3 : Memref sig .tc .vmem S1x1024x1 .f32) (harg3 : arg3.IsWhole) (arg4 : Memref sig .tc .vmem S768x512 .bf16) (harg4 : arg4.IsWhole) (arg5 : Memref sig .tc .vmem S1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512 .f32) (harg9 : arg9.IsWhole) (arg10 : Memref sig .tc .vmem S1x512 .f32) (harg10 : arg10.IsWhole) (hc0 : ¬cond0_0 i) (hc1 : cond0_1 i)
    (x0 : Vec F S1x1024x768 .f32) (x1 : Vec F S1x1024x1 .f32) (x2 : Vec F S768x512 .bf16) (x3 : Vec F S1x512 .f32) (xs0 xs1 : Vec F S1x512 .f32) :
    Σ' (L4 : List (View.Piece (Elt F) S1x1024x512 .bf16)) (L5 L6 : List (View.Piece (Elt F) S1x1x512 .f32)) (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Gen

end
-- ==== Proof.WordStage1Region.lean ====
/-
  The statistics pass, point by point. What the two accumulators hold after each grid point (a first tile starts
  them afresh; a last tile continues from what its sequence's first tile left), what each output's staging
  buffer holds there, the region invariant that carries the accumulators from one point to the next, and the
  pipeline's proof data.
-/
import proofs.«153426_j55430847922218_2_alg».proof.Proof.WordStage1EmitRun

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two cases at a grid point -/

theorem evenA (t : Fin cfg0.N) (h0 : t.val % 2 = 0) : cond0_0 (grid0.coords t) ∧ ¬cond0_1 (grid0.coords t) :=
  ⟨(hcond0_0 t).mpr h0, fun h => by have := (hcond0_1 t).mp h; omega⟩
theorem oddB (t : Fin cfg0.N) (h1 : t.val % 2 = 1) : ¬cond0_0 (grid0.coords t) ∧ cond0_1 (grid0.coords t) :=
  ⟨fun h => by have := (hcond0_0 t).mp h; omega, (hcond0_1 t).mpr h1⟩

/-- The body's run at a first tile `t`, on the memrefs and blocks of that point. -/
noncomputable def runA0 (c : Dev nD) (t : Fin cfg0.N) (h0 : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (evenA t h0).1 (evenA t h0).2 (iblk0 V c 0 t) (iblk0 V c 1 t) (iblk0 V c 2 t) (iblk0 V c 3 t)
/-- The body's run at a last tile `t`, the accumulators entering at `xs0`, `xs1`. -/
noncomputable def runB0 (c : Dev nD) (t : Fin cfg0.N) (h1 : t.val % 2 = 1) (xs0 xs1 : Vec F S1x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (oddB t h1).1 (oddB t h1).2 (iblk0 V c 0 t) (iblk0 V c 1 t) (iblk0 V c 2 t) (iblk0 V c 3 t) xs0 xs1

/-! ## The pieces each written buffer ends with, by name -/

/-- First tile: the activations' pieces and the two accumulators'. -/
noncomputable def pA4 (c : Dev nD) (t : Fin cfg0.N) (h0 : t.val % 2 = 0) : List (View.Piece (Elt F) S1x1024x512 .bf16) := (runA0 V c t h0).1
noncomputable def pAS0 (c : Dev nD) (t : Fin cfg0.N) (h0 : t.val % 2 = 0) : List (View.Piece (Elt F) S1x512 .f32) := (runA0 V c t h0).2.1
noncomputable def pAS1 (c : Dev nD) (t : Fin cfg0.N) (h0 : t.val % 2 = 0) : List (View.Piece (Elt F) S1x512 .f32) := (runA0 V c t h0).2.2.1
/-- Last tile: the activations', the two per-sequence outputs' and the two accumulators'. -/
noncomputable def pB4 (c : Dev nD) (t : Fin cfg0.N) (h1 : t.val % 2 = 1) (xs0 xs1 : Vec F S1x512 .f32) : List (View.Piece (Elt F) S1x1024x512 .bf16) := (runB0 V c t h1 xs0 xs1).1
noncomputable def pB5 (c : Dev nD) (t : Fin cfg0.N) (h1 : t.val % 2 = 1) (xs0 xs1 : Vec F S1x512 .f32) : List (View.Piece (Elt F) S1x1x512 .f32) := (runB0 V c t h1 xs0 xs1).2.1
noncomputable def pB6 (c : Dev nD) (t : Fin cfg0.N) (h1 : t.val % 2 = 1) (xs0 xs1 : Vec F S1x512 .f32) : List (View.Piece (Elt F) S1x1x512 .f32) := (runB0 V c t h1 xs0 xs1).2.2.1
noncomputable def pBS0 (c : Dev nD) (t : Fin cfg0.N) (h1 : t.val % 2 = 1) (xs0 xs1 : Vec F S1x512 .f32) : List (View.Piece (Elt F) S1x512 .f32) := (runB0 V c t h1 xs0 xs1).2.2.2.1
noncomputable def pBS1 (c : Dev nD) (t : Fin cfg0.N) (h1 : t.val % 2 = 1) (xs0 xs1 : Vec F S1x512 .f32) : List (View.Piece (Elt F) S1x512 .f32) := (runB0 V c t h1 xs0 xs1).2.2.2.2.1

/-- The first tile's triple, over the named pieces. -/
theorem runA0_spec (c : Dev nD) (t : Fin cfg0.N) (h0 : t.val % 2 = 0) (xi5 xi6 : Vec F S1x1x512 .f32) (E : Set ℕ) (K : PUnit → sProp 𝕄) :
    iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
        ∗ (∃ d, owns (c : Thread nD τ) (ms0_4 t) fullShare d) ∗ owns (c : Thread nD τ) (ms0_5 t) fullShare xi5 ∗ owns (c : Thread nD τ) (ms0_6 t) fullShare xi6
        ∗ (∃ d, owns (c : Thread nD τ) scM0_0 fullShare d) ∗ (∃ d, owns (c : Thread nD τ) scM0_1 fullShare d)
        ∗ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
            ∗ (∃ f, (ms0_4 t).view.loc (c : Thread nD τ) ↦[(ms0_4 t).view.set]{fullShare} (ms0_4 t).view.writes (Elt F) f (pA4 V c t h0)) ∗ owns (c : Thread nD τ) (ms0_5 t) fullShare xi5 ∗ owns (c : Thread nD τ) (ms0_6 t) fullShare xi6
            ∗ (∃ f, scM0_0.view.loc (c : Thread nD τ) ↦[scM0_0.view.set]{fullShare} scM0_0.view.writes (Elt F) f (pAS0 V c t h0)) ∗ (∃ f, scM0_1.view.loc (c : Thread nD τ) ↦[scM0_1.view.set]{fullShare} scM0_1.view.writes (Elt F) f (pAS1 V c t h0))) -∗ K ⟨⟩))
      ⊢ wp frame (wpE (defs₀ (F := F)) Variants.none c none) E (bodyAt0 t) K :=
  (runA0 V c t h0).2.2.2 xi5 xi6 E K

/-- The last tile's triple, over the named pieces. -/
theorem runB0_spec (c : Dev nD) (t : Fin cfg0.N) (h1 : t.val % 2 = 1) (xs0 xs1 : Vec F S1x512 .f32) (E : Set ℕ) (K : PUnit → sProp 𝕄) :
    iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
        ∗ (∃ d, owns (c : Thread nD τ) (ms0_4 t) fullShare d) ∗ (∃ d, owns (c : Thread nD τ) (ms0_5 t) fullShare d) ∗ (∃ d, owns (c : Thread nD τ) (ms0_6 t) fullShare d)
        ∗ owns (c : Thread nD τ) scM0_0 fullShare xs0 ∗ owns (c : Thread nD τ) scM0_1 fullShare xs1
        ∗ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t)
            ∗ (∃ f, (ms0_4 t).view.loc (c : Thread nD τ) ↦[(ms0_4 t).view.set]{fullShare} (ms0_4 t).view.writes (Elt F) f (pB4 V c t h1 xs0 xs1)) ∗ (∃ f, (ms0_5 t).view.loc (c : Thread nD τ) ↦[(ms0_5 t).view.set]{fullShare} (ms0_5 t).view.writes (Elt F) f (pB5 V c t h1 xs0 xs1)) ∗ (∃ f, (ms0_6 t).view.loc (c : Thread nD τ) ↦[(ms0_6 t).view.set]{fullShare} (ms0_6 t).view.writes (Elt F) f (pB6 V c t h1 xs0 xs1))
            ∗ (∃ f, scM0_0.view.loc (c : Thread nD τ) ↦[scM0_0.view.set]{fullShare} scM0_0.view.writes (Elt F) f (pBS0 V c t h1 xs0 xs1)) ∗ (∃ f, scM0_1.view.loc (c : Thread nD τ) ↦[scM0_1.view.set]{fullShare} scM0_1.view.writes (Elt F) f (pBS1 V c t h1 xs0 xs1))) -∗ K ⟨⟩))
      ⊢ wp frame (wpE (defs₀ (F := F)) Variants.none c none) E (bodyAt0 t) K :=
  (runB0 V c t h1 xs0 xs1).2.2.2.2.2 E K

/-! ## The pieces cover their buffers -/

theorem cover0_A_4 (c : Dev nD) (t : Fin cfg0.N) (h0 : t.val % 2 = 0) (y : S1x1024x512.Idx) :
    ∃ pc ∈ pA4 V c t h0, y ∈ pc.1.set :=
  View.cover_of_tiledL (pA4 V c t h0) S1x1024x512.size (by unfold pA4 runA0; sl_kernel_rfl) y
theorem scover0_A_0 (c : Dev nD) (t : Fin cfg0.N) (h0 : t.val % 2 = 0) (y : S1x512.Idx) :
    ∃ pc ∈ pAS0 V c t h0, y ∈ pc.1.set :=
  View.cover_of_tiledL (pAS0 V c t h0) S1x512.size (by unfold pAS0 runA0; sl_kernel_rfl) y
theorem scover0_A_1 (c : Dev nD) (t : Fin cfg0.N) (h0 : t.val % 2 = 0) (y : S1x512.Idx) :
    ∃ pc ∈ pAS1 V c t h0, y ∈ pc.1.set :=
  View.cover_of_tiledL (pAS1 V c t h0) S1x512.size (by unfold pAS1 runA0; sl_kernel_rfl) y
theorem cover0_B_4 (c : Dev nD) (t : Fin cfg0.N) (h1 : t.val % 2 = 1) (xs0 xs1 : Vec F S1x512 .f32) (y : S1x1024x512.Idx) :
    ∃ pc ∈ pB4 V c t h1 xs0 xs1, y ∈ pc.1.set :=
  View.cover_of_tiledL (pB4 V c t h1 xs0 xs1) S1x1024x512.size (by unfold pB4 runB0; sl_kernel_rfl) y
theorem cover0_B_5 (c : Dev nD) (t : Fin cfg0.N) (h1 : t.val % 2 = 1) (xs0 xs1 : Vec F S1x512 .f32) (y : S1x1x512.Idx) :
    ∃ pc ∈ pB5 V c t h1 xs0 xs1, y ∈ pc.1.set :=
  View.cover_of_tiledL (pB5 V c t h1 xs0 xs1) S1x1x512.size (by unfold pB5 runB0; sl_kernel_rfl) y
theorem cover0_B_6 (c : Dev nD) (t : Fin cfg0.N) (h1 : t.val % 2 = 1) (xs0 xs1 : Vec F S1x512 .f32) (y : S1x1x512.Idx) :
    ∃ pc ∈ pB6 V c t h1 xs0 xs1, y ∈ pc.1.set :=
  View.cover_of_tiledL (pB6 V c t h1 xs0 xs1) S1x1x512.size (by unfold pB6 runB0; sl_kernel_rfl) y
theorem scover0_B_0 (c : Dev nD) (t : Fin cfg0.N) (h1 : t.val % 2 = 1) (xs0 xs1 : Vec F S1x512 .f32) (y : S1x512.Idx) :
    ∃ pc ∈ pBS0 V c t h1 xs0 xs1, y ∈ pc.1.set :=
  View.cover_of_tiledL (pBS0 V c t h1 xs0 xs1) S1x512.size (by unfold pBS0 runB0; sl_kernel_rfl) y
theorem scover0_B_1 (c : Dev nD) (t : Fin cfg0.N) (h1 : t.val % 2 = 1) (xs0 xs1 : Vec F S1x512 .f32) (y : S1x512.Idx) :
    ∃ pc ∈ pBS1 V c t h1 xs0 xs1, y ∈ pc.1.set :=
  View.cover_of_tiledL (pBS1 V c t h1 xs0 xs1) S1x512.size (by unfold pBS1 runB0; sl_kernel_rfl) y

/-! ## What the accumulators hold after each point -/

/-- Pieces read back over junk: what a covered buffer holds. -/
abbrev back4 (L : List (View.Piece (Elt F) S1x1024x512 .bf16)) : Vec F S1x1024x512 .bf16 := VO0_4.read (Elt F) (VO0_4.writes (Elt F) VO0_4.junk L)
abbrev back5 (L : List (View.Piece (Elt F) S1x1x512 .f32)) : Vec F S1x1x512 .f32 := VO0_5.read (Elt F) (VO0_5.writes (Elt F) VO0_5.junk L)
abbrev back6 (L : List (View.Piece (Elt F) S1x1x512 .f32)) : Vec F S1x1x512 .f32 := VO0_6.read (Elt F) (VO0_6.writes (Elt F) VO0_6.junk L)
abbrev backS0 (L : List (View.Piece (Elt F) S1x512 .f32)) : Vec F S1x512 .f32 := VS0_0.read (Elt F) (VS0_0.writes (Elt F) VS0_0.junk L)
abbrev backS1 (L : List (View.Piece (Elt F) S1x512 .f32)) : Vec F S1x512 .f32 := VS0_1.read (Elt F) (VS0_1.writes (Elt F) VS0_1.junk L)

/-- The pair (masked sum, masked sum of squares) a first tile leaves in the accumulators. -/
noncomputable def accA0 (c : Dev nD) (t : Fin cfg0.N) (h0 : t.val % 2 = 0) : Vec F S1x512 .f32 × Vec F S1x512 .f32 :=
  (backS0 (pAS0 V c t h0), backS1 (pAS1 V c t h0))
/-- The point before a last tile is its sequence's first tile. -/
theorem pred_even (t : Fin cfg0.N) (h1 : t.val % 2 = 1) : t.val - 1 < cfg0.N ∧ (t.val - 1) % 2 = 0 :=
  ⟨Nat.lt_of_le_of_lt (Nat.sub_le _ _) t.isLt, by omega⟩
/-- What the accumulators hold when a last tile `t` starts: what its sequence's first tile left. -/
noncomputable def prevAcc0 (c : Dev nD) (t : Fin cfg0.N) (h1 : t.val % 2 = 1) : Vec F S1x512 .f32 × Vec F S1x512 .f32 :=
  accA0 V c ⟨t.val - 1, (pred_even t h1).1⟩ (pred_even t h1).2
/-- The pair a last tile leaves. -/
noncomputable def accB0 (c : Dev nD) (t : Fin cfg0.N) (h1 : t.val % 2 = 1) : Vec F S1x512 .f32 × Vec F S1x512 .f32 :=
  (backS0 (pBS0 V c t h1 (prevAcc0 V c t h1).1 (prevAcc0 V c t h1).2), backS1 (pBS1 V c t h1 (prevAcc0 V c t h1).1 (prevAcc0 V c t h1).2))

/-- THE ACCUMULATION: what the accumulators hold after the body at position `n`. -/
noncomputable def accAt0 (c : Dev nD) (n : ℕ) (hn : n < cfg0.N) : Vec F S1x512 .f32 × Vec F S1x512 .f32 :=
  if h0 : n % 2 = 0 then accA0 V c ⟨n, hn⟩ h0 else accB0 V c ⟨n, hn⟩ (Nat.mod_two_ne_zero.mp h0)

theorem accAt0_A (c : Dev nD) (t : Fin cfg0.N) (h0 : t.val % 2 = 0) : accAt0 V c t.val t.isLt = accA0 V c t h0 := by
  unfold accAt0; exact dif_pos h0
theorem accAt0_B (c : Dev nD) (t : Fin cfg0.N) (h1 : t.val % 2 = 1) : accAt0 V c t.val t.isLt = accB0 V c t h1 := by
  unfold accAt0; exact dif_neg (Nat.mod_two_ne_zero.mpr h1)
/-- Before a last tile the accumulators hold what the first tile left. -/
theorem accAt0_pred (c : Dev nD) (t : Fin cfg0.N) (h1 : t.val % 2 = 1) (hlt : t.val - 1 < cfg0.N) :
    accAt0 V c (t.val - 1) hlt = prevAcc0 V c t h1 :=
  accAt0_A V c ⟨t.val - 1, hlt⟩ (pred_even t h1).2

/-- What each output's staging buffer holds after the body at point `t` (for the two per-sequence outputs at a first
    tile, where they are idle, a placeholder nothing consults). -/
noncomputable def out4At0 (c : Dev nD) (t : Fin cfg0.N) : Vec F S1x1024x512 .bf16 :=
  if h0 : t.val % 2 = 0 then back4 (pA4 V c t h0)
  else back4 (pB4 V c t (Nat.mod_two_ne_zero.mp h0) (prevAcc0 V c t (Nat.mod_two_ne_zero.mp h0)).1 (prevAcc0 V c t (Nat.mod_two_ne_zero.mp h0)).2)
noncomputable def out5At0 (c : Dev nD) (t : Fin cfg0.N) : Vec F S1x1x512 .f32 :=
  if h0 : t.val % 2 = 0 then back5 []
  else back5 (pB5 V c t (Nat.mod_two_ne_zero.mp h0) (prevAcc0 V c t (Nat.mod_two_ne_zero.mp h0)).1 (prevAcc0 V c t (Nat.mod_two_ne_zero.mp h0)).2)
noncomputable def out6At0 (c : Dev nD) (t : Fin cfg0.N) : Vec F S1x1x512 .f32 :=
  if h0 : t.val % 2 = 0 then back6 []
  else back6 (pB6 V c t (Nat.mod_two_ne_zero.mp h0) (prevAcc0 V c t (Nat.mod_two_ne_zero.mp h0)).1 (prevAcc0 V c t (Nat.mod_two_ne_zero.mp h0)).2)

theorem out4At0_A (c : Dev nD) (t : Fin cfg0.N) (h0 : t.val % 2 = 0) : out4At0 V c t = back4 (pA4 V c t h0) := by
  unfold out4At0; exact dif_pos h0
theorem out4At0_B (c : Dev nD) (t : Fin cfg0.N) (h1 : t.val % 2 = 1) :
    out4At0 V c t = back4 (pB4 V c t h1 (prevAcc0 V c t h1).1 (prevAcc0 V c t h1).2) := by
  unfold out4At0; exact dif_neg (Nat.mod_two_ne_zero.mpr h1)
theorem out5At0_B (c : Dev nD) (t : Fin cfg0.N) (h1 : t.val % 2 = 1) :
    out5At0 V c t = back5 (pB5 V c t h1 (prevAcc0 V c t h1).1 (prevAcc0 V c t h1).2) := by
  unfold out5At0; exact dif_neg (Nat.mod_two_ne_zero.mpr h1)
theorem out6At0_B (c : Dev nD) (t : Fin cfg0.N) (h1 : t.val % 2 = 1) :
    out6At0 V c t = back6 (pB6 V c t h1 (prevAcc0 V c t h1).1 (prevAcc0 V c t h1).2) := by
  unfold out6At0; exact dif_neg (Nat.mod_two_ne_zero.mpr h1)

/-! ## The region invariant -/

/-- Before the first point the class's invariant (every scratch at anything); before any later point the two
    accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2 ∗ otherScoped0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2 ∗ otherScoped0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out4At0 V c t
    | ⟨5, _⟩ => out5At0 V c t
    | ⟨6, _⟩ => out6At0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out4At0 V c t := by dsimp only [dat0]
theorem after0_5 (c : Dev nD) (t : Fin cfg0.N) : (dat0 V c).after 5 t = out5At0 V c t := by dsimp only [dat0]
theorem after0_6 (c : Dev nD) (t : Fin cfg0.N) : (dat0 V c).after 6 t = out6At0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Gen

end
-- ==== Proof.WordStage1Body.lean ====
/-
  The statistics pass: the body's obligation at every grid point. At a first tile the accumulators may hold
  anything (they are cleared before they are read); at a last tile they hold what the first tile left, which is
  what the invariant carries. Either way the run of the matching case applies, and the invariant takes the
  accumulators back at the contents the accumulation names.
-/
import proofs.«153426_j55430847922218_2_alg».proof.Proof.WordStage1Region

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

/-- At any position the invariant yields the two accumulators at SOME contents (what a first tile needs). -/
theorem Phi_any0 (c : Dev nD) (n : ℕ) (h : n ≤ cfg0.N) :
    PhiS0 V c n h ⊢ iprop(iprop((∃ d, owns (c : Thread nD τ) scM0_0 fullShare d) ∗ (∃ d, owns (c : Thread nD τ) scM0_1 fullShare d) ∗ otherScoped0 (F := F) c) ∗ (∃ r, prngReg c r)) := by
  by_cases hz : n = 0
  · rw [PhiS0_zero V c n h hz, PhiA0_eq]
  · rw [PhiS0_pos V c n h hz]
    iintro ⟨⟨HS0, HS1, Hrest⟩, Hg⟩
    isplitl [HS0 HS1 Hrest]
    · isplitl [HS0]; · iexists _; iexact HS0
      isplitl [HS1]; · iexists _; iexact HS1
      iexact Hrest
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [PhiS0_castSucc V c t]
  by_cases h0 : t.val % 2 = 0
  · -- a first tile
    rw [Dat.leavesExact_idle (dat0 V c) 5 t (idleAt0_5_A t (evenA t h0).1 (evenA t h0).2) (noFlush0_5_A t (evenA t h0).1 (evenA t h0).2)]
    rw [Dat.leavesExact_idle (dat0 V c) 6 t (idleAt0_6_A t (evenA t h0).1 (evenA t h0).2) (noFlush0_6_A t (evenA t h0).1 (evenA t h0).2)]
    rw [out4At0_A V c t h0, accAt0_A V c t h0]
    unfold accA0; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi_any0 V c t.val (Nat.le_of_lt t.isLt)) $$ HΦ
    icases HΦ' with ⟨⟨HS0, HS1, Hrest⟩, Hg⟩
    iapply (runA0_spec V c t h0 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 V c t h0)
        isplitl [HS1]
        · unfold owns; iexists _; isplitr
          swap; · iexact HS1
          ipureintro; exact View.read_writes_of_cover _ _ _ _ _ (scover0_A_1 V c t h0)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 V c t h0)
    isplitl [H5]; · iexists _; iexact H5
    iexists _; iexact H6
  · -- a last tile
    have h1 : t.val % 2 = 1 := by omega
    have hz : t.val ≠ 0 := by omega
    rw [show (dat0 V c).leavesExact 5 t = owns (c : Thread nD τ) (ms0_5 t) fullShare ((dat0 V c).after 5 t) from by
      unfold Dat.leavesExact; rw [liveAt0_5_B t (oddB t h1).1 (oddB t h1).2], after0_5]
    rw [show (dat0 V c).leavesExact 6 t = owns (c : Thread nD τ) (ms0_6 t) fullShare ((dat0 V c).after 6 t) from by
      unfold Dat.leavesExact; rw [liveAt0_6_B t (oddB t h1).1 (oddB t h1).2], after0_6]
    rw [out4At0_B V c t h1, out5At0_B V c t h1, out6At0_B V c t h1, accAt0_B V c t h1]
    unfold accB0; dsimp only
    rw [PhiS0_pos V c _ _ hz, accAt0_pred V c t h1]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (runB0_spec V c t h1 (prevAcc0 V c t h1).1 (prevAcc0 V c t h1).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_B_0 V c t h1 _ _)
        isplitl [HS1]
        · unfold owns; iexists _; isplitr
          swap; · iexact HS1
          ipureintro; exact View.read_writes_of_cover _ _ _ _ _ (scover0_B_1 V c t h1 _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 V c t h1 _ _)
    isplitl [H5]
    · unfold owns; iexists _; isplitr
      swap; · iexact H5
      ipureintro; exact View.read_writes_of_cover _ _ _ _ _ (cover0_B_5 V c t h1 _ _)
    unfold owns; iexists _; isplitr
    swap; · iexact H6
    ipureintro; exact View.read_writes_of_cover _ _ _ _ _ (cover0_B_6 V c t h1 _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact Phi_any0 V c _ _

end Cert.Kernel.Gen

end
-- ==== Proof.WordStage2Region.lean ====
/-
  The second region of the kernel program (the per-sequence stage: normalise, rectify, second layer, masked sum),
  as separation logic at any float instance: what each window's staging buffer holds when the body is entered at
  a grid point, what the body leaves in the output's staging buffer, and the body's triple at every point — all
  stated at a parameter V, the contents of the core's buffers when the region is entered.

  The region runs over the 32 sequences. At sequence t its windows are
    0  the first layer's values of the sequence's tokens, [1, 2048, 512] in bf16      (a new block at every point)
    1  the mask column of the sequence, [1, 2048, 1] in f32                           (a new block at every point)
    2  the scale row,  3  the shift row, [1, 512] in f32                              (one block, fetched once)
    4  the second layer's matrix, [512, 512] in bf16                                  (one block, fetched once)
    5  the second layer's bias row, [1, 512] in f32                                   (one block, fetched once)
    6  the output row of the sequence, [1, 1, 512] in f32                             (written back at every point)
  The body reads the six inputs whole and overwrites the whole output row with one value computed from them; so the
  output's buffer after the body is a closed function of the six input blocks (pooledBlock), whatever it held before.
-/
import proofs.«153426_j55430847922218_2_alg».proof.Proof.Gen.Kernel.Launch
import proofs.«153426_j55430847922218_2_alg».proof.Proof.Gen.Kernel.Skeleton
import proofs.«153426_j55430847922218_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 2048 coordinates is decided one coordinate at a time
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Stage2
-- the contents of the core's buffers when the region is entered
variable (V : (c : Dev nD) → (b : Ref sig .tc) → Buf (Elt F) ((c : Thread nD τ).loc b))

/-! ## The windows' blocks -/

/-- Window w's block at sequence t: the part of its array, as the region finds it, that its index map selects. -/
def blk2 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where the
    pipeline does not fetch, the block index has not moved and the body left the block in place. Stated for any proof
    data whose array is V's and whose body leaves the block. Windows 0 and 1 move with the sequence; windows 2 to 5
    have one block, fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = blk2 V c 0 t) (t : Fin cfg1.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk2 V c 1 t) (t : Fin cfg1.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk2 V c 2 t) (t : Fin cfg1.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk2 V c 3 t) (t : Fin cfg1.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blk2 V c 4 t) (t : Fin cfg1.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = blk2 V c 5 t) (t : Fin cfg1.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every load and the one store take a whole buffer -/

abbrev rTokens : Rect S1x2048x512 := Rect.unit (s := S1x2048x512) ![0, 0, 0] S1x2048x512.size inb_S1x2048x512_S1x2048x512_0_0_0
abbrev rMask : Rect S1x2048x1 := Rect.unit (s := S1x2048x1) ![0, 0, 0] S1x2048x1.size inb_S1x2048x1_S1x2048x1_0_0_0
abbrev rRow : Rect S1x512 := Rect.unit (s := S1x512) ![0, 0] S1x512.size inb_S1x512_S1x512_0_0
abbrev rMatrix : Rect S512x512 := Rect.unit (s := S512x512) ![0, 0] S512x512.size inb_S512x512_S512x512_0_0
abbrev rPooled : Rect S1x1x512 := Rect.unit (s := S1x1x512) ![0, 0, 0] S1x1x512.size inb_S1x1x512_S1x1x512_0_0_0

/-! ## What the body leaves in the output's buffer -/

/-- The output row's staging buffer after the body, from the six input blocks (x0 the tokens' first-layer values,
    x1 the mask column, x2 the scale, x3 the shift, x4 the matrix, x5 the bias): its one store, over the whole row. -/
def pooledBlock (x0 : Vec F S1x2048x512 .bf16) (x1 : Vec F S1x2048x1 .f32) (x2 : Vec F S1x512 .f32) (x3 : Vec F S1x512 .f32)
    (x4 : Vec F S512x512 .bf16) (x5 : Vec F S1x512 .f32) : Vec F S1x1x512 .f32 :=
  View.canon [⟨rPooled, k1_pay1 (View.ld x0 rTokens) (View.ld x2 rRow) (View.ld x3 rRow) (View.ld x4 rMatrix) (View.ld x5 rRow) (View.ld x1 rMask)⟩]

/-- The one store's rectangle is the whole row, so it covers it. -/
theorem cover1_6 (p0 : Vec F S1x1x512 .f32) (y : S1x1x512.Idx) :
    ∃ pc ∈ ([⟨rPooled, p0⟩] : List (View.Piece (Elt F) S1x1x512 .f32)), y ∈ pc.1.set :=
  View.cover_of_tiled [⟨rPooled, p0⟩] S1x1x512.size (by rfl) y

/-! ## The body's triple -/

set_option maxHeartbeats 1000000 in
/-- The body on whole staging memrefs, the inputs' at read contents x0 … x5 and the output's at anything, runs to the
    continuation holding the inputs' as they were and the output's at pooledBlock of the inputs'. -/
theorem sound_kernel1 (c : Dev nD) (E : Set ℕ) (i : grid1.Coords)
    (arg1 : Memref sig .tc .vmem S1x2048x512 .bf16) (harg1 : arg1.IsWhole) (arg2 : Memref sig .tc .vmem S1x2048x1 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S1x1x512 .f32) (harg7 : arg7.IsWhole)
    (x0 : Vec F S1x2048x512 .bf16) (x1 : Vec F S1x2048x1 .f32) (x2 : Vec F S1x512 .f32) (x3 : Vec F S1x512 .f32)
    (x4 : Vec F S512x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (pooledBlock x0 x1 x2 x3 x4 x5)) -∗ K ⟨⟩))
      ⊢ wp frame (wpE (defs₀ (F := F)) Variants.none c none) E
          (cc1__stage2_kernel i arg1 harg1 arg2 harg2 arg3 harg3 arg4 harg4 arg5 harg5 arg6 harg6 arg7 harg7) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region on core c: the arrays as the region finds them; after the body at sequence t each
    input's buffer at its block and the output's at pooledBlock of the six input blocks; the invariant that of a body
    which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => pooledBlock (blk2 V c 0 t) (blk2 V c 1 t) (blk2 V c 2 t) (blk2 V c 3 t) (blk2 V c 4 t) (blk2 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk2 V c 0 t := by dsimp only [dat1]
theorem after1_1 (c : Dev nD) (t : Fin cfg1.N) : (dat1 V c).after 1 t = blk2 V c 1 t := by dsimp only [dat1]
theorem after1_2 (c : Dev nD) (t : Fin cfg1.N) : (dat1 V c).after 2 t = blk2 V c 2 t := by dsimp only [dat1]
theorem after1_3 (c : Dev nD) (t : Fin cfg1.N) : (dat1 V c).after 3 t = blk2 V c 3 t := by dsimp only [dat1]
theorem after1_4 (c : Dev nD) (t : Fin cfg1.N) : (dat1 V c).after 4 t = blk2 V c 4 t := by dsimp only [dat1]
theorem after1_5 (c : Dev nD) (t : Fin cfg1.N) : (dat1 V c).after 5 t = blk2 V c 5 t := by dsimp only [dat1]
theorem after1_6 (c : Dev nD) (t : Fin cfg1.N) : (dat1 V c).after 6 t =
    pooledBlock (blk2 V c 0 t) (blk2 V c 1 t) (blk2 V c 2 t) (blk2 V c 3 t) (blk2 V c 4 t) (blk2 V c 5 t) := by dsimp only [dat1]

/-- Each input's current staging buffer holds its block at every point, fetched there or not. -/
theorem before1_0 (c : Dev nD) (t : Fin cfg1.N) (d) : (dat1 V c).before 0 t d = blk2 V c 0 t :=
  before1_0_of V (dat1 V c) (A_eq1 V c 0) (after1_0 V c) t d
theorem before1_1 (c : Dev nD) (t : Fin cfg1.N) (d) : (dat1 V c).before 1 t d = blk2 V c 1 t :=
  before1_1_of V (dat1 V c) (A_eq1 V c 1) (after1_1 V c) t d
theorem before1_2 (c : Dev nD) (t : Fin cfg1.N) (d) : (dat1 V c).before 2 t d = blk2 V c 2 t :=
  before1_2_of V (dat1 V c) (A_eq1 V c 2) (after1_2 V c) t d
theorem before1_3 (c : Dev nD) (t : Fin cfg1.N) (d) : (dat1 V c).before 3 t d = blk2 V c 3 t :=
  before1_3_of V (dat1 V c) (A_eq1 V c 3) (after1_3 V c) t d
theorem before1_4 (c : Dev nD) (t : Fin cfg1.N) (d) : (dat1 V c).before 4 t d = blk2 V c 4 t :=
  before1_4_of V (dat1 V c) (A_eq1 V c 4) (after1_4 V c) t d
theorem before1_5 (c : Dev nD) (t : Fin cfg1.N) (d) : (dat1 V c).before 5 t d = blk2 V c 5 t :=
  before1_5_of V (dat1 V c) (A_eq1 V c 5) (after1_5 V c) t d

/-! ## The body obligation, at a generic point -/

/-- What the body is called with at sequence t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any sequence: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (blk2 V c 0 t) (blk2 V c 1 t) (blk2 V c 2 t) (blk2 V c 3 t) (blk2 V c 4 t) (blk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Stage2

end Cert.Kernel.Gen

end
-- ==== Proof.WordKernelRun.lean ====
/-
  The whole program, launch to return: host operations, the statistics pass, host operations (the batch
  statistics turned into a scale and a shift), the normalise–project–pool pass, host operations (the division by
  the token counts). The buffer contents at each of the six boundaries are a fold from the launch memory: a stretch
  of host operations applies its operations' functions; a pallas_call leaves its input arrays as it found them and
  each output array at what its write-backs, point after point, add up to. Every weakly fair execution terminates
  with every unscoped buffer at the last boundary's contents; the argument arrays are read back through the fold
  to their launch contents.
-/
import proofs.«153426_j55430847922218_2_alg».proof.Proof.WordStage1Body
import proofs.«153426_j55430847922218_2_alg».proof.Proof.WordStage2Region
import proofs.«153426_j55430847922218_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch: the statistics pass is entered from these. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the statistics pass: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = X2 m ρ c (Pipeline.arrRef spec0 w) :=
  (B2_arr m ρ c w).symm
theorem hrest0 (c : Dev nD) : ∀ b, b ∉ Finset.univ.image (Pipeline.arrRef spec0) → X2 m ρ c b = E1 m ρ c b :=
  fun b hb => B2_of_ne m ρ c b fun w e => hb (Finset.mem_image.mpr ⟨w, Finset.mem_univ _, e⟩)
/-- After the second host stretch: the pooling pass is entered from these. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the pooling pass. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E3 m ρ c b :=
  fun b hb => B4_of_ne m ρ c b fun w e => hb (Finset.mem_image.mpr ⟨w, Finset.mem_univ _, e⟩)
/-- After the last host stretch: at the return. -/
abbrev B5 : Dev nD → Valuation τ sig (Elt F) := fun c => StableHlo.after hostOps2 (B4 m ρ c)

/-! ## No segment writes an argument -/

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_writes_sub hostOps0 _ hostOps0_writes (by decide : main_arg0 ∉ hostOps0_W)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (by decide : main_arg2 ∉ hostOps2_W)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl
theorem B5_main_arg5 (c : Dev nD) : B5 m ρ c (Proc.devRef .tc main_arg5) = m ((c : Thread nD τ).loc main_arg5) :=
  calc B5 m ρ c (Proc.devRef .tc main_arg5)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl
theorem B5_main_arg6 (c : Dev nD) : B5 m ρ c (Proc.devRef .tc main_arg6) = m ((c : Thread nD τ).loc main_arg6) :=
  calc B5 m ρ c (Proc.devRef .tc main_arg6)
    _ = B4 m ρ c (Proc.devRef .tc main_arg6) := StableHlo.after_of_writes_sub hostOps2 _ hostOps2_writes (by decide : main_arg6 ∉ hostOps2_W)
    _ = B3 m ρ c (Proc.devRef .tc main_arg6) := B4_of_ne m ρ c main_arg6 (by decide)
    _ = B2 m ρ c (Proc.devRef .tc main_arg6) := StableHlo.after_of_writes_sub hostOps1 _ hostOps1_writes (by decide : main_arg6 ∉ hostOps1_W)
    _ = B1 m ρ c (Proc.devRef .tc main_arg6) := B2_of_ne m ρ c main_arg6 (by decide)
    _ = B0 m ρ c (Proc.devRef .tc main_arg6) := StableHlo.after_of_writes_sub hostOps0 _ hostOps0_writes (by decide : main_arg6 ∉ hostOps0_W)
    _ = m ((c : Thread nD τ).loc main_arg6) := rfl
theorem B5_main_arg7 (c : Dev nD) : B5 m ρ c (Proc.devRef .tc main_arg7) = m ((c : Thread nD τ).loc main_arg7) :=
  calc B5 m ρ c (Proc.devRef .tc main_arg7)
    _ = B4 m ρ c (Proc.devRef .tc main_arg7) := StableHlo.after_of_writes_sub hostOps2 _ hostOps2_writes (by decide : main_arg7 ∉ hostOps2_W)
    _ = B3 m ρ c (Proc.devRef .tc main_arg7) := B4_of_ne m ρ c main_arg7 (by decide)
    _ = B2 m ρ c (Proc.devRef .tc main_arg7) := StableHlo.after_of_writes_sub hostOps1 _ hostOps1_writes (by decide : main_arg7 ∉ hostOps1_W)
    _ = B1 m ρ c (Proc.devRef .tc main_arg7) := B2_of_ne m ρ c main_arg7 (by decide)
    _ = B0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- Every pipeline's proof data, each at its region's entry contents. -/
def pipeData : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev rest (c : Dev nD) : sProp 𝕄 := iprop((∃ r, prngReg c r) ∗ ∃ W, owes (c : Thread nD τ) (0 : CellTallies nD τ sig Unit) W)
/-- A host stretch as a segment over the unscoped references from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- The last thread state without the `owes`. -/
abbrev Tend (c : Dev nD) : sProp 𝕄 := iprop(StableHlo.held (c : Thread nD τ) (Pipeline.ucRefs τ sig) (B5 m ρ c) ∗ ∃ r, prngReg c r)

/-! ## The two pallas_calls as segments -/

set_option backward.isDefEq.respectTransparency.types false in
/-- The statistics pass over the thread state: entered from every unscoped buffer at `B1`, left at `B2`. The launch's
    class invariant is the region invariant before the first point, and after the last point the accumulators'
    named contents are forgotten. -/
def statsRegion : Pipeline.RegionSeg (pcfgs (F := F)) adm (pipeData m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ rest c)
  post c := iprop(StableHlo.held (c : Thread nD τ) (Pipeline.ucRefs τ sig) (B2 m ρ c) ∗ rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pipeData m ρ) launch0.win launch0.arr_whole c
      ((pipeData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipeData m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (pipeData m ρ 0 c).Φ (Fin.last _) ⊢ (iprop(Pipeline.scopedRest (Ix := Unit) (Name := ℕ) (U := UR sig nD τ) (Lvl := ℕ) (Val := Elt F) spec0 c ∗ ∃ r, prngReg c r) : sProp 𝕄) := by
      have h := hout0 (E1 m ρ) c
      unfold Pipeline.ΦA at h
      exact h
    refine hgive.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pipeData m ρ) ((pipeData m ρ 0 c).share_full fun _ => rfl)
      (E1 m ρ c) (X2 m ρ c) ((pipeData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling pass over the thread state: entered from every unscoped buffer at `B3`, left at `B4`. -/
def poolRegion : Pipeline.RegionSeg (pcfgs (F := F)) adm (pipeData m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ rest c)
  post c := iprop(StableHlo.held (c : Thread nD τ) (Pipeline.ucRefs τ sig) (B4 m ρ c) ∗ rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pipeData m ρ) launch1.win launch1.arr_whole c
      ((pipeData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pipeData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pipeData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pipeData m ρ) ((pipeData m ρ 1 c).share_full fun _ => rfl)
      (E3 m ρ c) (X4 m ρ c) ((pipeData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segments : List (Pipeline.Seg (pcfgs (F := F)) adm (pipeData m ρ) () defs₀ 𝒱₀ L lv) :=
  [ .host (hostStretch hostOps0 hostOps0_sub hostOps0_fresh (B0 m ρ)),
    .region (statsRegion m ρ),
    .host (hostStretch hostOps1 hostOps1_sub hostOps1_fresh (B2 m ρ)),
    .region (poolRegion m ρ),
    .host (hostStretch hostOps2 hostOps2_sub hostOps2_fresh (B4 m ρ)) ]
theorem main_is_segments (c : Dev nD) : main (F := F) c = Pipeline.Seg.run (segments m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final state holds every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pipeData m ρ) () cellOf_inj emb₁ defs₀ 𝒱₀ L lv m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rest c)) (Tₙ := Tend m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ rest c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B5_main_arg0 m ρ c), (h c _ (mem_uc main_arg1 (by decide))).trans (B5_main_arg1 m ρ c),
     (h c _ (mem_uc main_arg2 (by decide))).trans (B5_main_arg2 m ρ c), (h c _ (mem_uc main_arg3 (by decide))).trans (B5_main_arg3 m ρ c),
     (h c _ (mem_uc main_arg4 (by decide))).trans (B5_main_arg4 m ρ c), (h c _ (mem_uc main_arg5 (by decide))).trans (B5_main_arg5 m ρ c),
     (h c _ (mem_uc main_arg6 (by decide))).trans (B5_main_arg6 m ρ c), (h c _ (mem_uc main_arg7 (by decide))).trans (B5_main_arg7 m ρ c)⟩)
    (run_all m ρ)

/-- THE RUN WITH ITS RESULT: every execution ends with the result buffer at the last boundary's contents and
    every argument array as launched. -/
theorem run_value : θ_run defs (onTc (τ := τ) (main (F := F))) ⟨m, fun _ => 0, ρ⟩ (fun r => ∀ c : Dev nD,
      r.2.mem ((c.tc : Thread nD τ).loc main_v34) = B5 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v34 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c),
     (h c _ (mem_uc main_arg5 (by decide))).trans (B5_main_arg5 m ρ c),
     (h c _ (mem_uc main_arg6 (by decide))).trans (B5_main_arg6 m ρ c),
     (h c _ (mem_uc main_arg7 (by decide))).trans (B5_main_arg7 m ρ c)⟩)
    (run_all m ρ)

end Cert.Kernel.Gen

end
-- ==== Proof.Spec.lean ====
/-
  The mathematics both programs compute, as functions of the argument arrays at the exact extended reals.

  A token (b, l) of sequence b carries a 768-vector x; the first layer is the affine map  h = x · W1 + b1  into 512
  features. The batch normalisation takes its statistics over the tokens whose mask entry is one, all sequences
  together: with n = max(number of such tokens, 1),

      reference:  mean = (Σ h·m) / n,            var = (Σ (h - mean)²·m) / n,       y = (h - mean) · rsqrt(var + ε) · γ + β
      kernel:     s = (Σ (h - b1)·m) / n,        v   = (Σ ((h - b1)·m)·(h - b1)) / n - s²,
                  scale = γ · rsqrt(v + ε),      shift = β - (s + b1) · scale,      y = h · scale + shift

  (the kernel centres its one-pass second moment at b1). After a ReLU the second layer is  y⁺ · W2 + b2 , and the result
  is the masked mean over each sequence's tokens:  (Σ_l out · m) / max(Σ_l m, 1).
  Everything here is stated over literal shapes and coordinates; no program is imported.
-/
import Idealize.ShloMosaic.PureOps.Ideal
import Idealize.ShloMosaic.Lib.ValueIdx

noncomputable section

open scoped BigOperators

namespace Cert.MlpPool

open Idealize.ShloMosaic Idealize.ShloMosaic.ValueIdx

/-- The float word of 1.0 and of the batch-norm ε (the f32 nearest 1e-5), as extended reals. -/
def one : EReal := Ideal.ofBits .f32 0x3F800000#32
def eps : EReal := Ideal.ofBits .f32 0x3727C5AC#32

section
variable (X : Fin 32 → Fin 2048 → Fin 768 → EReal) (Mk : Fin 32 → Fin 2048 → EReal)
  (W1 : Fin 768 → Fin 512 → EReal) (b1 γ β : Fin 512 → EReal) (W2 : Fin 512 → Fin 512 → EReal) (b2 : Fin 512 → EReal)

/-- The first layer at token (b, l), feature k. -/
def lin1 (b : Fin 32) (l : Fin 2048) (k : Fin 512) : EReal := (∑ d : Fin 768, X b l d * W1 d k) + b1 k

/-- The number of unmasked tokens of the whole batch, at least one. -/
def nValid : EReal := max (∑ b : Fin 32, ∑ l : Fin 2048, Mk b l) one
/-- The number of unmasked tokens of sequence b, at least one. -/
def counts (b : Fin 32) : EReal := max (∑ l : Fin 2048, Mk b l) one

/-! ### The reference's normalisation -/

def meanR (k : Fin 512) : EReal :=
  Ideal.div (∑ b : Fin 32, ∑ l : Fin 2048, lin1 X W1 b1 b l k * Mk b l) (nValid Mk)
def varR (k : Fin 512) : EReal :=
  Ideal.div (∑ b : Fin 32, ∑ l : Fin 2048,
    ((lin1 X W1 b1 b l k - meanR X Mk W1 b1 k) * (lin1 X W1 b1 b l k - meanR X Mk W1 b1 k)) * Mk b l) (nValid Mk)
def preR (b : Fin 32) (l : Fin 2048) (k : Fin 512) : EReal :=
  ((lin1 X W1 b1 b l k - meanR X Mk W1 b1 k) * Ideal.rsqrt (varR X Mk W1 b1 k + eps)) * γ k + β k

/-! ### The kernel's normalisation -/

def sumK (k : Fin 512) : EReal := ∑ b : Fin 32, ∑ l : Fin 2048, (lin1 X W1 b1 b l k - b1 k) * Mk b l
def sumsqK (k : Fin 512) : EReal :=
  ∑ b : Fin 32, ∑ l : Fin 2048, ((lin1 X W1 b1 b l k - b1 k) * Mk b l) * (lin1 X W1 b1 b l k - b1 k)
def meanS (k : Fin 512) : EReal := Ideal.div (sumK X Mk W1 b1 k) (nValid Mk)
def varK (k : Fin 512) : EReal :=
  Ideal.div (sumsqK X Mk W1 b1 k) (nValid Mk) - meanS X Mk W1 b1 k * meanS X Mk W1 b1 k
def scaleK (k : Fin 512) : EReal := γ k * Ideal.rsqrt (varK X Mk W1 b1 k + eps)
def shiftK (k : Fin 512) : EReal := β k - (meanS X Mk W1 b1 k + b1 k) * scaleK X Mk W1 b1 γ k
def preK (b : Fin 32) (l : Fin 2048) (k : Fin 512) : EReal :=
  lin1 X W1 b1 b l k * scaleK X Mk W1 b1 γ k + shiftK X Mk W1 b1 γ β k

/-! ### The second layer and the masked mean, of either normalisation `pre` -/

def second (pre : Fin 32 → Fin 2048 → Fin 512 → EReal) (b : Fin 32) (l : Fin 2048) (k : Fin 512) : EReal :=
  (∑ j : Fin 512, max (pre b l j) 0 * W2 j k) + b2 k
def pooled (pre : Fin 32 → Fin 2048 → Fin 512 → EReal) (b : Fin 32) (k : Fin 512) : EReal :=
  Ideal.div (∑ l : Fin 2048, second W2 b2 pre b l k * Mk b l) (counts Mk b)

/-- What the reference returns at (b, k). -/
def resR (b : Fin 32) (k : Fin 512) : EReal := pooled Mk W2 b2 (preR X Mk W1 b1 γ β) b k
/-- What the kernel returns at (b, k). -/
def resK (b : Fin 32) (k : Fin 512) : EReal := pooled Mk W2 b2 (preK X Mk W1 b1 γ β) b k

end

/-! ### The argument arrays by coordinates -/

/-- A rank-3 / rank-2 / rank-1 array of the programs read by coordinates. -/
def arr3 {n0 n1 n2 : Nat} (x : (⟨3, ![n0, n1, n2]⟩ : Shape).Idx → EReal) : Fin n0 → Fin n1 → Fin n2 → EReal :=
  fun a b c => x (ix3 a b c)
def arr2 {n0 n1 : Nat} (x : (⟨2, ![n0, n1]⟩ : Shape).Idx → EReal) : Fin n0 → Fin n1 → EReal := fun a b => x (ix2 a b)
def arr1 {n : Nat} (x : (⟨1, ![n]⟩ : Shape).Idx → EReal) : Fin n → EReal := fun a => x (ix1 a)
/-- The integer mask as the extended reals its words denote (signed), by coordinates. -/
def maskOf (x : (⟨2, ![32, 2048]⟩ : Shape).Idx → BitVec 32) : Fin 32 → Fin 2048 → EReal :=
  fun b l => (((x (ix2 b l)).toInt : ℝ) : EReal)

end Cert.MlpPool

end
-- ==== Proof.LibRank3Sums.lean ====
/-
  Two general facts about rank-3 arrays at the exact extended reals.

  * An add-reduction over the LAST axis of an [a, b, c] array, from the zero word, read at (n, l), is the plain sum
    over d of the array at (n, l, d).
  * A sum over the index set of an [n0, n1, n2] array is the triple sum over its three coordinates.
-/
import Idealize.ShloMosaic.Lib.ValueIdx
import Idealize.ShloMosaic.PureOps.Ideal.Laws

noncomputable section

namespace Cert.LibRank3Sums

open Idealize.ShloMosaic Idealize.ShloMosaic.ValueIdx

/-- At the exact extended reals an add-reduction over the last axis of a rank-3 array, from the zero word, is the plain
    sum over that axis: at (n, l) it is the sum over d of the array at (n, l, d). -/
theorem lane3 {a b c : Nat} (v : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (n : Fin a) (l : Fin b) :
    multiReduction .add [2] ⟨2, ![a, b]⟩ v 0x00000000#32 h hφ hacc (ix2 n l) = ∑ d : Fin c, v (ix3 n l d) :=
  (Ideal.multiReduction_add_single v 0x00000000#32 h hφ hacc (ix2 n l)).trans
    (Finset.sum_congr rfl fun d _ => congrArg v (funext fun ax => Fin.ext (by
      match ax with
      | ⟨0, _⟩ => rfl
      | ⟨1, _⟩ => rfl
      | ⟨2, _⟩ => rfl)))

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibRank3Sums

end
-- ==== Proof.HostStretches.lean ====
/-
  What the kernel program's host operations compute, read at an index.

  Around its two device calls the kernel program runs three stretches of host operations. Read at the exact extended
  reals, and for arbitrary contents of the buffers they start from:

  * before the first call: the integer mask is converted (signed) and given a trailing unit axis; the two bias vectors
    become one-row matrices; the two weight matrices are converted between float formats, which changes nothing here;
  * between the calls: from the per-sequence partial sums S and Q of the first call, the token count n = max(Σ mask, 1),
    s = (Σ_b S) / n and v = (Σ_b Q) / n - s², the batch-norm scale γ · rsqrt(v + ε) and shift β - (s + b1) · scale;
  * after the second call: each sequence's sum is divided by max(Σ_l mask, 1).

  Each statement is obtained by composing the operations' results and reading the composed array one operation at a
  time at the index.
-/
import proofs.«153426_j55430847922218_2_alg».proof.Proof.Gen.KernelIdeal.Launch
import proofs.«153426_j55430847922218_2_alg».proof.Proof.Spec
import proofs.«153426_j55430847922218_2_alg».proof.Proof.LibRank3Sums
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

namespace Cert.MlpPool.Host

open Cert.KernelIdeal Cert.KernelIdeal.Gen
open Idealize.ShloMosaic Idealize.ShloMosaic.TcCoe Idealize.SL.Sem Idealize.ShloMosaic.StableHlo Idealize.ShloMosaic.ValueIdx
open scoped BigOperators

/-! ### Layout operations read by coordinates -/

/-- An [a, b] array given a trailing unit axis reads, at (i, j, u), the operand at (i, j). -/
theorem broadcastInDim_ab_ab1_apply {α : Type} {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An [a, 1, b] array cast to [a, b] reads, at (i, j), the operand at (i, 0, j): both sit at row-major position
    i · b + j. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A scalar broadcast to any shape reads the scalar everywhere. -/
theorem broadcastInDim_scalar_apply {α : Type} {t : Shape} (h : S_.BroadcastsInDim t (![] : Fin 0 → Fin t.rank))
    (x : S_.Idx → α) (j : t.Idx) : broadcastInDim t ![] h x j = x ix0 :=
  broadcastInDim_apply _ h x j ix0 (fun ax => ax.elim0)

/-- An [a, 1] column broadcast to [a, b] reads, at (i, j), the operand at (i, 0). -/
theorem broadcastInDim_a1_ab_apply {α : Type} {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- The exact sum of a [32, 512] matrix over its first axis, from an initial value, read at column k. -/
theorem reduceAdd_rows_apply {u : Shape} (x : FVec Ideal S32x512 .f32) (init : u.Idx → EReal)
    (h' : S32x512.ReducesTo [0] S512) (hu : 0 < u.numel) (k : Fin 512) :
    Host.reduceAdd (F := Ideal) x init h' hu (ix1 k) = init (Shape.Idx.first hu) + ∑ b : Fin 32, x (ix2 b k) := by
  simp only [Host.reduceAdd, Ideal.hostReduceAdd_def]
  rw [Ideal.hostReduceAdd_single h' (by decide)]
  refine congrArg (_ + ·) (Finset.sum_congr rfl fun b _ => ?_)
  exact congrArg x (funext fun ax => Fin.ext (by match ax with | ⟨0, _⟩ => rfl | ⟨1, _⟩ => rfl))

/-- The exact sum of a [32, 2048, 1] array over its middle axis, from an initial value, read at (b, u). -/
theorem reduceAdd_mid_apply {w : Shape} (x : FVec Ideal S32x2048x1 .f32) (init : w.Idx → EReal)
    (h' : S32x2048x1.ReducesTo [1] S32x1) (hw : 0 < w.numel) (b : Fin 32) (u : Fin 1) :
    Host.reduceAdd (F := Ideal) x init h' hw (ix2 b u) = init (Shape.Idx.first hw) + ∑ l : Fin 2048, x (ix3 b l u) := by
  simp only [Host.reduceAdd, Ideal.hostReduceAdd_def]
  rw [Ideal.hostReduceAdd_single h' (by decide)]
  refine congrArg (_ + ·) (Finset.sum_congr rfl fun l _ => ?_)
  exact congrArg x (funext fun ax => Fin.ext (by match ax with | ⟨0, _⟩ => rfl | ⟨1, _⟩ => rfl | ⟨2, _⟩ => rfl))

/-- The exact sum of all entries of a [32, 2048, 1] array, from an initial value: the double sum over the two proper
    coordinates. -/
theorem reduceAdd_all_apply {w : Shape} (x : FVec Ideal S32x2048x1 .f32) (init : w.Idx → EReal)
    (h' : S32x2048x1.ReducesTo [0, 1, 2] S_) (hw : 0 < w.numel) (j : S_.Idx) :
    Host.reduceAdd (F := Ideal) x init h' hw j
      = init (Shape.Idx.first hw) + ∑ b : Fin 32, ∑ l : Fin 2048, x (ix3 b l (0 : Fin 1)) := by
  simp only [Host.reduceAdd, Ideal.hostReduceAdd_def]
  rw [Ideal.hostReduceAdd_total h' (fun ax => ax.elim0), Cert.LibRank3Sums.sum_idx3]
  simp only [Fin.sum_univ_one]

/-! ### Before the first call -/

variable (Wv : Valuation τ sig (Elt Ideal))

/-- The mask handed to the calls: the integer mask read signed, with a trailing unit axis. -/
theorem mask_after_ops0 (b : Fin 32) (l : Fin 2048) (u : Fin 1) :
    (StableHlo.after (hostOps0 (F := Ideal)) Wv (Proc.devRef .tc main_v1) : S32x2048x1.Idx → EReal) (ix3 b l u)
      = Cert.MlpPool.maskOf (Wv (Proc.devRef .tc main_arg1)) b l := by
  dsimp only [hostOps0]
  after_results
  exact broadcastInDim_ab_ab1_apply _ _ b l u

/-- The first bias as a one-row matrix. -/
theorem bias1_after_ops0 (u : Fin 1) (k : Fin 512) :
    (StableHlo.after (hostOps0 (F := Ideal)) Wv (Proc.devRef .tc main_v2) : S1x512.Idx → EReal) (ix2 u k)
      = (Wv (Proc.devRef .tc main_arg3) : S512.Idx → EReal) (ix1 k) := by
  dsimp only [hostOps0]
  after_results
  exact shapeCast_a_1a_apply _ _ u k

/-- The second bias as a one-row matrix. -/
theorem bias2_after_ops0 (u : Fin 1) (k : Fin 512) :
    (StableHlo.after (hostOps0 (F := Ideal)) Wv (Proc.devRef .tc main_v3) : S1x512.Idx → EReal) (ix2 u k)
      = (Wv (Proc.devRef .tc main_arg7) : S512.Idx → EReal) (ix1 k) := by
  dsimp only [hostOps0]
  after_results
  exact shapeCast_a_1a_apply _ _ u k

/-- The first weight matrix: a float format change is the identity on the extended reals. -/
theorem weight1_after_ops0 (i : S768x512.Idx) :
    (StableHlo.after (hostOps0 (F := Ideal)) Wv (Proc.devRef .tc main_v4) : S768x512.Idx → EReal) i
      = (Wv (Proc.devRef .tc main_arg2) : S768x512.Idx → EReal) i := by
  dsimp only [hostOps0]
  after_results
  rfl

/-- The second weight matrix, likewise. -/
theorem weight2_after_ops0 (i : S512x512.Idx) :
    (StableHlo.after (hostOps0 (F := Ideal)) Wv (Proc.devRef .tc main_v5) : S512x512.Idx → EReal) i
      = (Wv (Proc.devRef .tc main_arg6) : S512x512.Idx → EReal) i := by
  dsimp only [hostOps0]
  after_results
  rfl

/-! ### Between the calls: the batch-norm scale and shift -/

/-- The statistics in coordinates: from per-sequence partial sums S, Q, the mask M and the vectors b1, γ, β. -/
def meanOf (S : Fin 32 → Fin 512 → EReal) (M : Fin 32 → Fin 2048 → EReal) (k : Fin 512) : EReal :=
  Ideal.div (∑ b : Fin 32, S b k) (max (∑ b : Fin 32, ∑ l : Fin 2048, M b l) Cert.MlpPool.one)
def scaleOf (S Q : Fin 32 → Fin 512 → EReal) (M : Fin 32 → Fin 2048 → EReal) (γ : Fin 512 → EReal) (k : Fin 512) : EReal :=
  γ k * Ideal.rsqrt ((Ideal.div (∑ b : Fin 32, Q b k) (max (∑ b : Fin 32, ∑ l : Fin 2048, M b l) Cert.MlpPool.one)
    - meanOf S M k * meanOf S M k) + Cert.MlpPool.eps)
def shiftOf (S Q : Fin 32 → Fin 512 → EReal) (M : Fin 32 → Fin 2048 → EReal) (b1 γ β : Fin 512 → EReal) (k : Fin 512) : EReal :=
  β k - (meanOf S M k + b1 k) * scaleOf S Q M γ k

section Stages

variable (m1 : FVec Ideal S32x2048x1 .f32) (s1 q1 : FVec Ideal S32x1x512 .f32) (a3 a4 a5 : FVec Ideal S512 .f32)

/-- The token count as the operations build it: the sum of the whole mask from the zero word, at least the word of 1. -/
def stCount : FVec Ideal S_ .f32 :=
  maximumf (Host.reduceAdd m1 (constant (F := Ideal) S_ .f32 0x00000000#32) reducesTo_S32x2048x1_S_d0_1_2 h_S_)
    (constant (F := Ideal) S_ .f32 0x3F800000#32)
/-- A [32, 1, 512] array of partial sums summed over the sequences. -/
def stTotal (x : FVec Ideal S32x1x512 .f32) : FVec Ideal S512 .f32 :=
  Host.reduceAdd (shapeCast S32x512 x shapeCasts_S32x1x512_S32x512) (constant (F := Ideal) S_ .f32 0x00000000#32)
    reducesTo_S32x512_S512_d0 h_S_
def stMean : FVec Ideal S512 .f32 := Host.divf (stTotal s1) (broadcastInDim S512 ![] bcast_S_S512 (stCount m1))
def stVar : FVec Ideal S512 .f32 :=
  subf (Host.divf (stTotal q1) (broadcastInDim S512 ![] bcast_S_S512 (stCount m1))) (mulf (stMean m1 s1) (stMean m1 s1))
def stScale : FVec Ideal S512 .f32 :=
  mulf a4 (Host.rsqrt (addf (stVar m1 s1 q1)
    (broadcastInDim S512 ![] bcast_S_S512 (constant (F := Ideal) S_ .f32 0x3727C5AC#32))))
def stShift : FVec Ideal S512 .f32 := subf a5 (mulf (addf (stMean m1 s1) a3) (stScale m1 s1 q1 a4))

theorem stCount_apply (j : S_.Idx) :
    stCount m1 j = max (∑ b : Fin 32, ∑ l : Fin 2048, m1 (ix3 b l (0 : Fin 1))) Cert.MlpPool.one := by
  unfold stCount
  rw [maximumf_apply, reduceAdd_all_apply, constant_apply, constant_apply, Ideal.ofBits_zero_f32, zero_add]
  rfl

theorem stTotal_apply (x : FVec Ideal S32x1x512 .f32) (k : Fin 512) :
    stTotal x (ix1 k) = ∑ b : Fin 32, x (ix3 b (0 : Fin 1) k) := by
  unfold stTotal
  rw [reduceAdd_rows_apply, constant_apply, Ideal.ofBits_zero_f32, zero_add]
  exact Finset.sum_congr rfl fun b _ => shapeCast_a1b_ab_apply x _ b k

theorem stMean_apply (k : Fin 512) :
    stMean m1 s1 (ix1 k) = meanOf (fun b k => s1 (ix3 b (0 : Fin 1) k)) (fun b l => m1 (ix3 b l (0 : Fin 1))) k := by
  unfold stMean meanOf
  show Ideal.div (stTotal s1 (ix1 k)) (broadcastInDim S512 ![] bcast_S_S512 (stCount m1) (ix1 k)) = _
  rw [stTotal_apply, broadcastInDim_scalar_apply, stCount_apply]

theorem stScale_apply (k : Fin 512) :
    stScale m1 s1 q1 a4 (ix1 k)
      = scaleOf (fun b k => s1 (ix3 b (0 : Fin 1) k)) (fun b k => q1 (ix3 b (0 : Fin 1) k))
          (fun b l => m1 (ix3 b l (0 : Fin 1))) (fun k => a4 (ix1 k)) k := by
  unfold stScale stVar scaleOf
  show a4 (ix1 k) * Ideal.rsqrt ((Ideal.div (stTotal q1 (ix1 k)) (broadcastInDim S512 ![] bcast_S_S512 (stCount m1) (ix1 k))
      - stMean m1 s1 (ix1 k) * stMean m1 s1 (ix1 k))
      + broadcastInDim S512 ![] bcast_S_S512 (constant (F := Ideal) S_ .f32 0x3727C5AC#32) (ix1 k)) = _
  rw [stTotal_apply, broadcastInDim_scalar_apply, stCount_apply, stMean_apply, broadcastInDim_scalar_apply, constant_apply]
  rfl

theorem stShift_apply (k : Fin 512) :
    stShift m1 s1 q1 a3 a4 a5 (ix1 k)
      = shiftOf (fun b k => s1 (ix3 b (0 : Fin 1) k)) (fun b k => q1 (ix3 b (0 : Fin 1) k))
          (fun b l => m1 (ix3 b l (0 : Fin 1))) (fun k => a3 (ix1 k)) (fun k => a4 (ix1 k)) (fun k => a5 (ix1 k)) k := by
  unfold stShift shiftOf
  show a5 (ix1 k) - (stMean m1 s1 (ix1 k) + a3 (ix1 k)) * stScale m1 s1 q1 a4 (ix1 k) = _
  rw [stMean_apply, stScale_apply]

end Stages

/-- The batch-norm scale the second call receives, as a one-row matrix. -/
theorem scale_after_ops1 (u : Fin 1) (k : Fin 512) :
    (StableHlo.after (hostOps1 (F := Ideal)) Wv (Proc.devRef .tc main_v26) : S1x512.Idx → EReal) (ix2 u k)
      = scaleOf (fun b k => (Wv (Proc.devRef .tc main_v6_1) : S32x1x512.Idx → EReal) (ix3 b (0 : Fin 1) k))
          (fun b k => (Wv (Proc.devRef .tc main_v6_2) : S32x1x512.Idx → EReal) (ix3 b (0 : Fin 1) k))
          (fun b l => (Wv (Proc.devRef .tc main_v1) : S32x2048x1.Idx → EReal) (ix3 b l (0 : Fin 1)))
          (Cert.MlpPool.arr1 (Wv (Proc.devRef .tc main_arg4))) k := by
  have e : (StableHlo.after (hostOps1 (F := Ideal)) Wv (Proc.devRef .tc main_v26) : S1x512.Idx → EReal)
      = shapeCast S1x512 (stScale (Wv (Proc.devRef .tc main_v1)) (Wv (Proc.devRef .tc main_v6_1))
          (Wv (Proc.devRef .tc main_v6_2)) (Wv (Proc.devRef .tc main_arg4))) shapeCasts_S512_S1x512 := by
    dsimp only [hostOps1]
    after_results_simp
    rfl
  rw [e, shapeCast_a_1a_apply, stScale_apply]
  rfl

/-- The batch-norm shift the second call receives, as a one-row matrix. -/
theorem shift_after_ops1 (u : Fin 1) (k : Fin 512) :
    (StableHlo.after (hostOps1 (F := Ideal)) Wv (Proc.devRef .tc main_v27) : S1x512.Idx → EReal) (ix2 u k)
      = shiftOf (fun b k => (Wv (Proc.devRef .tc main_v6_1) : S32x1x512.Idx → EReal) (ix3 b (0 : Fin 1) k))
          (fun b k => (Wv (Proc.devRef .tc main_v6_2) : S32x1x512.Idx → EReal) (ix3 b (0 : Fin 1) k))
          (fun b l => (Wv (Proc.devRef .tc main_v1) : S32x2048x1.Idx → EReal) (ix3 b l (0 : Fin 1)))
          (Cert.MlpPool.arr1 (Wv (Proc.devRef .tc main_arg3))) (Cert.MlpPool.arr1 (Wv (Proc.devRef .tc main_arg4)))
          (Cert.MlpPool.arr1 (Wv (Proc.devRef .tc main_arg5))) k := by
  have e : (StableHlo.after (hostOps1 (F := Ideal)) Wv (Proc.devRef .tc main_v27) : S1x512.Idx → EReal)
      = shapeCast S1x512 (stShift (Wv (Proc.devRef .tc main_v1)) (Wv (Proc.devRef .tc main_v6_1))
          (Wv (Proc.devRef .tc main_v6_2)) (Wv (Proc.devRef .tc main_arg3)) (Wv (Proc.devRef .tc main_arg4))
          (Wv (Proc.devRef .tc main_arg5))) shapeCasts_S512_S1x512 := by
    dsimp only [hostOps1]
    after_results_simp
    rfl
  rw [e, shapeCast_a_1a_apply, stShift_apply]
  rfl

/-! ### After the second call: the masked mean -/

section Pool

variable (m1 : FVec Ideal S32x2048x1 .f32) (p : FVec Ideal S32x1x512 .f32)

/-- Each sequence's token count as the operations build it, at least the word of 1, repeated along the features. -/
def stSeqCount : FVec Ideal S32x512 .f32 :=
  broadcastInDim S32x512 ![0, 1] bcast_S32x1_S32x512_0_1
    (maximumf (Host.reduceAdd m1 (constant (F := Ideal) S_ .f32 0x00000000#32) reducesTo_S32x2048x1_S32x1_d1 h_S_)
      (broadcastInDim S32x1 ![] bcast_S_S32x1 (constant (F := Ideal) S_ .f32 0x3F800000#32)))
def stPooled : FVec Ideal S32x512 .f32 :=
  Host.divf (shapeCast S32x512 p shapeCasts_S32x1x512_S32x512) (stSeqCount m1)

theorem stSeqCount_apply (b : Fin 32) (k : Fin 512) :
    stSeqCount m1 (ix2 b k) = max (∑ l : Fin 2048, m1 (ix3 b l (0 : Fin 1))) Cert.MlpPool.one := by
  unfold stSeqCount
  rw [broadcastInDim_a1_ab_apply, maximumf_apply, reduceAdd_mid_apply, constant_apply, Ideal.ofBits_zero_f32, zero_add,
    broadcastInDim_scalar_apply, constant_apply]
  rfl

theorem stPooled_apply (b : Fin 32) (k : Fin 512) :
    stPooled m1 p (ix2 b k)
      = Ideal.div (p (ix3 b (0 : Fin 1) k)) (max (∑ l : Fin 2048, m1 (ix3 b l (0 : Fin 1))) Cert.MlpPool.one) := by
  unfold stPooled
  show Ideal.div (shapeCast S32x512 p shapeCasts_S32x1x512_S32x512 (ix2 b k)) (stSeqCount m1 (ix2 b k)) = _
  rw [shapeCast_a1b_ab_apply, stSeqCount_apply]

end Pool

/-- The program's result: each sequence's sum from the second call divided by its token count, at least one. -/
theorem pooled_after_ops2 (b : Fin 32) (k : Fin 512) :
    (StableHlo.after (hostOps2 (F := Ideal)) Wv (Proc.devRef .tc main_v34) : S32x512.Idx → EReal) (ix2 b k)
      = Ideal.div ((Wv (Proc.devRef .tc main_v28) : S32x1x512.Idx → EReal) (ix3 b (0 : Fin 1) k))
          (max (∑ l : Fin 2048, (Wv (Proc.devRef .tc main_v1) : S32x2048x1.Idx → EReal) (ix3 b l (0 : Fin 1)))
            Cert.MlpPool.one) := by
  have e : (StableHlo.after (hostOps2 (F := Ideal)) Wv (Proc.devRef .tc main_v34) : S32x512.Idx → EReal)
      = stPooled (Wv (Proc.devRef .tc main_v1)) (Wv (Proc.devRef .tc main_v28)) := by
    dsimp only [hostOps2]
    after_results
    rfl
  rw [e, stPooled_apply]

end Cert.MlpPool.Host

end
-- ==== Proof.FoldReads.lean ====
/-
  The fold read back.

  The contents of the buffers at the six boundaries of the program are a fold from the launch memory: a stretch of
  host operations applies its operations, a device call replaces its output arrays and leaves every other buffer.
  What the final assembly needs of that fold is read here, buffer by buffer:

  * a buffer no stretch writes and no call outputs keeps its contents across that step, so an argument array is still
    the launch array wherever it is read, and the mask built before the first call is still the mask, read signed, at
    every later boundary;
  * a call's output array, right after the call, is what its write-backs added up to;
  * the arrays the host operations build — the biases as rows, the converted weights, the batch-norm scale and shift,
    the pooled result — are the functions of HostStretches, with their inputs rewritten by the reads above.
-/
import proofs.«153426_j55430847922218_2_alg».proof.Proof.KernelRun
import proofs.«153426_j55430847922218_2_alg».proof.Proof.HostStretches
import proofs.«153426_j55430847922218_2_alg».proof.Proof.Stage2Region
import proofs.«153426_j55430847922218_2_alg».proof.Proof.Spec

noncomputable section

namespace Cert.MlpPool.Fold

open Cert.KernelIdeal Cert.KernelIdeal.Gen Cert.MlpPool
open Idealize.ShloMosaic Idealize.ShloMosaic.TcCoe Idealize.SL.Sem Idealize.ShloMosaic.StableHlo Idealize.ShloMosaic.ValueIdx
open scoped BigOperators

variable (m : (ℓ : Loc nD τ sig) → Buf (Elt Ideal) ℓ) (ρ : Dev nD → PrngReg) (c : Dev nD)

/-! ### Buffers that a step leaves alone -/

/-- The first host stretch writes none of the arguments. -/
theorem B1_arg (r : Ref sig .tc) (hr : r ∉ hostOps0_W) :
    B1 m ρ c (Proc.devRef .tc r) = m ((c : Thread nD τ).loc r) :=
  (StableHlo.after_of_writes_sub hostOps0 _ hostOps0_writes hr).trans rfl

/-- The second host stretch leaves a buffer it does not write. -/
theorem B3_of_not_written (r : Ref sig .tc) (hr : r ∉ hostOps1_W) :
    B3 m ρ c (Proc.devRef .tc r) = B2 m ρ c (Proc.devRef .tc r) :=
  StableHlo.after_of_writes_sub hostOps1 _ hostOps1_writes hr

/-! ### Entry of the first call -/

theorem E1_arg0 : E1 m ρ c main_arg0 = m ((c : Thread nD τ).loc main_arg0) :=
  B1_arg m ρ c main_arg0 (by decide)

theorem E1_mask (b : Fin 32) (l : Fin 2048) (u : Fin 1) :
    (E1 m ρ c main_v1 : S32x2048x1.Idx → EReal) (ix3 b l u) = maskOf (m ((c : Thread nD τ).loc main_arg1)) b l :=
  Host.mask_after_ops0 (B0 m ρ c) b l u

theorem E1_weight1 (i : S768x512.Idx) :
    (E1 m ρ c main_v4 : S768x512.Idx → EReal) i = (m ((c : Thread nD τ).loc main_arg2) : S768x512.Idx → EReal) i :=
  Host.weight1_after_ops0 (B0 m ρ c) i

theorem E1_bias1 (u : Fin 1) (k : Fin 512) :
    (E1 m ρ c main_v2 : S1x512.Idx → EReal) (ix2 u k) = (m ((c : Thread nD τ).loc main_arg3) : S512.Idx → EReal) (ix1 k) :=
  Host.bias1_after_ops0 (B0 m ρ c) u k

/-! ### Through the middle -/

theorem B2_arg3 : B2 m ρ c (Proc.devRef .tc main_arg3) = m ((c : Thread nD τ).loc main_arg3) :=
  (B2_of_ne m ρ c main_arg3 (by decide)).trans (B1_arg m ρ c main_arg3 (by decide))
theorem B2_arg4 : B2 m ρ c (Proc.devRef .tc main_arg4) = m ((c : Thread nD τ).loc main_arg4) :=
  (B2_of_ne m ρ c main_arg4 (by decide)).trans (B1_arg m ρ c main_arg4 (by decide))
theorem B2_arg5 : B2 m ρ c (Proc.devRef .tc main_arg5) = m ((c : Thread nD τ).loc main_arg5) :=
  (B2_of_ne m ρ c main_arg5 (by decide)).trans (B1_arg m ρ c main_arg5 (by decide))

/-- The mask after the first call … -/
theorem B2_mask (b : Fin 32) (l : Fin 2048) (u : Fin 1) :
    (B2 m ρ c (Proc.devRef .tc main_v1) : S32x2048x1.Idx → EReal) (ix3 b l u)
      = maskOf (m ((c : Thread nD τ).loc main_arg1)) b l := by
  -- the mask is an input array of the first call: after the call it is the array the call was entered with
  have e : B2 m ρ c (Proc.devRef .tc main_v1) = E1 m ρ c main_v1 :=
    (B2_arr m ρ c 1).trans (((dat0 (E1 m ρ) c).arrAt_in 1 rfl _).trans (A_eq0 (E1 m ρ) c 1))
  rw [e]
  exact E1_mask m ρ c b l u
/-- … at the entry of the second call … -/
theorem B3_mask (b : Fin 32) (l : Fin 2048) (u : Fin 1) :
    (B3 m ρ c (Proc.devRef .tc main_v1) : S32x2048x1.Idx → EReal) (ix3 b l u)
      = maskOf (m ((c : Thread nD τ).loc main_arg1)) b l := by
  rw [B3_of_not_written m ρ c main_v1 (by decide)]
  exact B2_mask m ρ c b l u
/-- … and after it. -/
theorem B4_mask (b : Fin 32) (l : Fin 2048) (u : Fin 1) :
    (B4 m ρ c (Proc.devRef .tc main_v1) : S32x2048x1.Idx → EReal) (ix3 b l u)
      = maskOf (m ((c : Thread nD τ).loc main_arg1)) b l := by
  -- an input array of the second call too
  have e : B4 m ρ c (Proc.devRef .tc main_v1) = E3 m ρ c main_v1 :=
    (B4_arr m ρ c 1).trans (((dat1 (E3 m ρ) c).arrAt_in 1 rfl _).trans (A_eq1 (E3 m ρ) c 1))
  rw [e]
  exact B3_mask m ρ c b l u

/-! ### What the first call left -/

theorem B2_sums : B2 m ρ c (Proc.devRef .tc main_v6_1) = (dat0 (E1 m ρ) c).arrAt 5 cfg0.N := B2_arr m ρ c 5
theorem B2_sumsqs : B2 m ρ c (Proc.devRef .tc main_v6_2) = (dat0 (E1 m ρ) c).arrAt 6 cfg0.N := B2_arr m ρ c 6
theorem E3_lin : E3 m ρ c main_v6_0 = (dat0 (E1 m ρ) c).arrAt 4 cfg0.N :=
  (B3_of_not_written m ρ c main_v6_0 (by decide)).trans (B2_arr m ρ c 4)

/-! ### Entry of the second call -/

theorem E3_weight2 (i : S512x512.Idx) :
    (E3 m ρ c main_v5 : S512x512.Idx → EReal) i = (m ((c : Thread nD τ).loc main_arg6) : S512x512.Idx → EReal) i := by
  show (B3 m ρ c (Proc.devRef .tc main_v5) : S512x512.Idx → EReal) i = _
  rw [B3_of_not_written m ρ c main_v5 (by decide), B2_of_ne m ρ c main_v5 (by decide)]
  exact Host.weight2_after_ops0 (B0 m ρ c) i

theorem E3_bias2 (u : Fin 1) (k : Fin 512) :
    (E3 m ρ c main_v3 : S1x512.Idx → EReal) (ix2 u k) = (m ((c : Thread nD τ).loc main_arg7) : S512.Idx → EReal) (ix1 k) := by
  show (B3 m ρ c (Proc.devRef .tc main_v3) : S1x512.Idx → EReal) (ix2 u k) = _
  rw [B3_of_not_written m ρ c main_v3 (by decide), B2_of_ne m ρ c main_v3 (by decide)]
  exact Host.bias2_after_ops0 (B0 m ρ c) u k

/-- The three inputs of the scale and the shift, as the reads above give them. -/
theorem B2_sums_fun :
    (fun (b : Fin 32) (k : Fin 512) => (B2 m ρ c (Proc.devRef .tc main_v6_1) : S32x1x512.Idx → EReal) (ix3 b (0 : Fin 1) k))
      = fun b k => ((dat0 (E1 m ρ) c).arrAt 5 cfg0.N : S32x1x512.Idx → EReal) (ix3 b (0 : Fin 1) k) := by
  rw [B2_sums]
theorem B2_sumsqs_fun :
    (fun (b : Fin 32) (k : Fin 512) => (B2 m ρ c (Proc.devRef .tc main_v6_2) : S32x1x512.Idx → EReal) (ix3 b (0 : Fin 1) k))
      = fun b k => ((dat0 (E1 m ρ) c).arrAt 6 cfg0.N : S32x1x512.Idx → EReal) (ix3 b (0 : Fin 1) k) := by
  rw [B2_sumsqs]
theorem B2_mask_fun :
    (fun (b : Fin 32) (l : Fin 2048) => (B2 m ρ c (Proc.devRef .tc main_v1) : S32x2048x1.Idx → EReal) (ix3 b l (0 : Fin 1)))
      = maskOf (m ((c : Thread nD τ).loc main_arg1)) :=
  funext fun b => funext fun l => B2_mask m ρ c b l 0

theorem E3_scale (u : Fin 1) (k : Fin 512) :
    (E3 m ρ c main_v26 : S1x512.Idx → EReal) (ix2 u k)
      = Host.scaleOf (fun b k => ((dat0 (E1 m ρ) c).arrAt 5 cfg0.N : S32x1x512.Idx → EReal) (ix3 b (0 : Fin 1) k))
          (fun b k => ((dat0 (E1 m ρ) c).arrAt 6 cfg0.N : S32x1x512.Idx → EReal) (ix3 b (0 : Fin 1) k))
          (maskOf (m ((c : Thread nD τ).loc main_arg1))) (arr1 (m ((c : Thread nD τ).loc main_arg4))) k := by
  have h := Host.scale_after_ops1 (B2 m ρ c) u k
  rw [B2_sums_fun, B2_sumsqs_fun, B2_mask_fun, B2_arg4] at h
  exact h

theorem E3_shift (u : Fin 1) (k : Fin 512) :
    (E3 m ρ c main_v27 : S1x512.Idx → EReal) (ix2 u k)
      = Host.shiftOf (fun b k => ((dat0 (E1 m ρ) c).arrAt 5 cfg0.N : S32x1x512.Idx → EReal) (ix3 b (0 : Fin 1) k))
          (fun b k => ((dat0 (E1 m ρ) c).arrAt 6 cfg0.N : S32x1x512.Idx → EReal) (ix3 b (0 : Fin 1) k))
          (maskOf (m ((c : Thread nD τ).loc main_arg1))) (arr1 (m ((c : Thread nD τ).loc main_arg3)))
          (arr1 (m ((c : Thread nD τ).loc main_arg4))) (arr1 (m ((c : Thread nD τ).loc main_arg5))) k := by
  have h := Host.shift_after_ops1 (B2 m ρ c) u k
  rw [B2_sums_fun, B2_sumsqs_fun, B2_mask_fun, B2_arg3, B2_arg4, B2_arg5] at h
  exact h

/-! ### The result -/

theorem B4_pooledSums : B4 m ρ c (Proc.devRef .tc main_v28) = (dat1 (E3 m ρ) c).arrAt 6 cfg1.N := B4_arr m ρ c 6

theorem B5_result (b : Fin 32) (k : Fin 512) :
    (B5 m ρ c (Proc.devRef .tc main_v34) : S32x512.Idx → EReal) (ix2 b k)
      = Ideal.div (((dat1 (E3 m ρ) c).arrAt 6 cfg1.N : S32x1x512.Idx → EReal) (ix3 b (0 : Fin 1) k))
          (counts (maskOf (m ((c : Thread nD τ).loc main_arg1))) b) := by
  have h := Host.pooled_after_ops2 (B4 m ρ c) b k
  rw [B4_pooledSums] at h
  refine h.trans ?_
  unfold counts
  refine congrArg (fun s : EReal => Ideal.div _ (max s one)) ?_
  exact Finset.sum_congr rfl fun l _ => B4_mask m ρ c b l 0

end Cert.MlpPool.Fold

end
-- ==== Proof.Stage1Array.lean ====
/-
  From blocks to the arrays, for the first region (the statistics pass: 32 sequences × 2 tiles of 1024 tokens, point
  t = 2·b + q for tile q of sequence b).

  The activations' tile of point t is written back at every point, and the 64 tiles [1, 1024, 512] tile the
  [32, 2048, 512] array: after the region the array at (b, 1024·q + r, j) is what the body left at point 2·b + q,
  read at (0, r, j). The two per-sequence rows are written back at the last tile of their sequence only, and the 32
  rows [1, 1, 512] tile the [32, 1, 512] arrays: after the region each at (b, 0, k) is what the body left at point
  2·b + 1, read at (0, 0, k). The input blocks are read off the arrays the region was entered with: the hidden states'
  and the mask's tile of point 2·b + q are rows 1024·q … 1024·q + 1023 of slab b, and the first layer's weight and
  bias are their whole arrays at every point.
-/
import proofs.«153426_j55430847922218_2_alg».proof.Proof.Stage1Region
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

/-! ## The grid and the windows' index maps -/

/-- The grid point of tile q of sequence b. -/
def tilePoint (b : Fin 32) (q : Fin 2) : Fin cfg0.N :=
  ⟨2 * b.val + q.val, by have hb := b.isLt; have hq := q.isLt; have hN : cfg0.N = 64 := N_0; omega⟩

theorem tilePoint_val (b : Fin 32) (q : Fin 2) : (tilePoint b q).val = 2 * b.val + q.val := rfl

/-- The tile a token of a sequence lies in, and its row inside the tile. -/
def tileOf (l : Fin 2048) : Fin 2 := ⟨l.val / 1024, by have := l.isLt; omega⟩
def rowOf (l : Fin 2048) : Fin 1024 := ⟨l.val % 1024, by omega⟩

/-- The printed index maps, decided over the grid: at point t the hidden states', the mask's and the activations'
    block index is (t / 2, t % 2, 0), the two per-sequence rows' is (t / 2, 0, 0), the weight's and the bias's (0, 0). -/
theorem index_facts0 : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val / 2 ∧ win0_4.index t (1 : Fin 3) = t.val % 2 ∧ win0_4.index t (2 : Fin 3) = 0)
    ∧ (win0_5.index t (0 : Fin 3) = t.val / 2 ∧ win0_5.index t (1 : Fin 3) = 0 ∧ win0_5.index t (2 : Fin 3) = 0)
    ∧ (win0_6.index t (0 : Fin 3) = t.val / 2 ∧ win0_6.index t (1 : Fin 3) = 0 ∧ win0_6.index t (2 : Fin 3) = 0) :=
  (by decide +kernel : ∀ t : Fin grid0.N, _)

section Stage1
variable (V : (c : Dev nD) → (b : Ref sig .tc) → Buf (Elt F) ((c : Thread nD τ).loc b))

/-! ## The activations' array -/

/-- The activations' array as one function of its index: token l of sequence b sits at row l % 1024 of the tile the
    body left at point 2·b + l / 1024. -/
def actArray (c : Dev nD) : S32x2048x512.Idx → Elt F .bf16 :=
  fun i => out4At0 V c (tilePoint (i 0) (tileOf (i 1))) (ix3 (0 : Fin 1) (rowOf (i 1)) (i 2 : Fin 512))

/-- What point t writes back is block t of that array. -/
theorem flushed_act_eq (c : Dev nD) (t : Fin cfg0.N) :
    (dat0 V c).flushed 4 t = ((cfg0.win 4).blk t).view.read (Elt F) (actArray V c) := by
  show (cfg0.win 4).cut (grid0.coords t) ((dat0 V c).after 4 t) = _
  rw [after0_4]
  obtain ⟨-, -, -, -, ⟨e0, e1, e2⟩, -⟩ := index_facts0 t
  funext j
  show out4At0 V c t j = actArray V c (((cfg0.win 4).blk t).view.emb j)
  have hj0 : (j 0).val < 1 := (j 0).isLt
  have hj1 : (j 1).val < 1024 := (j 1).isLt
  have p0 : ((((cfg0.win 4).blk t).view.emb j) 0).val = t.val / 2 := by
    show win0_4.index t (0 : Fin 3) * 1 + 1 * (j 0).val = t.val / 2
    omega
  have p1 : ((((cfg0.win 4).blk t).view.emb j) 1).val = t.val % 2 * 1024 + (j 1).val := by
    show win0_4.index t (1 : Fin 3) * 1024 + 1 * (j 1).val = t.val % 2 * 1024 + (j 1).val
    omega
  have p2 : ((((cfg0.win 4).blk t).view.emb j) 2).val = (j 2).val := by
    show win0_4.index t (2 : Fin 3) * 512 + 1 * (j 2).val = (j 2).val
    omega
  have ht : tilePoint ((((cfg0.win 4).blk t).view.emb j) 0) (tileOf ((((cfg0.win 4).blk t).view.emb j) 1)) = t :=
    Fin.ext (by
      show 2 * ((((cfg0.win 4).blk t).view.emb j) 0).val + ((((cfg0.win 4).blk t).view.emb j) 1).val / 1024 = t.val
      rw [p0, p1]; omega)
  have hj : ix3 (0 : Fin 1) (rowOf ((((cfg0.win 4).blk t).view.emb j) 1)) ((((cfg0.win 4).blk t).view.emb j) 2 : Fin 512) = j := by
    funext a; apply Fin.ext
    match a with
    | ⟨0, _⟩ => show 0 = (j 0).val; omega
    | ⟨1, _⟩ => show ((((cfg0.win 4).blk t).view.emb j) 1).val % 1024 = (j 1).val; rw [p1]; omega
    | ⟨2, _⟩ => exact p2
  show out4At0 V c t j = out4At0 V c (tilePoint _ (tileOf _)) (ix3 (0 : Fin 1) (rowOf _) _)
  rw [ht]
  exact congrArg (out4At0 V c t) hj.symm

/-- An index of the activations' array is in point t's block iff each coordinate is in the block's range on its axis. -/
theorem mem_blk_act (t : Fin cfg0.N) (i : S32x2048x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v6_0).slice (win0_4.rect t)).set ↔ _
  rw [View.set_slice_whole, Rect.mem_set_unit]
  exact Iff.rfl

/-- The 64 tiles tile the array: token l of sequence b is in the block of point 2·b + l / 1024, which writes back. -/
theorem covered_act (i : S32x2048x512.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 512 := (i 2).isLt
  refine ⟨tilePoint (i 0) (tileOf (i 1)), flush0_4 _, ?_⟩
  obtain ⟨-, -, -, -, ⟨e0, e1, e2⟩, -⟩ := index_facts0 (tilePoint (i 0) (tileOf (i 1)))
  have hv : (tilePoint (i 0) (tileOf (i 1))).val = 2 * (i 0).val + (i 1).val / 1024 := rfl
  rw [hv] at e0 e1
  rw [mem_blk_act]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 512 ≤ (i 2).val ∧ (i 2).val < win0_4.index _ (2 : Fin 3) * 512 + 512; omega

/-- The activations' array after the region is that function. -/
theorem arrAt_act (c : Dev nD) : (dat0 V c).arrAt 4 cfg0.N = actArray V c :=
  (dat0 V c).arrAt_eq_of_cover 4 (actArray V c) (fun t _ => flushed_act_eq V c t) covered_act

/-- Read at token l of sequence b: row l % 1024 of what the body left at point 2·b + l / 1024. -/
theorem arrAt_act_apply (c : Dev nD) (b : Fin 32) (l : Fin 2048) (j : Fin 512) :
    (dat0 V c).arrAt 4 cfg0.N (ix3 b l j) = out4At0 V c (tilePoint b (tileOf l)) (ix3 (0 : Fin 1) (rowOf l) j) := by
  rw [arrAt_act]
  rfl

/-- The same with the token split as 1024·q + r. -/
theorem arrAt_act_tile (c : Dev nD) (b : Fin 32) (q : Fin 2) (r : Fin 1024) (j : Fin 512)
    (h : 1024 * q.val + r.val < 2048) :
    (dat0 V c).arrAt 4 cfg0.N (ix3 b (⟨1024 * q.val + r.val, h⟩ : Fin 2048) j) = out4At0 V c (tilePoint b q) (ix3 (0 : Fin 1) r j) := by
  have hq : tileOf (⟨1024 * q.val + r.val, h⟩ : Fin 2048) = q := Fin.ext (by
    show (1024 * q.val + r.val) / 1024 = q.val
    have := r.isLt; omega)
  have hr : rowOf (⟨1024 * q.val + r.val, h⟩ : Fin 2048) = r := Fin.ext (by
    show (1024 * q.val + r.val) % 1024 = r.val
    have := r.isLt; omega)
  rw [arrAt_act_apply, hq, hr]

/-! ## The two per-sequence rows' arrays -/

/-- The masked sums' array: row b is what the body left at the last tile of sequence b. -/
def sumArray (c : Dev nD) : S32x1x512.Idx → Elt F .f32 :=
  fun i => out5At0 V c (tilePoint (i 0) (1 : Fin 2)) (ix3 (0 : Fin 1) (0 : Fin 1) (i 2 : Fin 512))
/-- The masked sums of squares' array, likewise. -/
def sumsqArray (c : Dev nD) : S32x1x512.Idx → Elt F .f32 :=
  fun i => out6At0 V c (tilePoint (i 0) (1 : Fin 2)) (ix3 (0 : Fin 1) (0 : Fin 1) (i 2 : Fin 512))

/-- What a last tile t writes back is block t of the sums' array. -/
theorem flushed_sum_eq (c : Dev nD) (t : Fin cfg0.N) (hf : (cfg0.win 5).flush t = true) :
    (dat0 V c).flushed 5 t = ((cfg0.win 5).blk t).view.read (Elt F) (sumArray V c) := by
  have hodd : t.val % 2 = 1 := (flush0_5 t).mp hf
  show (cfg0.win 5).cut (grid0.coords t) ((dat0 V c).after 5 t) = _
  rw [after0_5]
  obtain ⟨-, -, -, -, -, ⟨e0, e1, e2⟩, -⟩ := index_facts0 t
  funext j
  show out5At0 V c t j = sumArray V c (((cfg0.win 5).blk t).view.emb j)
  have hj0 : (j 0).val < 1 := (j 0).isLt
  have hj1 : (j 1).val < 1 := (j 1).isLt
  have p0 : ((((cfg0.win 5).blk t).view.emb j) 0).val = t.val / 2 := by
    show win0_5.index t (0 : Fin 3) * 1 + 1 * (j 0).val = t.val / 2
    omega
  have p2 : ((((cfg0.win 5).blk t).view.emb j) 2).val = (j 2).val := by
    show win0_5.index t (2 : Fin 3) * 512 + 1 * (j 2).val = (j 2).val
    omega
  have ht : tilePoint ((((cfg0.win 5).blk t).view.emb j) 0) (1 : Fin 2) = t :=
    Fin.ext (by
      show 2 * ((((cfg0.win 5).blk t).view.emb j) 0).val + 1 = t.val
      rw [p0]; omega)
  have hj : ix3 (0 : Fin 1) (0 : Fin 1) ((((cfg0.win 5).blk t).view.emb j) 2 : Fin 512) = j := by
    funext a; apply Fin.ext
    match a with
    | ⟨0, _⟩ => show 0 = (j 0).val; omega
    | ⟨1, _⟩ => show 0 = (j 1).val; omega
    | ⟨2, _⟩ => exact p2
  show out5At0 V c t j = out5At0 V c (tilePoint _ (1 : Fin 2)) (ix3 (0 : Fin 1) (0 : Fin 1) _)
  rw [ht]
  exact congrArg (out5At0 V c t) hj.symm

theorem flushed_sumsq_eq (c : Dev nD) (t : Fin cfg0.N) (hf : (cfg0.win 6).flush t = true) :
    (dat0 V c).flushed 6 t = ((cfg0.win 6).blk t).view.read (Elt F) (sumsqArray V c) := by
  have hodd : t.val % 2 = 1 := (flush0_6 t).mp hf
  show (cfg0.win 6).cut (grid0.coords t) ((dat0 V c).after 6 t) = _
  rw [after0_6]
  obtain ⟨-, -, -, -, -, -, ⟨e0, e1, e2⟩⟩ := index_facts0 t
  funext j
  show out6At0 V c t j = sumsqArray V c (((cfg0.win 6).blk t).view.emb j)
  have hj0 : (j 0).val < 1 := (j 0).isLt
  have hj1 : (j 1).val < 1 := (j 1).isLt
  have p0 : ((((cfg0.win 6).blk t).view.emb j) 0).val = t.val / 2 := by
    show win0_6.index t (0 : Fin 3) * 1 + 1 * (j 0).val = t.val / 2
    omega
  have p2 : ((((cfg0.win 6).blk t).view.emb j) 2).val = (j 2).val := by
    show win0_6.index t (2 : Fin 3) * 512 + 1 * (j 2).val = (j 2).val
    omega
  have ht : tilePoint ((((cfg0.win 6).blk t).view.emb j) 0) (1 : Fin 2) = t :=
    Fin.ext (by
      show 2 * ((((cfg0.win 6).blk t).view.emb j) 0).val + 1 = t.val
      rw [p0]; omega)
  have hj : ix3 (0 : Fin 1) (0 : Fin 1) ((((cfg0.win 6).blk t).view.emb j) 2 : Fin 512) = j := by
    funext a; apply Fin.ext
    match a with
    | ⟨0, _⟩ => show 0 = (j 0).val; omega
    | ⟨1, _⟩ => show 0 = (j 1).val; omega
    | ⟨2, _⟩ => exact p2
  show out6At0 V c t j = out6At0 V c (tilePoint _ (1 : Fin 2)) (ix3 (0 : Fin 1) (0 : Fin 1) _)
  rw [ht]
  exact congrArg (out6At0 V c t) hj.symm

theorem mem_blk_sum (t : Fin cfg0.N) (i : S32x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_v6_1).slice (win0_5.rect t)).set ↔ _
  rw [View.set_slice_whole, Rect.mem_set_unit]
  exact Iff.rfl

theorem mem_blk_sumsq (t : Fin cfg0.N) (i : S32x1x512.Idx) :
    i ∈ ((cfg0.win 6).blk t).view.set ↔ ∀ a : Fin 3, win0_6.index t a * S1x1x512.size a ≤ (i a).val ∧ (i a).val < win0_6.index t a * S1x1x512.size a + S1x1x512.size a := by
  show i ∈ ((View.whole main_v6_2).slice (win0_6.rect t)).set ↔ _
  rw [View.set_slice_whole, Rect.mem_set_unit]
  exact Iff.rfl

/-- The 32 rows tile each array: row b is in the block of the last tile of sequence b, which writes back. -/
theorem covered_sum (i : S32x1x512.Idx) :
    ∃ t : Fin cfg0.N, (cfg0.win 5).flush t = true ∧ i ∈ ((cfg0.win 5).blk t).view.set := by
  have hi0 : (i 0).val < 32 := (i 0).isLt
  have hi1 : (i 1).val < 1 := (i 1).isLt
  have hi2 : (i 2).val < 512 := (i 2).isLt
  have hv : (tilePoint (i 0) (1 : Fin 2)).val = 2 * (i 0).val + 1 := rfl
  refine ⟨tilePoint (i 0) (1 : Fin 2), (flush0_5 _).mpr (by rw [hv]; omega), ?_⟩
  obtain ⟨-, -, -, -, -, ⟨e0, e1, e2⟩, -⟩ := index_facts0 (tilePoint (i 0) (1 : Fin 2))
  rw [hv] at e0
  rw [mem_blk_sum]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1 ≤ (i 1).val ∧ (i 1).val < win0_5.index _ (1 : Fin 3) * 1 + 1; omega
  | ⟨2, _⟩ => show win0_5.index _ (2 : Fin 3) * 512 ≤ (i 2).val ∧ (i 2).val < win0_5.index _ (2 : Fin 3) * 512 + 512; omega

theorem covered_sumsq (i : S32x1x512.Idx) :
    ∃ t : Fin cfg0.N, (cfg0.win 6).flush t = true ∧ i ∈ ((cfg0.win 6).blk t).view.set := by
  have hi0 : (i 0).val < 32 := (i 0).isLt
  have hi1 : (i 1).val < 1 := (i 1).isLt
  have hi2 : (i 2).val < 512 := (i 2).isLt
  have hv : (tilePoint (i 0) (1 : Fin 2)).val = 2 * (i 0).val + 1 := rfl
  refine ⟨tilePoint (i 0) (1 : Fin 2), (flush0_6 _).mpr (by rw [hv]; omega), ?_⟩
  obtain ⟨-, -, -, -, -, -, ⟨e0, e1, e2⟩⟩ := index_facts0 (tilePoint (i 0) (1 : Fin 2))
  rw [hv] at e0
  rw [mem_blk_sumsq]
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1 ≤ (i 1).val ∧ (i 1).val < win0_6.index _ (1 : Fin 3) * 1 + 1; omega
  | ⟨2, _⟩ => show win0_6.index _ (2 : Fin 3) * 512 ≤ (i 2).val ∧ (i 2).val < win0_6.index _ (2 : Fin 3) * 512 + 512; omega

theorem arrAt_sum (c : Dev nD) : (dat0 V c).arrAt 5 cfg0.N = sumArray V c :=
  (dat0 V c).arrAt_eq_of_cover 5 (sumArray V c) (fun t hf => flushed_sum_eq V c t hf) covered_sum
theorem arrAt_sumsq (c : Dev nD) : (dat0 V c).arrAt 6 cfg0.N = sumsqArray V c :=
  (dat0 V c).arrAt_eq_of_cover 6 (sumsqArray V c) (fun t hf => flushed_sumsq_eq V c t hf) covered_sumsq

/-- Read at (b, 0, k): what the body left at the last tile of sequence b, at (0, 0, k). -/
theorem arrAt_sum_apply (c : Dev nD) (b : Fin 32) (k : Fin 512) :
    (dat0 V c).arrAt 5 cfg0.N (ix3 b (0 : Fin 1) k) = out5At0 V c (tilePoint b (1 : Fin 2)) (ix3 (0 : Fin 1) (0 : Fin 1) k) := by
  rw [arrAt_sum]
  rfl
theorem arrAt_sumsq_apply (c : Dev nD) (b : Fin 32) (k : Fin 512) :
    (dat0 V c).arrAt 6 cfg0.N (ix3 b (0 : Fin 1) k) = out6At0 V c (tilePoint b (1 : Fin 2)) (ix3 (0 : Fin 1) (0 : Fin 1) k) := by
  rw [arrAt_sumsq]
  rfl

/-! ## The input blocks, read off the arrays the region was entered with -/

/-- The hidden states' tile of point 2·b + q is rows 1024·q … of slab b of their array. -/
theorem iblk0_hidden_apply (c : Dev nD) (b : Fin 32) (q : Fin 2) (r : Fin 1024) (d : Fin 768)
    (h : 1024 * q.val + r.val < 2048) :
    iblk0 V c 0 (tilePoint b q) (ix3 (0 : Fin 1) r d)
      = V c (Pipeline.arrRef spec0 0) (ix3 b (⟨1024 * q.val + r.val, h⟩ : Fin 2048) d) := by
  obtain ⟨⟨e0, e1, e2⟩, -⟩ := index_facts0 (tilePoint b q)
  have hv : (tilePoint b q).val = 2 * b.val + q.val := rfl
  rw [hv] at e0 e1
  have hq := q.isLt
  show V c (Pipeline.arrRef spec0 0) (((cfg0.win 0).blk (tilePoint b q)).view.emb (ix3 (0 : Fin 1) r d)) = _
  congr 1
  funext a; apply Fin.ext
  match a with
  | ⟨0, _⟩ => show win0_0.index (tilePoint b q) (0 : Fin 3) * 1 + 1 * 0 = b.val; omega
  | ⟨1, _⟩ => show win0_0.index (tilePoint b q) (1 : Fin 3) * 1024 + 1 * r.val = 1024 * q.val + r.val; omega
  | ⟨2, _⟩ => show win0_0.index (tilePoint b q) (2 : Fin 3) * 768 + 1 * d.val = d.val; omega

/-- The mask's tile of point 2·b + q is rows 1024·q … of column b of its array. -/
theorem iblk0_mask_apply (c : Dev nD) (b : Fin 32) (q : Fin 2) (r : Fin 1024)
    (h : 1024 * q.val + r.val < 2048) :
    iblk0 V c 1 (tilePoint b q) (ix3 (0 : Fin 1) r (0 : Fin 1))
      = V c (Pipeline.arrRef spec0 1) (ix3 b (⟨1024 * q.val + r.val, h⟩ : Fin 2048) (0 : Fin 1)) := by
  obtain ⟨-, ⟨e0, e1, e2⟩, -⟩ := index_facts0 (tilePoint b q)
  have hv : (tilePoint b q).val = 2 * b.val + q.val := rfl
  rw [hv] at e0 e1
  have hq := q.isLt
  show V c (Pipeline.arrRef spec0 1) (((cfg0.win 1).blk (tilePoint b q)).view.emb (ix3 (0 : Fin 1) r (0 : Fin 1))) = _
  congr 1
  funext a; apply Fin.ext
  match a with
  | ⟨0, _⟩ => show win0_1.index (tilePoint b q) (0 : Fin 3) * 1 + 1 * 0 = b.val; omega
  | ⟨1, _⟩ => show win0_1.index (tilePoint b q) (1 : Fin 3) * 1024 + 1 * r.val = 1024 * q.val + r.val; omega
  | ⟨2, _⟩ => show win0_1.index (tilePoint b q) (2 : Fin 3) * 1 + 1 * 0 = 0; omega

/-- The first layer's weight's block is its whole array, at every point. -/
theorem iblk0_weight_eq (c : Dev nD) (t : Fin cfg0.N) : iblk0 V c 2 t = V c (Pipeline.arrRef spec0 2) := by
  obtain ⟨-, -, ⟨e0, e1⟩, -⟩ := index_facts0 t
  funext y
  show V c (Pipeline.arrRef spec0 2) (((cfg0.win 2).blk t).view.emb y) = V c (Pipeline.arrRef spec0 2) y
  congr 1
  funext a; apply Fin.ext
  match a with
  | ⟨0, _⟩ => show win0_2.index t (0 : Fin 2) * 768 + 1 * (y 0).val = (y 0).val; omega
  | ⟨1, _⟩ => show win0_2.index t (1 : Fin 2) * 512 + 1 * (y 1).val = (y 1).val; omega

/-- The first layer's bias row's block is its whole array, at every point. -/
theorem iblk0_bias_eq (c : Dev nD) (t : Fin cfg0.N) : iblk0 V c 3 t = V c (Pipeline.arrRef spec0 3) := by
  obtain ⟨-, -, -, ⟨e0, e1⟩, -⟩ := index_facts0 t
  funext y
  show V c (Pipeline.arrRef spec0 3) (((cfg0.win 3).blk t).view.emb y) = V c (Pipeline.arrRef spec0 3) y
  congr 1
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = (y 1).val; omega

end Stage1

end Cert.KernelIdeal.Gen

end
-- ==== Proof.Stage1Pieces.lean ====
/-
  What each buffer the statistics pass writes holds after a grid point, as a function of the point's blocks.

  At a point the body sees the hidden tile, the mask tile, the first-layer weight and the bias row. Every store it
  makes covers its whole buffer, so what a buffer holds afterwards is the payload of the LAST store into it, and a
  load of a buffer the body itself stored earlier reads that store's payload. Hence:

  * the activations' buffer holds the first layer of the tile, at a first tile and at a last tile alike;
  * at a first tile the two accumulators are cleared and then added to: they end at the column sums of the masked
    centred first layer, and of its product with the centred first layer, added to the zero rows;
  * at a last tile they end at the same sums added to what they held on entry, and the two per-sequence outputs
    receive these final rows with a unit axis added.
-/
import proofs.«153426_j55430847922218_2_alg».proof.Proof.Stage1Region
import Idealize.ShloMosaic.Lib.Pipeline.Value

set_option maxRecDepth 16384

noncomputable section

namespace Cert.MlpPool.Stage1Pieces

open Idealize.ShloMosaic Idealize.ShloMosaic.TcCoe Idealize.ShloMosaic.Tactic Idealize.SL.Sem
open Cert.KernelIdeal Cert.KernelIdeal.Gen

variable {F : FTy → Type} [FloatOps F]

variable (V : (c : Dev nD) → (b : Ref sig .tc) → Buf (Elt F) ((c : Thread nD τ).loc b))

/-- The offsets of a block that is its whole buffer are the zero function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile -/

/-- The activations a first tile stores: the first layer of the point's hidden tile. -/
theorem back4_A (c : Dev nD) (t : Fin cfg0.N) (h0 : t.val % 2 = 0) :
    back4 (pA4 V c t h0) = k0_pay7 (iblk0 V c 0 t) (iblk0 V c 2 t) (iblk0 V c 3 t) := by
  unfold back4
  rw [View.read_writes_eq_canon _ _ _ (cover0_A_4 V c t h0)]
  unfold pA4 runA0 kernelRun0_A
  dsimp only
  rw [View.canon_unit_zero hz3]
  simp only [View.readAt_eq_ld, (hs0_0 t).read_unread, (hs0_1 t).read_unread, (hs0_2 t).read_unread, (hs0_3 t).read_unread,
    View.ld_unit_zero (S := S1x1024x768) hz3, View.ld_unit_zero (S := S1x1024x1) hz3, View.ld_unit_zero (S := S768x512) hz2,
    View.ld_unit_zero (S := S1x512) hz2]

/-- The first accumulator after a first tile: cleared, then the tile's masked column sums added. -/
theorem backS0_A (c : Dev nD) (t : Fin cfg0.N) (h0 : t.val % 2 = 0) :
    backS0 (pAS0 V c t h0)
      = k0_pay10 (iblk0 V c 0 t) (iblk0 V c 2 t) (iblk0 V c 3 t) (iblk0 V c 1 t) (iblk0 V c 3 t) (k0_pay4 (F := F)) := by
  unfold backS0
  rw [View.read_writes_eq_canon _ _ _ (scover0_A_0 V c t h0)]
  unfold pAS0 runA0 kernelRun0_A
  dsimp only
  sl_unfold_words
  rw [View.canon_cons_unit_zero (S := S1x512) hz2, View.readCov_unit_zero (S := S1x512) _ hz2]
  simp only [View.readAt_eq_ld, (hs0_0 t).read_unread, (hs0_1 t).read_unread, (hs0_2 t).read_unread, (hs0_3 t).read_unread,
    View.ld_unit_zero (S := S1x1024x768) hz3, View.ld_unit_zero (S := S1x1024x1) hz3, View.ld_unit_zero (S := S768x512) hz2,
    View.ld_unit_zero (S := S1x512) hz2]

/-- The second accumulator after a first tile: cleared, then the column sums of the masked squares added. -/
theorem backS1_A (c : Dev nD) (t : Fin cfg0.N) (h0 : t.val % 2 = 0) :
    backS1 (pAS1 V c t h0)
      = k0_pay1 (k0_pay8 (iblk0 V c 0 t) (iblk0 V c 2 t) (iblk0 V c 3 t) (iblk0 V c 3 t))
          (k0_pay9 (iblk0 V c 0 t) (iblk0 V c 2 t) (iblk0 V c 3 t) (iblk0 V c 1 t) (iblk0 V c 3 t)) (k0_pay5 (F := F)) := by
  unfold backS1
  rw [View.read_writes_eq_canon _ _ _ (scover0_A_1 V c t h0)]
  unfold pAS1 runA0 kernelRun0_A
  dsimp only
  sl_unfold_words
  rw [View.canon_cons_unit_zero (S := S1x512) hz2, View.readCov_unit_zero (S := S1x512) _ hz2]
  simp only [View.readAt_eq_ld, (hs0_0 t).read_unread, (hs0_1 t).read_unread, (hs0_2 t).read_unread, (hs0_3 t).read_unread,
    View.ld_unit_zero (S := S1x1024x768) hz3, View.ld_unit_zero (S := S1x1024x1) hz3, View.ld_unit_zero (S := S768x512) hz2,
    View.ld_unit_zero (S := S1x512) hz2]

/-- The pair of accumulators a first tile leaves. -/
theorem accA0_eq (c : Dev nD) (t : Fin cfg0.N) (h0 : t.val % 2 = 0) :
    accA0 V c t h0
      = (k0_pay10 (iblk0 V c 0 t) (iblk0 V c 2 t) (iblk0 V c 3 t) (iblk0 V c 1 t) (iblk0 V c 3 t) (k0_pay4 (F := F)),
         k0_pay1 (k0_pay8 (iblk0 V c 0 t) (iblk0 V c 2 t) (iblk0 V c 3 t) (iblk0 V c 3 t))
          (k0_pay9 (iblk0 V c 0 t) (iblk0 V c 2 t) (iblk0 V c 3 t) (iblk0 V c 1 t) (iblk0 V c 3 t)) (k0_pay5 (F := F))) := by
  unfold accA0
  rw [backS0_A, backS1_A]

/-! ## The last tile -/

/-- The two accumulators are whole buffers. -/
theorem hsc0 : (scM0_0).IsWhole := Memref.isWhole_whole _
theorem hsc1 : (scM0_1).IsWhole := Memref.isWhole_whole _

/-- The activations a last tile stores. -/
theorem back4_B (c : Dev nD) (t : Fin cfg0.N) (h1 : t.val % 2 = 1) (xs0 xs1 : Vec F S1x512 .f32) :
    back4 (pB4 V c t h1 xs0 xs1) = k0_pay7 (iblk0 V c 0 t) (iblk0 V c 2 t) (iblk0 V c 3 t) := by
  unfold back4
  rw [View.read_writes_eq_canon _ _ _ (cover0_B_4 V c t h1 xs0 xs1)]
  unfold pB4 runB0 kernelRun0_B
  dsimp only
  rw [View.canon_unit_zero hz3]
  simp only [View.readAt_eq_ld, (hs0_0 t).read_unread, (hs0_1 t).read_unread, (hs0_2 t).read_unread, (hs0_3 t).read_unread,
    View.ld_unit_zero (S := S1x1024x768) hz3, View.ld_unit_zero (S := S1x1024x1) hz3, View.ld_unit_zero (S := S768x512) hz2,
    View.ld_unit_zero (S := S1x512) hz2]

/-- The first accumulator after a last tile: what it entered with plus the tile's masked column sums. -/
theorem backS0_B (c : Dev nD) (t : Fin cfg0.N) (h1 : t.val % 2 = 1) (xs0 xs1 : Vec F S1x512 .f32) :
    backS0 (pBS0 V c t h1 xs0 xs1)
      = k0_pay10 (iblk0 V c 0 t) (iblk0 V c 2 t) (iblk0 V c 3 t) (iblk0 V c 1 t) (iblk0 V c 3 t) xs0 := by
  unfold backS0
  rw [View.read_writes_eq_canon _ _ _ (scover0_B_0 V c t h1 xs0 xs1)]
  unfold pBS0 runB0 kernelRun0_B
  dsimp only
  sl_unfold_words
  rw [View.canon_unit_zero hz2]
  simp only [View.readAt_eq_ld, (hs0_0 t).read_unread, (hs0_1 t).read_unread, (hs0_2 t).read_unread, (hs0_3 t).read_unread,
    hsc0.read_unread, hsc1.read_unread,
    View.ld_unit_zero (S := S1x1024x768) hz3, View.ld_unit_zero (S := S1x1024x1) hz3, View.ld_unit_zero (S := S768x512) hz2,
    View.ld_unit_zero (S := S1x512) hz2]

/-- The second accumulator after a last tile: what it entered with plus the column sums of the masked squares. -/
theorem backS1_B (c : Dev nD) (t : Fin cfg0.N) (h1 : t.val % 2 = 1) (xs0 xs1 : Vec F S1x512 .f32) :
    backS1 (pBS1 V c t h1 xs0 xs1)
      = k0_pay1 (k0_pay8 (iblk0 V c 0 t) (iblk0 V c 2 t) (iblk0 V c 3 t) (iblk0 V c 3 t))
          (k0_pay9 (iblk0 V c 0 t) (iblk0 V c 2 t) (iblk0 V c 3 t) (iblk0 V c 1 t) (iblk0 V c 3 t)) xs1 := by
  unfold backS1
  rw [View.read_writes_eq_canon _ _ _ (scover0_B_1 V c t h1 xs0 xs1)]
  unfold pBS1 runB0 kernelRun0_B
  dsimp only
  sl_unfold_words
  rw [View.canon_unit_zero hz2]
  simp only [View.readAt_eq_ld, (hs0_0 t).read_unread, (hs0_1 t).read_unread, (hs0_2 t).read_unread, (hs0_3 t).read_unread,
    hsc0.read_unread, hsc1.read_unread,
    View.ld_unit_zero (S := S1x1024x768) hz3, View.ld_unit_zero (S := S1x1024x1) hz3, View.ld_unit_zero (S := S768x512) hz2,
    View.ld_unit_zero (S := S1x512) hz2]

/-- The first per-sequence output a last tile stores: the first accumulator as it then stands, with a unit axis added. -/
theorem back5_B (c : Dev nD) (t : Fin cfg0.N) (h1 : t.val % 2 = 1) (xs0 xs1 : Vec F S1x512 .f32) :
    back5 (pB5 V c t h1 xs0 xs1)
      = k0_pay2 (k0_pay10 (iblk0 V c 0 t) (iblk0 V c 2 t) (iblk0 V c 3 t) (iblk0 V c 1 t) (iblk0 V c 3 t) xs0) := by
  unfold back5
  rw [View.read_writes_eq_canon _ _ _ (cover0_B_5 V c t h1 xs0 xs1)]
  unfold pB5 runB0 kernelRun0_B
  dsimp only
  sl_unfold_words
  rw [View.canon_unit_zero hz3, View.readCov_unit_zero (S := S1x512) _ hz2]
  simp only [View.readAt_eq_ld, (hs0_0 t).read_unread, (hs0_1 t).read_unread, (hs0_2 t).read_unread, (hs0_3 t).read_unread,
    hsc0.read_unread, hsc1.read_unread,
    View.ld_unit_zero (S := S1x1024x768) hz3, View.ld_unit_zero (S := S1x1024x1) hz3, View.ld_unit_zero (S := S768x512) hz2,
    View.ld_unit_zero (S := S1x512) hz2]

/-- The second per-sequence output a last tile stores: the second accumulator as it then stands. -/
theorem back6_B (c : Dev nD) (t : Fin cfg0.N) (h1 : t.val % 2 = 1) (xs0 xs1 : Vec F S1x512 .f32) :
    back6 (pB6 V c t h1 xs0 xs1)
      = k0_pay3 (k0_pay1 (k0_pay8 (iblk0 V c 0 t) (iblk0 V c 2 t) (iblk0 V c 3 t) (iblk0 V c 3 t))
          (k0_pay9 (iblk0 V c 0 t) (iblk0 V c 2 t) (iblk0 V c 3 t) (iblk0 V c 1 t) (iblk0 V c 3 t)) xs1) := by
  unfold back6
  rw [View.read_writes_eq_canon _ _ _ (cover0_B_6 V c t h1 xs0 xs1)]
  unfold pB6 runB0 kernelRun0_B
  dsimp only
  sl_unfold_words
  rw [View.canon_unit_zero hz3, View.readCov_unit_zero (S := S1x512) _ hz2]
  simp only [View.readAt_eq_ld, (hs0_0 t).read_unread, (hs0_1 t).read_unread, (hs0_2 t).read_unread, (hs0_3 t).read_unread,
    hsc0.read_unread, hsc1.read_unread,
    View.ld_unit_zero (S := S1x1024x768) hz3, View.ld_unit_zero (S := S1x1024x1) hz3, View.ld_unit_zero (S := S768x512) hz2,
    View.ld_unit_zero (S := S1x512) hz2]

/-- The pair of accumulators a last tile leaves, from what its sequence's first tile left. -/
theorem accB0_eq (c : Dev nD) (t : Fin cfg0.N) (h1 : t.val % 2 = 1) :
    accB0 V c t h1
      = (k0_pay10 (iblk0 V c 0 t) (iblk0 V c 2 t) (iblk0 V c 3 t) (iblk0 V c 1 t) (iblk0 V c 3 t) (prevAcc0 V c t h1).1,
         k0_pay1 (k0_pay8 (iblk0 V c 0 t) (iblk0 V c 2 t) (iblk0 V c 3 t) (iblk0 V c 3 t))
          (k0_pay9 (iblk0 V c 0 t) (iblk0 V c 2 t) (iblk0 V c 3 t) (iblk0 V c 1 t) (iblk0 V c 3 t)) (prevAcc0 V c t h1).2) := by
  unfold accB0
  rw [backS0_B, backS1_B]

end Cert.MlpPool.Stage1Pieces

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibUnitAxes3.lean ====
import Idealize.ShloMosaic.Lib.Pipeline.Value
import Idealize.ShloMosaic.Lib.ValueIdx

/-!
# Rank-3 arrays with unit axes, read at an index given by coordinates

A matrix `[a, b]` viewed as `[a, 1, b]` (a middle unit axis inserted), a row `[1, b]` viewed as `[1, 1, b]`, and the
three broadcasts of a rank-3 array with one or two unit axes to the full `[a, b, c]`: each reads, at `(i, j, k)`,
the operand at the index that keeps the coordinates on the operand's proper axes and is `0` on its unit axes.
These are the forms an outer sum `s[:, None, :] + p[None, :, :] + bias[None, :, :]` is spelt with.
-/

namespace Idealize.ShloMosaic.ValueIdx

open Idealize.ShloMosaic

variable {α : Type}

/-- An `[a, b]` array cast to `[a, 1, b]` reads, at `(i, u, j)`, the operand at `(i, j)`, whatever the unit
    coordinate `u`: both sit at row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b]` row cast to `[1, 1, b]` reads, at `(u, w, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show 0 * b + j.val = (u.val * 1 + w.val) * b + j.val
    rw [hu, hw])

/-- An `[a, 1, c]` array broadcast to `[a, b, c]` reads, at `(i, j, k)`, the operand at `(i, 0, k)`: every `j` sees
    the same slab. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.Stage1Payloads.lean ====
/-
  The values a tile of the first stage stores, read at a coordinate.

  A tile holds 1024 tokens of one sequence. Its first layer at (r, k) is the sum over the 768 input features of the
  token's entry times the weight, plus the bias; the matrix product is accumulated from zero, and a change of float
  format is the identity on the extended reals. The tile then centres the first layer at a row vector, multiplies by
  the token's mask entry, and adds the column sums of the result — and of the product of the masked and the centred
  matrices — to two running rows that start at zero. A column sum over the 1024 tokens, started from the zero word,
  is the plain sum over r. The casts that only add or drop a leading unit axis, and the broadcasts of one row or one
  column over the tile, read the operand at the evident coordinates.
-/
import proofs.«153426_j55430847922218_2_alg».proof.Proof.Gen.KernelIdeal.Skeleton
import proofs.«153426_j55430847922218_2_alg».proof.Proof.Spec
import proofs.«153426_j55430847922218_2_alg».proof.Proof.LibPlainMatmul
import proofs.«153426_j55430847922218_2_alg».proof.Proof.LibColumnSum
import proofs.«153426_j55430847922218_2_alg».proof.Proof.LibColumnBroadcast
import proofs.«153426_j55430847922218_2_alg».proof.Proof.LibUnitAxes3
import Idealize.ShloMosaic.Lib.ValueLayout
import Idealize.ShloMosaic.Lib.Pipeline.Value
import Idealize.ShloMosaic.PureOps.Ideal.Laws

noncomputable section

open scoped BigOperators

namespace Cert.MlpPool.Stage1

open Idealize.ShloMosaic Idealize.ShloMosaic.ValueIdx Cert.KernelIdeal Cert.KernelIdeal.Gen

variable (x3 : Vec Ideal S1x1024x768 .f32) (w : Vec Ideal S768x512 .bf16) (bias bias' acc : Vec Ideal S1x512 .f32)
  (mk : Vec Ideal S1x1024x1 .f32)

/-- The first layer of a tile of 1024 tokens at (r, k): the sum over the 768 input features of the token's entry times
    the weight, plus the bias. The product is accumulated from zero, and the changes of format are the identity on
    the extended reals. -/
theorem pay6_apply (r : Fin 1024) (k : Fin 512) :
    k0_pay6 (F := Ideal) x3 w bias (ix2 r k)
      = (∑ d : Fin 768, x3 (ix3 (0 : Fin 1) r d) * w (ix2 d k)) + bias (ix2 (0 : Fin 1) k) := by
  unfold k0_pay6
  simp only [addf_apply, shapeCast_self, broadcastTo_1b_ab_apply, dot_S1024x768_S768x512_S1024x512_1_0_0_1_n_n]
  refine congrArg (· + bias (ix2 (0 : Fin 1) k)) ?_
  refine (matmul_plain_zero_apply (m := 1024) (k := 768) (n := 512) _ none
    (truncf FTy.bf16 (shapeCast S1024x768 x3 shapeCasts_S1x1024x768_S1024x768) bitsLt_bf16_f32 : FVec Ideal S1024x768 .bf16)
    (w : FVec Ideal S768x512 .bf16) r k).trans ?_
  simp only [truncf_apply, shapeCast_1ab_ab_apply]

/-- The first layer as it is written back, with a leading unit axis, at (0, r, k): the same value. -/
theorem pay7_apply (r : Fin 1024) (k : Fin 512) :
    k0_pay7 (F := Ideal) x3 w bias (ix3 (0 : Fin 1) r k)
      = (∑ d : Fin 768, x3 (ix3 (0 : Fin 1) r d) * w (ix2 d k)) + bias (ix2 (0 : Fin 1) k) := by
  unfold k0_pay7
  simp only [shapeCast_ab_1ab_apply, truncf_apply, pay6_apply]

/-- The first layer centred at a row vector, at (r, k). -/
theorem pay8_apply (r : Fin 1024) (k : Fin 512) :
    k0_pay8 (F := Ideal) x3 w bias bias' (ix2 r k)
      = k0_pay6 (F := Ideal) x3 w bias (ix2 r k) - bias' (ix2 (0 : Fin 1) k) := by
  unfold k0_pay8
  simp only [subf_apply, shapeCast_self, broadcastTo_1b_ab_apply]

/-- The centred first layer times the token's mask entry, at (r, k). -/
theorem pay9_apply (r : Fin 1024) (k : Fin 512) :
    k0_pay9 (F := Ideal) x3 w bias mk bias' (ix2 r k)
      = k0_pay8 (F := Ideal) x3 w bias bias' (ix2 r k) * mk (ix3 (0 : Fin 1) r (0 : Fin 1)) := by
  unfold k0_pay9
  simp only [mulf_apply, broadcastTo_a1_ab_apply, shapeCast_1ab_ab_apply]

/-- The running column sum: the accumulator row plus the sum over the tile's 1024 tokens of the masked centred first
    layer, at feature k. The sum starts from the zero word, which denotes 0. -/
theorem pay10_apply (k : Fin 512) :
    k0_pay10 (F := Ideal) x3 w bias mk bias' acc (ix2 (0 : Fin 1) k)
      = acc (ix2 (0 : Fin 1) k) + ∑ r : Fin 1024, k0_pay9 (F := Ideal) x3 w bias mk bias' (ix2 r k) := by
  unfold k0_pay10
  simp only [shapeCast_self, addf_apply, shapeCast_a_1a_apply]
  exact congrArg (acc (ix2 (0 : Fin 1) k) + ·)
    (multiReduction_add_cols_apply (a := 1024) (b := 512) (k0_pay9 (F := Ideal) x3 w bias mk bias') _ _ _ _ k)

/-- The running column sum of products: the accumulator row plus the sum over the tile's tokens of the product of the
    two matrices' entries, at feature k. -/
theorem pay1_apply (v22 v24 : FVec Ideal S1024x512 .f32) (v32 : Vec Ideal S1x512 .f32) (k : Fin 512) :
    k0_pay1 (F := Ideal) v22 v24 v32 (ix2 (0 : Fin 1) k)
      = v32 (ix2 (0 : Fin 1) k) + ∑ r : Fin 1024, v24 (ix2 r k) * v22 (ix2 r k) := by
  unfold k0_pay1
  simp only [shapeCast_self, addf_apply, shapeCast_a_1a_apply]
  refine congrArg (v32 (ix2 (0 : Fin 1) k) + ·)
    ((multiReduction_add_cols_apply (a := 1024) (b := 512) (mulf v24 v22) _ _ _ _ k).trans ?_)
  simp only [mulf_apply]

/-- A row written back with one more leading unit axis, at (0, 0, k): the row at (0, k). -/
theorem pay2_apply (v : Vec Ideal S1x512 .f32) (k : Fin 512) :
    k0_pay2 (F := Ideal) v (ix3 (0 : Fin 1) (0 : Fin 1) k) = v (ix2 (0 : Fin 1) k) := by
  unfold k0_pay2
  simp only [shapeCast_1b_11b_apply]
theorem pay3_apply (v : Vec Ideal S1x512 .f32) (k : Fin 512) :
    k0_pay3 (F := Ideal) v (ix3 (0 : Fin 1) (0 : Fin 1) k) = v (ix2 (0 : Fin 1) k) := by
  unfold k0_pay3
  simp only [shapeCast_1b_11b_apply]

/-- The two accumulator rows start at zero. -/
theorem pay4_apply (k : Fin 512) : k0_pay4 (F := Ideal) (ix2 (0 : Fin 1) k) = 0 := by
  unfold k0_pay4
  simp only [shapeCast_self, broadcast_apply]
  exact Ideal.ofBits_zero_f32
theorem pay5_apply (k : Fin 512) : k0_pay5 (F := Ideal) (ix2 (0 : Fin 1) k) = 0 := by
  unfold k0_pay5
  simp only [shapeCast_self, broadcast_apply]
  exact Ideal.ofBits_zero_f32

end Cert.MlpPool.Stage1

end
-- ==== Proof.Stage1Values.lean ====
/-
  What the first stage's three output buffers hold after a grid point, read at a coordinate, in terms of the point's
  blocks.

  A point t sees a tile of 1024 tokens of one sequence: the hidden tile x0, the mask column x1, the first layer's
  weight x2 and bias row x3. The first layer of the tile at (r, k) is  act = Σ_d x0(r, d)·x2(d, k) + x3(k).
  * The activations' buffer holds act, at every point.
  * At the last tile of a sequence the two per-sequence rows hold the accumulated masked sums: the accumulators were
    cleared to zero at the sequence's first tile t − 1, which added its own tile's sum, and the last tile added its
    own: (0 + Σ first tile) + Σ last tile, with summand (act − x3)·x1 for the first row and
    ((act − x3)·x1)·(act − x3) for the second.
-/
import proofs.«153426_j55430847922218_2_alg».proof.Proof.Stage1Pieces
import proofs.«153426_j55430847922218_2_alg».proof.Proof.Stage1Payloads
import proofs.«153426_j55430847922218_2_alg».proof.Proof.Stage1Region

set_option maxRecDepth 16384

noncomputable section

open scoped BigOperators

namespace Cert.MlpPool.Stage1Values

open Idealize.ShloMosaic Idealize.ShloMosaic.TcCoe Idealize.SL.Sem Idealize.ShloMosaic.ValueIdx
open Cert.KernelIdeal Cert.KernelIdeal.Gen Cert.MlpPool.Stage1Pieces Cert.MlpPool.Stage1

/-! ## A tile's first layer and its two masked sums, as functions of the tile's blocks -/

section Blocks
variable (x0 : Vec Ideal S1x1024x768 .f32) (x1 : Vec Ideal S1x1024x1 .f32) (x2 : Vec Ideal S768x512 .bf16)
  (x3 : Vec Ideal S1x512 .f32)

/-- The first layer of the tile at token r, feature k. -/
def act (r : Fin 1024) (k : Fin 512) : EReal :=
  (∑ d : Fin 768, x0 (ix3 (0 : Fin 1) r d) * x2 (ix2 d k)) + x3 (ix2 (0 : Fin 1) k)

/-- The tile's masked sum of the first layer less the bias, at feature k. -/
def tileSum (k : Fin 512) : EReal :=
  ∑ r : Fin 1024, (act x0 x2 x3 r k - x3 (ix2 (0 : Fin 1) k)) * x1 (ix3 (0 : Fin 1) r (0 : Fin 1))

/-- The tile's masked sum of squares of the first layer less the bias, at feature k. -/
def tileSumSq (k : Fin 512) : EReal :=
  ∑ r : Fin 1024, ((act x0 x2 x3 r k - x3 (ix2 (0 : Fin 1) k)) * x1 (ix3 (0 : Fin 1) r (0 : Fin 1)))
    * (act x0 x2 x3 r k - x3 (ix2 (0 : Fin 1) k))

/-- The centred first layer at (r, k). -/
theorem centred_apply (r : Fin 1024) (k : Fin 512) :
    k0_pay8 (F := Ideal) x0 x2 x3 x3 (ix2 r k) = act x0 x2 x3 r k - x3 (ix2 (0 : Fin 1) k) := by
  rw [pay8_apply, pay6_apply]; rfl

/-- The masked centred first layer at (r, k). -/
theorem masked_apply (r : Fin 1024) (k : Fin 512) :
    k0_pay9 (F := Ideal) x0 x2 x3 x1 x3 (ix2 r k)
      = (act x0 x2 x3 r k - x3 (ix2 (0 : Fin 1) k)) * x1 (ix3 (0 : Fin 1) r (0 : Fin 1)) := by
  rw [pay9_apply, centred_apply]

/-- The first accumulator after the tile: what it held plus the tile's masked sum. -/
theorem sum_row_apply (acc : Vec Ideal S1x512 .f32) (k : Fin 512) :
    k0_pay10 (F := Ideal) x0 x2 x3 x1 x3 acc (ix2 (0 : Fin 1) k) = acc (ix2 (0 : Fin 1) k) + tileSum x0 x1 x2 x3 k := by
  rw [pay10_apply]
  exact congrArg (acc (ix2 (0 : Fin 1) k) + ·) (Finset.sum_congr rfl fun r _ => masked_apply x0 x1 x2 x3 r k)

/-- The second accumulator after the tile: what it held plus the tile's masked sum of squares. -/
theorem sumsq_row_apply (acc : Vec Ideal S1x512 .f32) (k : Fin 512) :
    k0_pay1 (F := Ideal) (k0_pay8 x0 x2 x3 x3) (k0_pay9 x0 x2 x3 x1 x3) acc (ix2 (0 : Fin 1) k)
      = acc (ix2 (0 : Fin 1) k) + tileSumSq x0 x1 x2 x3 k := by
  rw [pay1_apply]
  exact congrArg (acc (ix2 (0 : Fin 1) k) + ·)
    (Finset.sum_congr rfl fun r _ => by rw [masked_apply, centred_apply])

end Blocks

/-! ## The three outputs at a point -/

section Points
variable (V : (c : Dev nD) → (b : Ref sig .tc) → Buf (Elt Ideal) ((c : Thread nD τ).loc b))

/-- The first tile of the sequence whose last tile is t. -/
def firstTile (t : Fin cfg0.N) (h1 : t.val % 2 = 1) : Fin cfg0.N := ⟨t.val - 1, (pred_even t h1).1⟩

theorem firstTile_val (t : Fin cfg0.N) (h1 : t.val % 2 = 1) : (firstTile t h1).val = t.val - 1 := rfl

/-- The activations' buffer after ANY point t holds the first layer of the point's tile. -/
theorem out4At0_apply (c : Dev nD) (t : Fin cfg0.N) (r : Fin 1024) (j : Fin 512) :
    out4At0 V c t (ix3 (0 : Fin 1) r j) = act (iblk0 V c 0 t) (iblk0 V c 2 t) (iblk0 V c 3 t) r j := by
  rcases Nat.mod_two_eq_zero_or_one t.val with h0 | h1
  · rw [out4At0_A V c t h0, back4_A V c t h0]
    exact pay7_apply (iblk0 V c 0 t) (iblk0 V c 2 t) (iblk0 V c 3 t) r j
  · rw [out4At0_B V c t h1, back4_B V c t h1]
    exact pay7_apply (iblk0 V c 0 t) (iblk0 V c 2 t) (iblk0 V c 3 t) r j

/-- What the first accumulator holds when a last tile t starts: zero plus its sequence's first tile's masked sum. -/
theorem prevAcc0_fst_apply (c : Dev nD) (t : Fin cfg0.N) (h1 : t.val % 2 = 1) (k : Fin 512) :
    (prevAcc0 V c t h1).1 (ix2 (0 : Fin 1) k)
      = 0 + tileSum (iblk0 V c 0 (firstTile t h1)) (iblk0 V c 1 (firstTile t h1)) (iblk0 V c 2 (firstTile t h1))
          (iblk0 V c 3 (firstTile t h1)) k := by
  unfold prevAcc0
  rw [accA0_eq V c ⟨t.val - 1, (pred_even t h1).1⟩ (pred_even t h1).2]
  refine (sum_row_apply _ _ _ _ _ k).trans ?_
  rw [pay4_apply]
  rfl

/-- What the second accumulator holds when a last tile t starts. -/
theorem prevAcc0_snd_apply (c : Dev nD) (t : Fin cfg0.N) (h1 : t.val % 2 = 1) (k : Fin 512) :
    (prevAcc0 V c t h1).2 (ix2 (0 : Fin 1) k)
      = 0 + tileSumSq (iblk0 V c 0 (firstTile t h1)) (iblk0 V c 1 (firstTile t h1)) (iblk0 V c 2 (firstTile t h1))
          (iblk0 V c 3 (firstTile t h1)) k := by
  unfold prevAcc0
  rw [accA0_eq V c ⟨t.val - 1, (pred_even t h1).1⟩ (pred_even t h1).2]
  refine (sumsq_row_apply _ _ _ _ _ k).trans ?_
  rw [pay5_apply]
  rfl

/-- The masked-sum row after a LAST tile t: (0 + the first tile's masked sum) + the last tile's. -/
theorem out5At0_apply (c : Dev nD) (t : Fin cfg0.N) (h1 : t.val % 2 = 1) (k : Fin 512) :
    out5At0 V c t (ix3 (0 : Fin 1) (0 : Fin 1) k)
      = (0 + tileSum (iblk0 V c 0 (firstTile t h1)) (iblk0 V c 1 (firstTile t h1)) (iblk0 V c 2 (firstTile t h1))
            (iblk0 V c 3 (firstTile t h1)) k)
          + tileSum (iblk0 V c 0 t) (iblk0 V c 1 t) (iblk0 V c 2 t) (iblk0 V c 3 t) k := by
  rw [out5At0_B V c t h1, back5_B V c t h1]
  refine (pay2_apply _ k).trans ?_
  refine (sum_row_apply _ _ _ _ _ k).trans ?_
  rw [prevAcc0_fst_apply V c t h1 k]

/-- The masked-sum-of-squares row after a LAST tile t, in the same shape. -/
theorem out6At0_apply (c : Dev nD) (t : Fin cfg0.N) (h1 : t.val % 2 = 1) (k : Fin 512) :
    out6At0 V c t (ix3 (0 : Fin 1) (0 : Fin 1) k)
      = (0 + tileSumSq (iblk0 V c 0 (firstTile t h1)) (iblk0 V c 1 (firstTile t h1)) (iblk0 V c 2 (firstTile t h1))
            (iblk0 V c 3 (firstTile t h1)) k)
          + tileSumSq (iblk0 V c 0 t) (iblk0 V c 1 t) (iblk0 V c 2 t) (iblk0 V c 3 t) k := by
  rw [out6At0_B V c t h1, back6_B V c t h1]
  refine (pay3_apply _ k).trans ?_
  refine (sumsq_row_apply _ _ _ _ _ k).trans ?_
  rw [prevAcc0_snd_apply V c t h1 k]

end Points

end Cert.MlpPool.Stage1Values

end
-- ==== Proof.Stage2Array.lean ====
/-
  From blocks to the array, for the second region (one grid point per sequence).

  The region writes the output row of sequence b back at point b, and the 32 rows tile the [32, 1, 512] output array.
  So after the region the array, read at (b, 0, k), is what the body computed at point b, read at (0, 0, k): the
  payload of the six input blocks of that point. The blocks themselves are read off the arrays the region was entered
  with: the tokens' block and the mask's block of point b are the b-th slabs of their arrays, and the scale row, the
  shift row, the second layer's matrix and its bias row are their whole arrays at every point.
-/
import proofs.«153426_j55430847922218_2_alg».proof.Proof.Stage2Region
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable {F : FTy → Type} [FloatOps F]

/-! ## The grid and the windows' index maps -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The grid point that handles sequence b: the grid is the 32 sequences in order. -/
def seqPoint (b : Fin 32) : Fin cfg1.N := ⟨b.val, lt_of_lt_of_eq b.isLt N_1.symm⟩

theorem seqPoint_val (b : Fin 32) : (seqPoint b).val = b.val := rfl

/-- The printed index maps, decided over the grid: at point t the tokens', the mask's and the output's block index
    is (t, 0, 0); the four once-fetched windows' is (0, 0). -/
theorem index_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val ∧ win1_6.index t (1 : Fin 3) = 0 ∧ win1_6.index t (2 : Fin 3) = 0) :=
  (by decide +kernel : ∀ t : Fin grid1.N, _)

section Stage2
variable (V : (c : Dev nD) → (b : Ref sig .tc) → Buf (Elt F) ((c : Thread nD τ).loc b))

/-! ## The output array as one function of its index -/

/-- What the body computes at point t: the payload of the six input blocks there. -/
def pooledRow (c : Dev nD) (t : Fin cfg1.N) : Vec F S1x1x512 .f32 :=
  k1_pay1 (blk2 V c 0 t) (blk2 V c 2 t) (blk2 V c 3 t) (blk2 V c 4 t) (blk2 V c 5 t) (blk2 V c 1 t)

/-- The output array: row b holds what the body computed at b's point. -/
def pooledArray (c : Dev nD) : S32x1x512.Idx → Elt F .f32 :=
  fun i => pooledRow V c (seqPoint ⟨(i 0).val, (i 0).isLt⟩) (ix3 (0 : Fin 1) (0 : Fin 1) (⟨(i 2).val, (i 2).isLt⟩ : Fin 512))

/-- What point t writes back is block t of that array. -/
theorem flushed6_eq (c : Dev nD) (t : Fin cfg1.N) :
    (dat1 V c).flushed 6 t = ((cfg1.win 6).blk t).view.read (Elt F) (pooledArray V c) := by
  show (cfg1.win 6).cut (grid1.coords t) ((dat1 V c).after 6 t) = _
  rw [after1_6]
  unfold pooledBlock
  rw [View.canon_unit_zero zeros3]
  simp only [View.ld_unit_zero (S := S1x2048x512) zeros3, View.ld_unit_zero (S := S1x2048x1) zeros3,
    View.ld_unit_zero (S := S1x512) zeros2, View.ld_unit_zero (S := S512x512) zeros2]
  obtain ⟨-, -, -, -, -, -, e0, e1, e2⟩ := index_facts t
  funext j
  show pooledRow V c t j = pooledArray V c (((cfg1.win 6).blk t).view.emb j)
  have hj0 : (j 0).val < 1 := (j 0).isLt
  have hj1 : (j 1).val < 1 := (j 1).isLt
  have p0 : ((((cfg1.win 6).blk t).view.emb j) 0).val = t.val := by
    show win1_6.index t (0 : Fin 3) * 1 + 1 * (j 0).val = t.val
    omega
  have p2 : ((((cfg1.win 6).blk t).view.emb j) 2).val = (j 2).val := by
    show win1_6.index t (2 : Fin 3) * 512 + 1 * (j 2).val = (j 2).val
    omega
  have ht : seqPoint ⟨((((cfg1.win 6).blk t).view.emb j) 0).val, ((((cfg1.win 6).blk t).view.emb j) 0).isLt⟩ = t := Fin.ext p0
  have hj : ix3 (0 : Fin 1) (0 : Fin 1) (⟨((((cfg1.win 6).blk t).view.emb j) 2).val, ((((cfg1.win 6).blk t).view.emb j) 2).isLt⟩ : Fin 512) = j := by
    funext a; apply Fin.ext
    match a with
    | ⟨0, _⟩ => show 0 = (j 0).val; omega
    | ⟨1, _⟩ => show 0 = (j 1).val; omega
    | ⟨2, _⟩ => exact p2
  show pooledRow V c t j = pooledRow V c (seqPoint ⟨_, _⟩) (ix3 (0 : Fin 1) (0 : Fin 1) (⟨_, _⟩ : Fin 512))
  rw [ht, hj]

/-- An index of the output array is in point t's block iff each coordinate is in the block's range on its axis. -/
theorem mem_blk6 (t : Fin cfg1.N) (i : S32x1x512.Idx) :
    i ∈ ((cfg1.win 6).blk t).view.set ↔ ∀ a : Fin 3, win1_6.index t a * S1x1x512.size a ≤ (i a).val ∧ (i a).val < win1_6.index t a * S1x1x512.size a + S1x1x512.size a := by
  show i ∈ ((View.whole main_v28).slice (win1_6.rect t)).set ↔ _
  rw [View.set_slice_whole, Rect.mem_set_unit]
  exact Iff.rfl

/-- The 32 rows tile the array: row b is in the block of b's point, which writes back. -/
theorem covered6 (i : S32x1x512.Idx) :
    ∃ t : Fin cfg1.N, (cfg1.win 6).flush t = true ∧ i ∈ ((cfg1.win 6).blk t).view.set := by
  have hi0 : (i 0).val < 32 := (i 0).isLt
  have hi1 : (i 1).val < 1 := (i 1).isLt
  have hi2 : (i 2).val < 512 := (i 2).isLt
  refine ⟨seqPoint ⟨(i 0).val, hi0⟩, flush1_6 _, ?_⟩
  obtain ⟨-, -, -, -, -, -, e0, e1, e2⟩ := index_facts (seqPoint ⟨(i 0).val, hi0⟩)
  have e0' : win1_6.index (seqPoint ⟨(i 0).val, hi0⟩) (0 : Fin 3) = (i 0).val := e0
  rw [mem_blk6]
  intro a
  match a with
  | ⟨0, _⟩ => show win1_6.index _ (0 : Fin 3) * 1 ≤ (i 0).val ∧ (i 0).val < win1_6.index _ (0 : Fin 3) * 1 + 1; omega
  | ⟨1, _⟩ => show win1_6.index _ (1 : Fin 3) * 1 ≤ (i 1).val ∧ (i 1).val < win1_6.index _ (1 : Fin 3) * 1 + 1; omega
  | ⟨2, _⟩ => show win1_6.index _ (2 : Fin 3) * 512 ≤ (i 2).val ∧ (i 2).val < win1_6.index _ (2 : Fin 3) * 512 + 512; omega

/-- The output array after the region is that function. -/
theorem arrAt_pooled (c : Dev nD) : (dat1 V c).arrAt 6 cfg1.N = pooledArray V c :=
  (dat1 V c).arrAt_eq_of_cover 6 (pooledArray V c) (fun t _ => flushed6_eq V c t) covered6

/-- Read at (b, 0, k): the payload of the six blocks of b's point, at (0, 0, k). -/
theorem arrAt_pooled_apply (c : Dev nD) (b : Fin 32) (k : Fin 512) :
    (dat1 V c).arrAt 6 cfg1.N (ix3 b (0 : Fin 1) k) =
      k1_pay1 (blk2 V c 0 (seqPoint b)) (blk2 V c 2 (seqPoint b)) (blk2 V c 3 (seqPoint b)) (blk2 V c 4 (seqPoint b))
        (blk2 V c 5 (seqPoint b)) (blk2 V c 1 (seqPoint b)) (ix3 (0 : Fin 1) (0 : Fin 1) k) := by
  rw [arrAt_pooled]
  rfl

/-! ## The input blocks, read off the arrays the region was entered with -/

/-- The tokens' block of sequence b is the b-th slab of the first layer's array. -/
theorem blk2_tokens_apply (c : Dev nD) (b : Fin 32) (l : Fin 2048) (j : Fin 512) :
    blk2 V c 0 (seqPoint b) (ix3 (0 : Fin 1) l j) = V c (Pipeline.arrRef spec1 0) (ix3 b l j) := by
  obtain ⟨⟨e0, e1, e2⟩, -⟩ := index_facts (seqPoint b)
  have e0' : win1_0.index (seqPoint b) (0 : Fin 3) = b.val := e0
  show V c (Pipeline.arrRef spec1 0) (((cfg1.win 0).blk (seqPoint b)).view.emb (ix3 (0 : Fin 1) l j)) = _
  congr 1
  funext a; apply Fin.ext
  match a with
  | ⟨0, _⟩ => show win1_0.index (seqPoint b) (0 : Fin 3) * 1 + 1 * 0 = b.val; omega
  | ⟨1, _⟩ => show win1_0.index (seqPoint b) (1 : Fin 3) * 2048 + 1 * l.val = l.val; omega
  | ⟨2, _⟩ => show win1_0.index (seqPoint b) (2 : Fin 3) * 512 + 1 * j.val = j.val; omega

/-- The mask's block of sequence b is the b-th column of the mask's array. -/
theorem blk2_mask_apply (c : Dev nD) (b : Fin 32) (l : Fin 2048) :
    blk2 V c 1 (seqPoint b) (ix3 (0 : Fin 1) l (0 : Fin 1)) = V c (Pipeline.arrRef spec1 1) (ix3 b l (0 : Fin 1)) := by
  obtain ⟨-, ⟨e0, e1, e2⟩, -⟩ := index_facts (seqPoint b)
  have e0' : win1_1.index (seqPoint b) (0 : Fin 3) = b.val := e0
  show V c (Pipeline.arrRef spec1 1) (((cfg1.win 1).blk (seqPoint b)).view.emb (ix3 (0 : Fin 1) l (0 : Fin 1))) = _
  congr 1
  funext a; apply Fin.ext
  match a with
  | ⟨0, _⟩ => show win1_1.index (seqPoint b) (0 : Fin 3) * 1 + 1 * 0 = b.val; omega
  | ⟨1, _⟩ => show win1_1.index (seqPoint b) (1 : Fin 3) * 2048 + 1 * l.val = l.val; omega
  | ⟨2, _⟩ => show win1_1.index (seqPoint b) (2 : Fin 3) * 1 + 1 * 0 = 0; omega

/-- The scale row's block is its whole array, at every point. -/
theorem blk2_scale_eq (c : Dev nD) (t : Fin cfg1.N) : blk2 V c 2 t = V c (Pipeline.arrRef spec1 2) := by
  obtain ⟨-, -, ⟨e0, e1⟩, -⟩ := index_facts t
  funext y
  show V c (Pipeline.arrRef spec1 2) (((cfg1.win 2).blk t).view.emb y) = V c (Pipeline.arrRef spec1 2) y
  congr 1
  funext a; apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The shift row's block is its whole array, at every point. -/
theorem blk2_shift_eq (c : Dev nD) (t : Fin cfg1.N) : blk2 V c 3 t = V c (Pipeline.arrRef spec1 3) := by
  obtain ⟨-, -, -, ⟨e0, e1⟩, -⟩ := index_facts t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- The second layer's matrix's block is its whole array, at every point. -/
theorem blk2_matrix_eq (c : Dev nD) (t : Fin cfg1.N) : blk2 V c 4 t = V c (Pipeline.arrRef spec1 4) := by
  obtain ⟨-, -, -, -, ⟨e0, e1⟩, -⟩ := index_facts t
  funext y
  show V c (Pipeline.arrRef spec1 4) (((cfg1.win 4).blk t).view.emb y) = V c (Pipeline.arrRef spec1 4) y
  congr 1
  funext a; apply Fin.ext
  match a with
  | ⟨0, _⟩ => show win1_4.index t (0 : Fin 2) * 512 + 1 * (y 0).val = (y 0).val; omega
  | ⟨1, _⟩ => show win1_4.index t (1 : Fin 2) * 512 + 1 * (y 1).val = (y 1).val; omega

/-- The second layer's bias row's block is its whole array, at every point. -/
theorem blk2_bias_eq (c : Dev nD) (t : Fin cfg1.N) : blk2 V c 5 t = V c (Pipeline.arrRef spec1 5) := by
  obtain ⟨-, -, -, -, -, ⟨e0, e1⟩, -⟩ := index_facts t
  funext y
  show V c (Pipeline.arrRef spec1 5) (((cfg1.win 5).blk t).view.emb y) = V c (Pipeline.arrRef spec1 5) y
  congr 1
  funext a; apply Fin.ext
  match a with
  | ⟨0, _⟩ => show win1_5.index t (0 : Fin 2) * 1 + 1 * (y 0).val = (y 0).val; omega
  | ⟨1, _⟩ => show win1_5.index t (1 : Fin 2) * 512 + 1 * (y 1).val = (y 1).val; omega

/-! ## The same with the two moving blocks given by coordinates -/

/-- The b-th slab of the first layer's array, as a [1, 2048, 512] block. -/
def seqTokens (c : Dev nD) (b : Fin 32) : Vec F S1x2048x512 .bf16 :=
  fun y => V c (Pipeline.arrRef spec1 0) (ix3 b (⟨(y 1).val, (y 1).isLt⟩ : Fin 2048) (⟨(y 2).val, (y 2).isLt⟩ : Fin 512))

/-- The b-th column of the mask's array, as a [1, 2048, 1] block. -/
def seqMask (c : Dev nD) (b : Fin 32) : Vec F S1x2048x1 .f32 :=
  fun y => V c (Pipeline.arrRef spec1 1) (ix3 b (⟨(y 1).val, (y 1).isLt⟩ : Fin 2048) (0 : Fin 1))

theorem seqTokens_apply (c : Dev nD) (b : Fin 32) (l : Fin 2048) (j : Fin 512) :
    seqTokens V c b (ix3 (0 : Fin 1) l j) = V c (Pipeline.arrRef spec1 0) (ix3 b l j) := rfl

theorem seqMask_apply (c : Dev nD) (b : Fin 32) (l : Fin 2048) (u : Fin 1) :
    seqMask V c b (ix3 (0 : Fin 1) l u) = V c (Pipeline.arrRef spec1 1) (ix3 b l (0 : Fin 1)) := rfl

theorem blk2_tokens_eq (c : Dev nD) (b : Fin 32) : blk2 V c 0 (seqPoint b) = seqTokens V c b := by
  obtain ⟨⟨e0, e1, e2⟩, -⟩ := index_facts (seqPoint b)
  have e0' : win1_0.index (seqPoint b) (0 : Fin 3) = b.val := e0
  funext y
  have hy0 : (y 0).val < 1 := (y 0).isLt
  show V c (Pipeline.arrRef spec1 0) (((cfg1.win 0).blk (seqPoint b)).view.emb y)
    = V c (Pipeline.arrRef spec1 0) (ix3 b (⟨(y 1).val, (y 1).isLt⟩ : Fin 2048) (⟨(y 2).val, (y 2).isLt⟩ : Fin 512))
  congr 1
  funext a; apply Fin.ext
  match a with
  | ⟨0, _⟩ => show win1_0.index (seqPoint b) (0 : Fin 3) * 1 + 1 * (y 0).val = b.val; omega
  | ⟨1, _⟩ => show win1_0.index (seqPoint b) (1 : Fin 3) * 2048 + 1 * (y 1).val = (y 1).val; omega
  | ⟨2, _⟩ => show win1_0.index (seqPoint b) (2 : Fin 3) * 512 + 1 * (y 2).val = (y 2).val; omega

theorem blk2_mask_eq (c : Dev nD) (b : Fin 32) : blk2 V c 1 (seqPoint b) = seqMask V c b := by
  obtain ⟨-, ⟨e0, e1, e2⟩, -⟩ := index_facts (seqPoint b)
  have e0' : win1_1.index (seqPoint b) (0 : Fin 3) = b.val := e0
  funext y
  have hy0 : (y 0).val < 1 := (y 0).isLt
  have hy2 : (y 2).val < 1 := (y 2).isLt
  show V c (Pipeline.arrRef spec1 1) (((cfg1.win 1).blk (seqPoint b)).view.emb y)
    = V c (Pipeline.arrRef spec1 1) (ix3 b (⟨(y 1).val, (y 1).isLt⟩ : Fin 2048) (0 : Fin 1))
  congr 1
  funext a; apply Fin.ext
  match a with
  | ⟨0, _⟩ => show win1_1.index (seqPoint b) (0 : Fin 3) * 1 + 1 * (y 0).val = b.val; omega
  | ⟨1, _⟩ => show win1_1.index (seqPoint b) (1 : Fin 3) * 2048 + 1 * (y 1).val = (y 1).val; omega
  | ⟨2, _⟩ => show win1_1.index (seqPoint b) (2 : Fin 3) * 1 + 1 * (y 2).val = 0; omega

/-- The output array after the region, read at (b, 0, k): the body's payload of sequence b's slab of the first layer's
    values, the scale row, the shift row, the matrix, the bias row and sequence b's mask column, at (0, 0, k). -/
theorem arrAt_pooled_coords (c : Dev nD) (b : Fin 32) (k : Fin 512) :
    (dat1 V c).arrAt 6 cfg1.N (ix3 b (0 : Fin 1) k) =
      k1_pay1 (seqTokens V c b) (V c (Pipeline.arrRef spec1 2)) (V c (Pipeline.arrRef spec1 3)) (V c (Pipeline.arrRef spec1 4))
        (V c (Pipeline.arrRef spec1 5)) (seqMask V c b) (ix3 (0 : Fin 1) (0 : Fin 1) k) := by
  rw [arrAt_pooled_apply, blk2_tokens_eq, blk2_mask_eq, blk2_scale_eq, blk2_shift_eq, blk2_matrix_eq, blk2_bias_eq]

end Stage2

end Cert.KernelIdeal.Gen

end
-- ==== Proof.Stage2Payload.lean ====
/-
  The second stage's body at one output coordinate.

  One sequence's activations h (2048 tokens × 512 features) are scaled and shifted feature by feature, clipped below at
  zero, multiplied by the 512 × 512 matrix w2, offset by the row bb, weighted token by token by the mask column mk and
  summed over the tokens. Read at feature k the result is
      Σ_l ((Σ_j max(h(l, j)·sc(j) + sh(j), 0) · w2(j, k)) + bb(k)) · mk(l).
  Each layout step (dropping or adding a unit axis, repeating a row or a column) only renames the index; the matrix
  product into a zero accumulator is the sum over the contracted feature, and the reduction over the token axis from
  a zero start is the sum down a column.
-/
import proofs.«153426_j55430847922218_2_alg».proof.Proof.Gen.KernelIdeal.Skeleton
import proofs.«153426_j55430847922218_2_alg».proof.Proof.Spec
import proofs.«153426_j55430847922218_2_alg».proof.Proof.LibPlainMatmul
import proofs.«153426_j55430847922218_2_alg».proof.Proof.LibColumnSum
import proofs.«153426_j55430847922218_2_alg».proof.Proof.LibColumnBroadcast
import proofs.«153426_j55430847922218_2_alg».proof.Proof.LibUnitAxes3
import Idealize.ShloMosaic.Lib.ValueLayout
import Idealize.ShloMosaic.Lib.Pipeline.Value
import Idealize.ShloMosaic.PureOps.Ideal.Laws

noncomputable section

open scoped BigOperators

namespace Cert.MlpPool.Stage2

open Idealize.ShloMosaic Idealize.ShloMosaic.ValueIdx Cert.KernelIdeal Cert.KernelIdeal.Gen

/-- The second layer's matrix product into a zero accumulator, at token l and feature k: the sum over the contracted
    feature j of A(l, j) · B(j, k). -/
theorem matmul_tokens_apply (A : FVec Ideal S2048x512 .bf16) (B : FVec Ideal S512x512 .bf16) (l : Fin 2048) (k : Fin 512) :
    matmul dot_S2048x512_S512x512_S2048x512_1_0_0_1_n_n none A B (constant (F := Ideal) S2048x512 .f32 0x00000000#32)
        (ix2 l k)
      = ∑ j : Fin 512, A (ix2 l j) * B (ix2 j k) :=
  matmul_plain_zero_apply _ none A B l k

/-- The sum over the token axis from a zero start, at feature k: the sum down column k. -/
theorem sum_tokens_apply (src : FVec Ideal S2048x512 .f32) (hφ : FKind.Formats FTy.f32)
    (hacc : (0x00000000#32 : BitVec 32) = 0x00000000#32) (k : Fin 512) :
    multiReduction (F := Ideal) .add [0] S512 src 0x00000000#32 reduces_S2048x512_S512 hφ hacc (ix1 k)
      = ∑ l : Fin 2048, src (ix2 l k) :=
  multiReduction_add_cols_apply src 0x00000000#32 reduces_S2048x512_S512 hφ hacc k

variable (h : Vec Ideal S1x2048x512 .bf16) (sc sh : Vec Ideal S1x512 .f32) (w2 : Vec Ideal S512x512 .bf16)
  (bb : Vec Ideal S1x512 .f32) (mk : Vec Ideal S1x2048x1 .f32)

/-- The body's stored value at feature k. -/
theorem k1_pay1_apply (k : Fin 512) :
    k1_pay1 h sc sh w2 bb mk (ix3 0 0 k)
      = ∑ l : Fin 2048, ((∑ j : Fin 512, max (h (ix3 0 l j) * sc (ix2 0 j) + sh (ix2 0 j)) 0 * w2 (ix2 j k))
          + bb (ix2 0 k)) * mk (ix3 0 l 0) := by
  unfold k1_pay1
  rw [shapeCast_1b_11b_apply, shapeCast_a_1a_apply]
  refine (sum_tokens_apply _ _ _ k).trans ?_
  refine Finset.sum_congr rfl fun l _ => ?_
  rw [mulf_apply, addf_apply, matmul_tokens_apply, broadcastTo_1b_ab_apply, shapeCast_self, broadcastTo_a1_ab_apply,
    shapeCast_1ab_ab_apply]
  simp only [shapeCast_self]
  congr 2
  refine Finset.sum_congr rfl fun j _ => ?_
  rw [truncf_apply, maximumf_apply, addf_apply, mulf_apply, extf_apply, shapeCast_1ab_ab_apply, broadcastTo_1b_ab_apply,
    broadcastTo_1b_ab_apply, broadcast_apply]
  rw [Ideal.ofBits_def, Ideal.ofBits_zero_f32]

end Cert.MlpPool.Stage2

end
-- ==== Proof.TileSums.lean ====
/-
  Sums over the 2048 tokens of a sequence, split into its two tiles of 1024.

  The tokens 0..2047 are the tokens 0..1023 followed by the tokens 1024..2047, so a sum over all of them is the sum
  over the first tile plus the sum over the second; indexed by the tile number q ∈ {0, 1}, token 1024·q + r is the r-th
  token of tile q. An accumulator that starts at zero, adds the first tile's sum and then the second's holds
  (0 + Σ first) + Σ second, which is the whole sum. The batch statistics' centred sum and sum of squares are written in
  that shape, one accumulation per sequence.
-/
import proofs.«153426_j55430847922218_2_alg».proof.Proof.Spec
import Mathlib

noncomputable section

open scoped BigOperators

namespace Cert.MlpPool

/-! ### A sum over 2048 tokens as two tiles of 1024 -/

/-- The sum over the 2048 tokens is the sum over tokens 0..1023 plus the sum over tokens 1024..2047. -/
theorem sum_tokens_two_tiles {M : Type*} [AddCommMonoid M] (f : Fin 2048 → M) :
    ∑ l : Fin 2048, f l
      = (∑ r : Fin 1024, f ⟨r.val, by omega⟩) + ∑ r : Fin 1024, f ⟨1024 + r.val, by omega⟩ := by
  refine (Fin.sum_univ_add (a := 1024) (b := 1024) f).trans ?_
  rfl

/-- The same with the tile number as an index: token 1024·q + r is the r-th token of tile q. -/
theorem sum_tokens_by_tile {M : Type*} [AddCommMonoid M] (f : Fin 2048 → M) :
    ∑ l : Fin 2048, f l = ∑ q : Fin 2, ∑ r : Fin 1024, f ⟨1024 * q.val + r.val, by omega⟩ := by
  rw [Fin.sum_univ_two, sum_tokens_two_tiles f]
  refine congrArg₂ (· + ·) (Finset.sum_congr rfl fun r _ => congrArg f (Fin.ext ?_))
    (Finset.sum_congr rfl fun r _ => congrArg f (Fin.ext ?_))
  · show r.val = 1024 * (0 : Fin 2).val + r.val
    simp
  · show 1024 + r.val = 1024 * (1 : Fin 2).val + r.val
    simp

/-! ### An accumulator started at zero, over the extended reals -/

/-- Zero plus x is x. -/
theorem ereal_zero_add (x : EReal) : 0 + x = x := zero_add x

/-- Starting from zero, adding a and then b leaves a + b. -/
theorem ereal_zero_add_add (a b : EReal) : (0 + a) + b = a + b := by rw [zero_add]

/-! ### The kernel's two centred sums, one accumulation over the two tiles per sequence -/

section
variable (X : Fin 32 → Fin 2048 → Fin 768 → EReal) (Mk : Fin 32 → Fin 2048 → EReal)
  (W1 : Fin 768 → Fin 512 → EReal) (b1 : Fin 512 → EReal)

/-- The centred sum: for each sequence, zero plus the first tile's sum plus the second tile's sum. -/
theorem sumK_eq_tiles (k : Fin 512) :
    sumK X Mk W1 b1 k
      = ∑ b : Fin 32,
          ((0 + ∑ r : Fin 1024, (lin1 X W1 b1 b ⟨r.val, by omega⟩ k - b1 k) * Mk b ⟨r.val, by omega⟩)
            + ∑ r : Fin 1024, (lin1 X W1 b1 b ⟨1024 + r.val, by omega⟩ k - b1 k) * Mk b ⟨1024 + r.val, by omega⟩) := by
  unfold sumK
  refine Finset.sum_congr rfl fun b _ => ?_
  rw [zero_add]
  exact sum_tokens_two_tiles (fun l => (lin1 X W1 b1 b l k - b1 k) * Mk b l)

/-- The centred sum of squares, in the same shape. -/
theorem sumsqK_eq_tiles (k : Fin 512) :
    sumsqK X Mk W1 b1 k
      = ∑ b : Fin 32,
          ((0 + ∑ r : Fin 1024,
              ((lin1 X W1 b1 b ⟨r.val, by omega⟩ k - b1 k) * Mk b ⟨r.val, by omega⟩)
                * (lin1 X W1 b1 b ⟨r.val, by omega⟩ k - b1 k))
            + ∑ r : Fin 1024,
              ((lin1 X W1 b1 b ⟨1024 + r.val, by omega⟩ k - b1 k) * Mk b ⟨1024 + r.val, by omega⟩)
                * (lin1 X W1 b1 b ⟨1024 + r.val, by omega⟩ k - b1 k)) := by
  unfold sumsqK
  refine Finset.sum_congr rfl fun b _ => ?_
  rw [zero_add]
  exact sum_tokens_two_tiles (fun l => ((lin1 X W1 b1 b l k - b1 k) * Mk b l) * (lin1 X W1 b1 b l k - b1 k))

end

end Cert.MlpPool

end
-- ==== Proof.KernelValue.lean ====
/-
  The kernel's result is `resK`. Reading the last boundary's result buffer back through the run: the final host
  division; the pooling pass's output row of sequence b (a sum over its 2048 tokens of the second layer's masked
  output); the second pass's inputs — the activations the first pass stored, the batch-norm scale and shift the
  host computed from the per-sequence sums the first pass accumulated tile by tile, the second layer's weight
  and bias — each read back to the argument arrays. A sequence's 2048 tokens are its two tiles of 1024.
-/
import proofs.«153426_j55430847922218_2_alg».proof.Proof.FoldReads
import proofs.«153426_j55430847922218_2_alg».proof.Proof.Stage1Array
import proofs.«153426_j55430847922218_2_alg».proof.Proof.Stage1Values
import proofs.«153426_j55430847922218_2_alg».proof.Proof.Stage2Array
import proofs.«153426_j55430847922218_2_alg».proof.Proof.Stage2Payload
import proofs.«153426_j55430847922218_2_alg».proof.Proof.TileSums

set_option maxRecDepth 16384

noncomputable section

open scoped BigOperators

namespace Cert.MlpPool.KernelValue

open Idealize.ShloMosaic Idealize.ShloMosaic.TcCoe Idealize.SL.Sem Idealize.ShloMosaic.ValueIdx
open Cert.KernelIdeal Cert.KernelIdeal.Gen Cert.MlpPool Cert.MlpPool.Fold Cert.MlpPool.Stage1Values Cert.MlpPool.Host

variable (m : (ℓ : Loc nD τ sig) → Buf (Elt Ideal) ℓ) (ρ : Dev nD → PrngReg) (c : Dev nD)

/-! ## The argument arrays by coordinates -/

abbrev aX : Fin 32 → Fin 2048 → Fin 768 → EReal := arr3 (m ((c : Thread nD τ).loc main_arg0) : S32x2048x768.Idx → EReal)
abbrev aM : Fin 32 → Fin 2048 → EReal := maskOf (m ((c : Thread nD τ).loc main_arg1) : S32x2048.Idx → BitVec 32)
abbrev aW1 : Fin 768 → Fin 512 → EReal := arr2 (m ((c : Thread nD τ).loc main_arg2) : S768x512.Idx → EReal)
abbrev ab1 : Fin 512 → EReal := arr1 (m ((c : Thread nD τ).loc main_arg3) : S512.Idx → EReal)
abbrev aγ : Fin 512 → EReal := arr1 (m ((c : Thread nD τ).loc main_arg4) : S512.Idx → EReal)
abbrev aβ : Fin 512 → EReal := arr1 (m ((c : Thread nD τ).loc main_arg5) : S512.Idx → EReal)
abbrev aW2 : Fin 512 → Fin 512 → EReal := arr2 (m ((c : Thread nD τ).loc main_arg6) : S512x512.Idx → EReal)
abbrev ab2 : Fin 512 → EReal := arr1 (m ((c : Thread nD τ).loc main_arg7) : S512.Idx → EReal)

/-! ## The first pass's blocks are tiles of the arguments -/

theorem hidden_block (b : Fin 32) (q : Fin 2) (r : Fin 1024) (d : Fin 768) (h : 1024 * q.val + r.val < 2048) :
    (iblk0 (E1 m ρ) c 0 (tilePoint b q) : S1x1024x768.Idx → EReal) (ix3 (0 : Fin 1) r d) = aX m c b ⟨1024 * q.val + r.val, h⟩ d :=
  (iblk0_hidden_apply (E1 m ρ) c b q r d h).trans (congrFun (E1_arg0 m ρ c) _)
theorem mask_block (b : Fin 32) (q : Fin 2) (r : Fin 1024) (h : 1024 * q.val + r.val < 2048) :
    (iblk0 (E1 m ρ) c 1 (tilePoint b q) : S1x1024x1.Idx → EReal) (ix3 (0 : Fin 1) r (0 : Fin 1)) = aM m c b ⟨1024 * q.val + r.val, h⟩ :=
  (iblk0_mask_apply (E1 m ρ) c b q r h).trans (E1_mask m ρ c b _ 0)
theorem weight_block (t : Fin cfg0.N) (d : Fin 768) (k : Fin 512) :
    (iblk0 (E1 m ρ) c 2 t : S768x512.Idx → EReal) (ix2 d k) = aW1 m c d k :=
  (congrFun (iblk0_weight_eq (E1 m ρ) c t) (ix2 d k)).trans (E1_weight1 m ρ c (ix2 d k))
theorem bias_block (t : Fin cfg0.N) (k : Fin 512) :
    (iblk0 (E1 m ρ) c 3 t : S1x512.Idx → EReal) (ix2 (0 : Fin 1) k) = ab1 m c k :=
  (congrFun (iblk0_bias_eq (E1 m ρ) c t) (ix2 (0 : Fin 1) k)).trans (E1_bias1 m ρ c 0 k)

/-- A tile's activation row is the first layer at that token. -/
theorem act_eq_lin1 (b : Fin 32) (q : Fin 2) (r : Fin 1024) (k : Fin 512) (h : 1024 * q.val + r.val < 2048) :
    act (iblk0 (E1 m ρ) c 0 (tilePoint b q)) (iblk0 (E1 m ρ) c 2 (tilePoint b q)) (iblk0 (E1 m ρ) c 3 (tilePoint b q)) r k
      = lin1 (aX m c) (aW1 m c) (ab1 m c) b ⟨1024 * q.val + r.val, h⟩ k := by
  unfold act lin1
  exact congrArg₂ (· + ·) (Finset.sum_congr rfl fun d _ => congrArg₂ (· * ·) (hidden_block m ρ c b q r d h) (weight_block m ρ c _ d k))
    (bias_block m ρ c _ k)

theorem tile_lt (q : Fin 2) (r : Fin 1024) : 1024 * q.val + r.val < 2048 := by
  have := q.isLt; have := r.isLt; omega

/-- A tile's masked sum and masked sum of squares, over the argument arrays. -/
theorem tileSum_eq (b : Fin 32) (q : Fin 2) (k : Fin 512) :
    tileSum (iblk0 (E1 m ρ) c 0 (tilePoint b q)) (iblk0 (E1 m ρ) c 1 (tilePoint b q)) (iblk0 (E1 m ρ) c 2 (tilePoint b q)) (iblk0 (E1 m ρ) c 3 (tilePoint b q)) k
      = ∑ r : Fin 1024, (lin1 (aX m c) (aW1 m c) (ab1 m c) b ⟨1024 * q.val + r.val, tile_lt q r⟩ k - ab1 m c k) * aM m c b ⟨1024 * q.val + r.val, tile_lt q r⟩ := by
  unfold tileSum
  refine Finset.sum_congr rfl fun r _ => ?_
  rw [act_eq_lin1 m ρ c b q r k (tile_lt q r), bias_block m ρ c _ k, mask_block m ρ c b q r (tile_lt q r)]
theorem tileSumSq_eq (b : Fin 32) (q : Fin 2) (k : Fin 512) :
    tileSumSq (iblk0 (E1 m ρ) c 0 (tilePoint b q)) (iblk0 (E1 m ρ) c 1 (tilePoint b q)) (iblk0 (E1 m ρ) c 2 (tilePoint b q)) (iblk0 (E1 m ρ) c 3 (tilePoint b q)) k
      = ∑ r : Fin 1024, ((lin1 (aX m c) (aW1 m c) (ab1 m c) b ⟨1024 * q.val + r.val, tile_lt q r⟩ k - ab1 m c k) * aM m c b ⟨1024 * q.val + r.val, tile_lt q r⟩)
          * (lin1 (aX m c) (aW1 m c) (ab1 m c) b ⟨1024 * q.val + r.val, tile_lt q r⟩ k - ab1 m c k) := by
  unfold tileSumSq
  refine Finset.sum_congr rfl fun r _ => ?_
  rw [act_eq_lin1 m ρ c b q r k (tile_lt q r), bias_block m ρ c _ k, mask_block m ρ c b q r (tile_lt q r)]

/-! ## What the first pass left, over the argument arrays -/

/-- The stored activations are the first layer. -/
theorem tokens_eq (b : Fin 32) (l : Fin 2048) (j : Fin 512) :
    ((dat0 (E1 m ρ) c).arrAt 4 cfg0.N : S32x2048x512.Idx → EReal) (ix3 b l j) = lin1 (aX m c) (aW1 m c) (ab1 m c) b l j := by
  rw [arrAt_act_apply (E1 m ρ) c b l j, out4At0_apply (E1 m ρ) c _ (rowOf l) j, act_eq_lin1 m ρ c b (tileOf l) (rowOf l) j (tile_lt _ _)]
  have e : (⟨1024 * (tileOf l).val + (rowOf l).val, tile_lt _ _⟩ : Fin 2048) = l := Fin.ext (Nat.div_add_mod l.val 1024)
  rw [e]

theorem lastTile_odd (b : Fin 32) : (tilePoint b (1 : Fin 2)).val % 2 = 1 := by
  rw [tilePoint_val]; show (2 * b.val + 1) % 2 = 1; omega
theorem firstTile_of_last (b : Fin 32) : firstTile (tilePoint b (1 : Fin 2)) (lastTile_odd b) = tilePoint b (0 : Fin 2) :=
  Fin.ext (by rw [firstTile_val, tilePoint_val, tilePoint_val]; show 2 * b.val + 1 - 1 = 2 * b.val + 0; omega)

theorem fin_first (r : Fin 1024) : (⟨1024 * (0 : Fin 2).val + r.val, tile_lt 0 r⟩ : Fin 2048) = ⟨r.val, by have := r.isLt; omega⟩ :=
  Fin.ext (by show 1024 * 0 + r.val = r.val; omega)
theorem fin_last (r : Fin 1024) : (⟨1024 * (1 : Fin 2).val + r.val, tile_lt 1 r⟩ : Fin 2048) = ⟨1024 + r.val, by have := r.isLt; omega⟩ :=
  Fin.ext (by show 1024 * 1 + r.val = 1024 + r.val; omega)

/-- The per-sequence masked sum the first pass wrote out. -/
theorem seqSum_eq (b : Fin 32) (k : Fin 512) :
    ((dat0 (E1 m ρ) c).arrAt 5 cfg0.N : S32x1x512.Idx → EReal) (ix3 b (0 : Fin 1) k)
      = (0 + ∑ r : Fin 1024, (lin1 (aX m c) (aW1 m c) (ab1 m c) b ⟨r.val, by have := r.isLt; omega⟩ k - ab1 m c k) * aM m c b ⟨r.val, by have := r.isLt; omega⟩)
        + ∑ r : Fin 1024, (lin1 (aX m c) (aW1 m c) (ab1 m c) b ⟨1024 + r.val, by have := r.isLt; omega⟩ k - ab1 m c k) * aM m c b ⟨1024 + r.val, by have := r.isLt; omega⟩ := by
  rw [arrAt_sum_apply (E1 m ρ) c b k, out5At0_apply (E1 m ρ) c (tilePoint b (1 : Fin 2)) (lastTile_odd b) k, firstTile_of_last,
    tileSum_eq m ρ c b 0 k, tileSum_eq m ρ c b 1 k]
  simp only [fin_first, fin_last]
/-- The per-sequence masked sum of squares. -/
theorem seqSumSq_eq (b : Fin 32) (k : Fin 512) :
    ((dat0 (E1 m ρ) c).arrAt 6 cfg0.N : S32x1x512.Idx → EReal) (ix3 b (0 : Fin 1) k)
      = (0 + ∑ r : Fin 1024, ((lin1 (aX m c) (aW1 m c) (ab1 m c) b ⟨r.val, by have := r.isLt; omega⟩ k - ab1 m c k) * aM m c b ⟨r.val, by have := r.isLt; omega⟩)
            * (lin1 (aX m c) (aW1 m c) (ab1 m c) b ⟨r.val, by have := r.isLt; omega⟩ k - ab1 m c k))
        + ∑ r : Fin 1024, ((lin1 (aX m c) (aW1 m c) (ab1 m c) b ⟨1024 + r.val, by have := r.isLt; omega⟩ k - ab1 m c k) * aM m c b ⟨1024 + r.val, by have := r.isLt; omega⟩)
            * (lin1 (aX m c) (aW1 m c) (ab1 m c) b ⟨1024 + r.val, by have := r.isLt; omega⟩ k - ab1 m c k) := by
  rw [arrAt_sumsq_apply (E1 m ρ) c b k, out6At0_apply (E1 m ρ) c (tilePoint b (1 : Fin 2)) (lastTile_odd b) k, firstTile_of_last,
    tileSumSq_eq m ρ c b 0 k, tileSumSq_eq m ρ c b 1 k]
  simp only [fin_first, fin_last]

/-- The per-sequence rows the first pass wrote out, as extended-real functions of (sequence, feature). -/
def seqSums (b : Fin 32) (k : Fin 512) : EReal := ((dat0 (E1 m ρ) c).arrAt 5 cfg0.N : S32x1x512.Idx → EReal) (ix3 b (0 : Fin 1) k)
def seqSumSqs (b : Fin 32) (k : Fin 512) : EReal := ((dat0 (E1 m ρ) c).arrAt 6 cfg0.N : S32x1x512.Idx → EReal) (ix3 b (0 : Fin 1) k)

/-- The batch totals the host forms are the specification's. -/
theorem total_sum (k : Fin 512) :
    (∑ b : Fin 32, seqSums m ρ c b k) = sumK (aX m c) (aM m c) (aW1 m c) (ab1 m c) k := by
  rw [sumK_eq_tiles]
  exact Finset.sum_congr rfl fun b _ => seqSum_eq m ρ c b k
theorem total_sumsq (k : Fin 512) :
    (∑ b : Fin 32, seqSumSqs m ρ c b k) = sumsqK (aX m c) (aM m c) (aW1 m c) (ab1 m c) k := by
  rw [sumsqK_eq_tiles]
  exact Finset.sum_congr rfl fun b _ => seqSumSq_eq m ρ c b k

/-! ## The scale and the shift -/

theorem scale_eq (k : Fin 512) :
    (E3 m ρ c main_v26 : S1x512.Idx → EReal) (ix2 (0 : Fin 1) k) = scaleK (aX m c) (aM m c) (aW1 m c) (ab1 m c) (aγ m c) k := by
  rw [E3_scale m ρ c 0 k]
  show Host.scaleOf (seqSums m ρ c) (seqSumSqs m ρ c) (aM m c) (aγ m c) k = _
  unfold Host.scaleOf Host.meanOf scaleK varK meanS nValid
  rw [total_sum m ρ c k, total_sumsq m ρ c k]
theorem shift_eq (k : Fin 512) :
    (E3 m ρ c main_v27 : S1x512.Idx → EReal) (ix2 (0 : Fin 1) k) = shiftK (aX m c) (aM m c) (aW1 m c) (ab1 m c) (aγ m c) (aβ m c) k := by
  rw [E3_shift m ρ c 0 k]
  show Host.shiftOf (seqSums m ρ c) (seqSumSqs m ρ c) (aM m c) (ab1 m c) (aγ m c) (aβ m c) k = _
  unfold Host.shiftOf Host.scaleOf Host.meanOf shiftK scaleK varK meanS nValid
  rw [total_sum m ρ c k, total_sumsq m ρ c k]

/-! ## The result -/

/-- THE KERNEL'S VALUE: the result buffer at the return, read at (b, k), is `resK` of the argument arrays. -/
theorem kernel_value (b : Fin 32) (k : Fin 512) :
    (B5 m ρ c (Proc.devRef .tc main_v34) : S32x512.Idx → EReal) (ix2 b k)
      = resK (aX m c) (aM m c) (aW1 m c) (ab1 m c) (aγ m c) (aβ m c) (aW2 m c) (ab2 m c) b k := by
  rw [B5_result m ρ c b k]
  unfold resK pooled
  congr 1
  rw [arrAt_pooled_coords (E3 m ρ) c b k, Cert.MlpPool.Stage2.k1_pay1_apply]
  refine Finset.sum_congr rfl fun l _ => ?_
  have hmask : (seqMask (E3 m ρ) c b : S1x2048x1.Idx → EReal) (ix3 (0 : Fin 1) l (0 : Fin 1)) = aM m c b l :=
    (seqMask_apply (E3 m ρ) c b l 0).trans (B3_mask m ρ c b l 0)
  have htok : ∀ j : Fin 512, (seqTokens (E3 m ρ) c b : S1x2048x512.Idx → EReal) (ix3 (0 : Fin 1) l j) = lin1 (aX m c) (aW1 m c) (ab1 m c) b l j :=
    fun j => (seqTokens_apply (E3 m ρ) c b l j).trans ((congrFun (E3_lin m ρ c) _).trans (tokens_eq m ρ c b l j))
  have hw2 : ∀ j : Fin 512, (E3 m ρ c (Pipeline.arrRef spec1 4) : S512x512.Idx → EReal) (ix2 j k) = aW2 m c j k :=
    fun j => E3_weight2 m ρ c (ix2 j k)
  have hb2 : (E3 m ρ c (Pipeline.arrRef spec1 5) : S1x512.Idx → EReal) (ix2 (0 : Fin 1) k) = ab2 m c k := E3_bias2 m ρ c 0 k
  have hsc : ∀ j : Fin 512, (E3 m ρ c (Pipeline.arrRef spec1 2) : S1x512.Idx → EReal) (ix2 (0 : Fin 1) j) = scaleK (aX m c) (aM m c) (aW1 m c) (ab1 m c) (aγ m c) j :=
    fun j => scale_eq m ρ c j
  have hsh : ∀ j : Fin 512, (E3 m ρ c (Pipeline.arrRef spec1 3) : S1x512.Idx → EReal) (ix2 (0 : Fin 1) j) = shiftK (aX m c) (aM m c) (aW1 m c) (ab1 m c) (aγ m c) (aβ m c) j :=
    fun j => shift_eq m ρ c j
  rw [hmask, hb2]
  unfold second preK
  refine congrArg₂ (· * ·) (congrArg₂ (· + ·) (Finset.sum_congr rfl fun j _ => ?_) rfl) rfl
  rw [htok j, hw2 j, hsc j, hsh j]

end Cert.MlpPool.KernelValue

end
-- ==== Proof.LibIndexSums.lean ====
/-
  A sum over a rank-1 index set.

  A rank-1 index is its one coordinate, so a sum over the index set of an [n] array is the sum over `Fin n` of the
  summand at the index built from the coordinate. (The rank-2 companion is the library's `sum_idx2`.)
-/
import Idealize.ShloMosaic.Lib.ValueIdx

namespace Idealize.ShloMosaic.ValueIdx

open Idealize.ShloMosaic

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx
-- ==== Proof.LibLeadingTwoSum.lean ====
/-
  An exact sum over the two LEADING axes of a rank-3 array.

  Summing an [n0, n1, n2] array over its first two axes leaves a vector of length n2 whose entry k is the sum of the
  n0 · n1 entries (p, q, k). The general statement of such a sum ranges over the set of source indices whose image,
  once the summed coordinates are dropped, is the result index. For the two leading axes the dropped index is the
  last coordinate alone, so the set is cut out of the triple sum over coordinates by the condition "last
  coordinate = k", which keeps exactly one term of the innermost sum. No finiteness is assumed: the identity holds
  on the extended reals as in any commutative monoid.
-/
import Idealize.ShloMosaic.PureOps.Ideal.Laws
import Idealize.ShloMosaic.Lib.ValueIdx
import proofs.«153426_j55430847922218_2_alg».proof.Proof.LibRank3Sums

open scoped BigOperators

namespace Idealize.ShloMosaic.ValueIdx

open Idealize.ShloMosaic Cert.LibRank3Sums

/-- Dropping the two leading coordinates of a rank-3 index leaves its last coordinate: the dropped index is the
    rank-1 index `k` exactly when the last coordinate is `k`. -/
theorem drop_lead2_eq_iff {n0 n1 n2 : Nat} (h' : (⟨3, ![n0, n1, n2]⟩ : Shape).ReducesTo [0, 1] ⟨1, ![n2]⟩)
    (p : Fin n0) (q : Fin n1) (r k : Fin n2) : h'.drop (ix3 p q r) = ix1 k ↔ r = k := by
  have hv : ((h'.drop (ix3 p q r) ⟨0, Nat.one_pos⟩ : Fin n2) : Nat) = r.val :=
    Shape.ReducesTo.drop_apply_val_of_eq h' (ix3 p q r) ⟨0, Nat.one_pos⟩ ⟨2, Nat.lt_succ_self 2⟩ Nat.one_pos rfl
  constructor
  · intro e
    have e0 : ((h'.drop (ix3 p q r) ⟨0, Nat.one_pos⟩ : Fin n2) : Nat) = k.val := by rw [e]
    exact Fin.ext (hv.symm.trans e0)
  · rintro rfl
    funext d
    match d with
    | ⟨0, _⟩ => exact Fin.ext hv

/-- The exact sum over the two leading axes of an [n0, n1, n2] array, from an initial value, read at `k`: the initial
    value plus the double sum over the two leading coordinates of the array at (p, q, k). -/
theorem hostReduceAdd_lead2 {n0 n1 n2 : Nat} (h' : (⟨3, ![n0, n1, n2]⟩ : Shape).ReducesTo [0, 1] ⟨1, ![n2]⟩)
    (x : (⟨3, ![n0, n1, n2]⟩ : Shape).Idx → EReal) (init : EReal) (k : Fin n2) :
    Ideal.hostReduceAdd h' x init (ix1 k) = init + ∑ p : Fin n0, ∑ q : Fin n1, x (ix3 p q k) := by
  unfold Ideal.hostReduceAdd
  refine congrArg (init + ·) ?_
  rw [Finset.sum_filter, sum_idx3]
  refine Finset.sum_congr rfl fun p _ => Finset.sum_congr rfl fun q _ => ?_
  simp only [drop_lead2_eq_iff h' p q _ k]
  rw [Finset.sum_ite_eq' Finset.univ k (fun r => x (ix3 p q r)), if_pos (Finset.mem_univ k)]

end Idealize.ShloMosaic.ValueIdx
-- ==== Proof.RefValue.lean ====
/-
  The reference program's result, read at a coordinate, is the function `resR` of the argument arrays.

  The program is a chain of array operations at the exact extended reals. Each is read at an index given by
  coordinates, bottom up: the integer mask read signed (with a unit last axis, then repeated along the features);
  the number of unmasked tokens, floored at one; the first affine layer, a sum over the 768 input features plus the
  bias; the masked mean and the masked variance over all tokens, each a sum over the two leading axes of a
  [32, 2048, 512] array divided by the token count; the normalised activation; its maximum with zero; the second
  affine layer; and the masked mean over each sequence's tokens, a sum over the middle axis divided by the
  sequence's own count, floored at one. A sum from the zero word is the plain sum, since 0 + x = x.

  One general fact is used for the two sums over all tokens: an exact sum over the two LEADING axes of a rank-3
  array, read at k, is the initial value plus the double sum over the two leading coordinates of the array at
  (p, q, k).
-/
import proofs.«153426_j55430847922218_2_alg».proof.Proof.Gen.ReferenceIdeal.Read
import proofs.«153426_j55430847922218_2_alg».proof.Proof.Spec
import proofs.«153426_j55430847922218_2_alg».proof.Proof.LibRank3Sums
import proofs.«153426_j55430847922218_2_alg».proof.Proof.LibIndexSums
import proofs.«153426_j55430847922218_2_alg».proof.Proof.LibLeadingTwoSum

noncomputable section

open scoped BigOperators

namespace Cert.MlpPool.Ref

open Idealize.ShloMosaic Idealize.ShloMosaic.ValueIdx Cert.ReferenceIdeal Cert.ReferenceIdeal.Read Cert.LibRank3Sums

/-! ### The argument types, by coordinates -/

variable (x0 : S32x2048x768.Idx → EReal) (x1 : S32x2048.Idx → BitVec 32) (x2 : S768x512.Idx → EReal)
  (x3 x4 x5 : S512.Idx → EReal) (x6 : S512x512.Idx → EReal) (x7 : S512.Idx → EReal)

/-! ### The mask -/

/-- The float mask with its unit last axis, at (b, l, ·): the mask word read signed. -/
theorem mask_v1 (b : Fin 32) (l : Fin 2048) (u : Fin 1) :
    val_main_v1 (F := Ideal) x1 (ix3 b l u) = maskOf x1 b l := by
  rw [val_main_v1_apply, val_main_v0_apply]
  have e : idx_main_v1 (ix3 b l u) = ix2 b l := by
    funext a; match a with | ⟨0, _⟩ => rfl | ⟨1, _⟩ => rfl
  rw [e]; rfl

/-- The mask broadcast along the features, at (b, l, k) — its three uses. -/
theorem mask_v8 (b : Fin 32) (l : Fin 2048) (k : Fin 512) :
    val_main_v8 (F := Ideal) x1 (ix3 b l k) = maskOf x1 b l := by
  rw [val_main_v8_apply]
  have e : idx_main_v8 (ix3 b l k) = ix3 b l (0 : Fin 1) := by
    funext a; match a with | ⟨0, _⟩ => rfl | ⟨1, _⟩ => rfl | ⟨2, _⟩ => rfl
  rw [e, mask_v1]
theorem mask_v17 (b : Fin 32) (l : Fin 2048) (k : Fin 512) :
    val_main_v17 (F := Ideal) x1 (ix3 b l k) = maskOf x1 b l := by
  rw [val_main_v17_apply]
  have e : idx_main_v17 (ix3 b l k) = ix3 b l (0 : Fin 1) := by
    funext a; match a with | ⟨0, _⟩ => rfl | ⟨1, _⟩ => rfl | ⟨2, _⟩ => rfl
  rw [e, mask_v1]
theorem mask_v45 (b : Fin 32) (l : Fin 2048) (k : Fin 512) :
    val_main_v45 (F := Ideal) x1 (ix3 b l k) = maskOf x1 b l := by
  rw [val_main_v45_apply]
  have e : idx_main_v45 (ix3 b l k) = ix3 b l (0 : Fin 1) := by
    funext a; match a with | ⟨0, _⟩ => rfl | ⟨1, _⟩ => rfl | ⟨2, _⟩ => rfl
  rw [e, mask_v1]

/-! ### The number of unmasked tokens -/

/-- The total of the mask, floored at one, is `nValid`. -/
theorem nValid_v3 (i : S_.Idx) : val_main_v3 (F := Ideal) x1 i = nValid (maskOf x1) := by
  rw [val_main_v3_apply, val_main_v2_apply, val_main_cst_apply, val_main_cst_0_apply, sum_idx3]
  simp only [Fin.sum_univ_one, mask_v1, Ideal.ofBits_def, Ideal.ofBits_zero_f32, zero_add, Ideal.maximumf_def]
  rfl

/-! ### The first layer -/

/-- The first bias broadcast over the tokens, at (b, l, k). -/
theorem bias_v6 (b : Fin 32) (l : Fin 2048) (k : Fin 512) :
    val_main_v6 (F := Ideal) x3 (ix3 b l k) = arr1 x3 k := by
  rw [val_main_v6_apply, val_main_v5_apply]
  have e : idx_main_v5 (idx_main_v6 (ix3 b l k)) = ix1 k := by
    funext a; match a with | ⟨0, _⟩ => rfl
  rw [e]; rfl

/-- The first layer at (b, l, k) is `lin1`. -/
theorem lin1_v7 (b : Fin 32) (l : Fin 2048) (k : Fin 512) :
    val_main_v7 (F := Ideal) x0 x2 x3 (ix3 b l k) = lin1 (arr3 x0) (arr2 x2) (arr1 x3) b l k := by
  rw [val_main_v7_apply, val_main_v4_apply, bias_v6]
  have el : ∀ d : Fin 768, lidx_main_v4 (ix3 b l k) d = ix3 b l d := fun d => by
    funext a; match a with | ⟨0, _⟩ => rfl | ⟨1, _⟩ => rfl | ⟨2, _⟩ => rfl
  have er : ∀ d : Fin 768, ridx_main_v4 (ix3 b l k) d = ix2 d k := fun d => by
    funext a; match a with | ⟨0, _⟩ => rfl | ⟨1, _⟩ => rfl
  simp only [el, er]
  rfl

/-! ### The mean -/

/-- The masked first layer at (b, l, k). -/
theorem masked_v9 (b : Fin 32) (l : Fin 2048) (k : Fin 512) :
    val_main_v9 (F := Ideal) x0 x1 x2 x3 (ix3 b l k)
      = lin1 (arr3 x0) (arr2 x2) (arr1 x3) b l k * maskOf x1 b l := by
  rw [val_main_v9_apply, lin1_v7, mask_v8]; rfl

/-- The sum of the masked first layer over every token, at feature k. -/
theorem sum_v10 (k : Fin 512) :
    val_main_v10 (F := Ideal) x0 x1 x2 x3 (ix1 k)
      = ∑ b : Fin 32, ∑ l : Fin 2048, lin1 (arr3 x0) (arr2 x2) (arr1 x3) b l k * maskOf x1 b l := by
  unfold val_main_v10
  simp only [Host.reduceAdd, Ideal.hostReduceAdd_def]
  rw [hostReduceAdd_lead2, val_main_cst_1_apply, Ideal.ofBits_def, Ideal.ofBits_zero_f32, zero_add]
  simp only [masked_v9]

/-- The token count broadcast over the features. -/
theorem nValid_v11 (k : Fin 512) : val_main_v11 (F := Ideal) x1 (ix1 k) = nValid (maskOf x1) := by
  rw [val_main_v11_apply, nValid_v3]
theorem nValid_v20 (k : Fin 512) : val_main_v20 (F := Ideal) x1 (ix1 k) = nValid (maskOf x1) := by
  rw [val_main_v20_apply, nValid_v3]

/-- The mean at feature k is `meanR`. -/
theorem mean_v12 (k : Fin 512) :
    val_main_v12 (F := Ideal) x0 x1 x2 x3 (ix1 k) = meanR (arr3 x0) (maskOf x1) (arr2 x2) (arr1 x3) k := by
  rw [val_main_v12_apply, sum_v10, nValid_v11]; rfl

/-- The mean broadcast over the tokens — its two uses. -/
theorem mean_v14 (b : Fin 32) (l : Fin 2048) (k : Fin 512) :
    val_main_v14 (F := Ideal) x0 x1 x2 x3 (ix3 b l k) = meanR (arr3 x0) (maskOf x1) (arr2 x2) (arr1 x3) k := by
  rw [val_main_v14_apply, val_main_v13_apply]
  have e : idx_main_v13 (idx_main_v14 (ix3 b l k)) = ix1 k := by
    funext a; match a with | ⟨0, _⟩ => rfl
  rw [e, mean_v12]
theorem mean_v23 (b : Fin 32) (l : Fin 2048) (k : Fin 512) :
    val_main_v23 (F := Ideal) x0 x1 x2 x3 (ix3 b l k) = meanR (arr3 x0) (maskOf x1) (arr2 x2) (arr1 x3) k := by
  rw [val_main_v23_apply, val_main_v22_apply]
  have e : idx_main_v22 (idx_main_v23 (ix3 b l k)) = ix1 k := by
    funext a; match a with | ⟨0, _⟩ => rfl
  rw [e, mean_v12]

/-! ### The variance -/

/-- The masked squared deviation at (b, l, k). -/
theorem sqdev_v18 (b : Fin 32) (l : Fin 2048) (k : Fin 512) :
    val_main_v18 (F := Ideal) x0 x1 x2 x3 (ix3 b l k)
      = ((lin1 (arr3 x0) (arr2 x2) (arr1 x3) b l k - meanR (arr3 x0) (maskOf x1) (arr2 x2) (arr1 x3) k)
          * (lin1 (arr3 x0) (arr2 x2) (arr1 x3) b l k - meanR (arr3 x0) (maskOf x1) (arr2 x2) (arr1 x3) k))
        * maskOf x1 b l := by
  rw [val_main_v18_apply, val_main_v16_apply, val_main_v15_apply, lin1_v7, mean_v14, mask_v17]; rfl

/-- The sum of the masked squared deviations over every token, at feature k. -/
theorem sum_v19 (k : Fin 512) :
    val_main_v19 (F := Ideal) x0 x1 x2 x3 (ix1 k)
      = ∑ b : Fin 32, ∑ l : Fin 2048,
          ((lin1 (arr3 x0) (arr2 x2) (arr1 x3) b l k - meanR (arr3 x0) (maskOf x1) (arr2 x2) (arr1 x3) k)
            * (lin1 (arr3 x0) (arr2 x2) (arr1 x3) b l k - meanR (arr3 x0) (maskOf x1) (arr2 x2) (arr1 x3) k))
          * maskOf x1 b l := by
  unfold val_main_v19
  simp only [Host.reduceAdd, Ideal.hostReduceAdd_def]
  rw [hostReduceAdd_lead2, val_main_cst_2_apply, Ideal.ofBits_def, Ideal.ofBits_zero_f32, zero_add]
  simp only [sqdev_v18]

/-- The variance at feature k is `varR`. -/
theorem var_v21 (k : Fin 512) :
    val_main_v21 (F := Ideal) x0 x1 x2 x3 (ix1 k) = varR (arr3 x0) (maskOf x1) (arr2 x2) (arr1 x3) k := by
  rw [val_main_v21_apply, sum_v19, nValid_v20]; rfl

/-! ### The normalised activations -/

/-- The reciprocal standard deviation at feature k. -/
theorem rstd_v27 (k : Fin 512) :
    val_main_v27 (F := Ideal) x0 x1 x2 x3 (ix1 k)
      = Ideal.rsqrt (varR (arr3 x0) (maskOf x1) (arr2 x2) (arr1 x3) k + eps) := by
  rw [val_main_v27_apply, val_main_v26_apply, var_v21, val_main_v25_apply, val_main_cst_3_apply,
    Ideal.hostUnary_rsqrt_def, Ideal.addf_def, Ideal.ofBits_def, eps]

/-- … broadcast over the tokens. -/
theorem rstd_v29 (b : Fin 32) (l : Fin 2048) (k : Fin 512) :
    val_main_v29 (F := Ideal) x0 x1 x2 x3 (ix3 b l k)
      = Ideal.rsqrt (varR (arr3 x0) (maskOf x1) (arr2 x2) (arr1 x3) k + eps) := by
  rw [val_main_v29_apply, val_main_v28_apply]
  have e : idx_main_v28 (idx_main_v29 (ix3 b l k)) = ix1 k := by
    funext a; match a with | ⟨0, _⟩ => rfl
  rw [e, rstd_v27]

/-- The scale and the shift broadcast over the tokens. -/
theorem gamma_v32 (b : Fin 32) (l : Fin 2048) (k : Fin 512) :
    val_main_v32 (F := Ideal) x4 (ix3 b l k) = arr1 x4 k := by
  rw [val_main_v32_apply, val_main_v31_apply]
  have e : idx_main_v31 (idx_main_v32 (ix3 b l k)) = ix1 k := by
    funext a; match a with | ⟨0, _⟩ => rfl
  rw [e]; rfl
theorem beta_v35 (b : Fin 32) (l : Fin 2048) (k : Fin 512) :
    val_main_v35 (F := Ideal) x5 (ix3 b l k) = arr1 x5 k := by
  rw [val_main_v35_apply, val_main_v34_apply]
  have e : idx_main_v34 (idx_main_v35 (ix3 b l k)) = ix1 k := by
    funext a; match a with | ⟨0, _⟩ => rfl
  rw [e]; rfl

/-- The normalised activation at (b, l, k) is `preR`. -/
theorem pre_v36 (b : Fin 32) (l : Fin 2048) (k : Fin 512) :
    val_main_v36 (F := Ideal) x0 x1 x2 x3 x4 x5 (ix3 b l k)
      = preR (arr3 x0) (maskOf x1) (arr2 x2) (arr1 x3) (arr1 x4) (arr1 x5) b l k := by
  rw [val_main_v36_apply, val_main_v33_apply, val_main_v30_apply, val_main_v24_apply, lin1_v7, mean_v23, rstd_v29,
    gamma_v32, beta_v35]
  rfl

/-- The ReLU at (b, l, k): the maximum with zero. -/
theorem relu_v37 (b : Fin 32) (l : Fin 2048) (k : Fin 512) :
    val_main_v37 (F := Ideal) x0 x1 x2 x3 x4 x5 (ix3 b l k)
      = max (preR (arr3 x0) (maskOf x1) (arr2 x2) (arr1 x3) (arr1 x4) (arr1 x5) b l k) 0 := by
  rw [val_main_v37_apply, pre_v36, val_main_call0_v0_apply, val_main_call0_cst_apply, Ideal.ofBits_def,
    Ideal.ofBits_zero_f32]
  rfl

/-! ### The second layer -/

/-- The second bias broadcast over the tokens. -/
theorem bias_v40 (b : Fin 32) (l : Fin 2048) (k : Fin 512) :
    val_main_v40 (F := Ideal) x7 (ix3 b l k) = arr1 x7 k := by
  rw [val_main_v40_apply, val_main_v39_apply]
  have e : idx_main_v39 (idx_main_v40 (ix3 b l k)) = ix1 k := by
    funext a; match a with | ⟨0, _⟩ => rfl
  rw [e]; rfl

/-- The second layer at (b, l, k) is `second` of the reference's normalisation. -/
theorem second_v41 (b : Fin 32) (l : Fin 2048) (k : Fin 512) :
    val_main_v41 (F := Ideal) x0 x1 x2 x3 x4 x5 x6 x7 (ix3 b l k)
      = second (arr2 x6) (arr1 x7) (preR (arr3 x0) (maskOf x1) (arr2 x2) (arr1 x3) (arr1 x4) (arr1 x5)) b l k := by
  rw [val_main_v41_apply, val_main_v38_apply, bias_v40]
  have el : ∀ j : Fin 512, lidx_main_v38 (ix3 b l k) j = ix3 b l j := fun j => by
    funext a; match a with | ⟨0, _⟩ => rfl | ⟨1, _⟩ => rfl | ⟨2, _⟩ => rfl
  have er : ∀ j : Fin 512, ridx_main_v38 (ix3 b l k) j = ix2 j k := fun j => by
    funext a; match a with | ⟨0, _⟩ => rfl | ⟨1, _⟩ => rfl
  simp only [el, er, relu_v37]
  rfl

/-! ### The masked mean over each sequence -/

/-- The number of unmasked tokens of sequence b, floored at one, is `counts`. -/
theorem counts_v44 (b : Fin 32) (u : Fin 1) :
    val_main_v44 (F := Ideal) x1 (ix2 b u) = counts (maskOf x1) b := by
  rw [val_main_v44_apply, val_main_v42_apply, val_main_cst_4_apply, val_main_v43_apply, val_main_cst_5_apply]
  have e : ∀ l : Fin 2048, idx_main_v42 (ix2 b u) l = ix3 b l u := fun l => by
    funext a; match a with | ⟨0, _⟩ => rfl | ⟨1, _⟩ => rfl | ⟨2, _⟩ => rfl
  simp only [e, mask_v1, Ideal.ofBits_def, Ideal.ofBits_zero_f32, zero_add, Ideal.maximumf_def]
  rfl

/-- … broadcast over the features. -/
theorem counts_v48 (b : Fin 32) (k : Fin 512) :
    val_main_v48 (F := Ideal) x1 (ix2 b k) = counts (maskOf x1) b := by
  rw [val_main_v48_apply]
  have e : idx_main_v48 (ix2 b k) = ix2 b (0 : Fin 1) := by
    funext a; match a with | ⟨0, _⟩ => rfl | ⟨1, _⟩ => rfl
  rw [e, counts_v44]

/-- The masked second layer summed over the tokens of sequence b, at feature k. -/
theorem sum_v47 (b : Fin 32) (k : Fin 512) :
    val_main_v47 (F := Ideal) x0 x1 x2 x3 x4 x5 x6 x7 (ix2 b k)
      = ∑ l : Fin 2048,
          second (arr2 x6) (arr1 x7) (preR (arr3 x0) (maskOf x1) (arr2 x2) (arr1 x3) (arr1 x4) (arr1 x5)) b l k
            * maskOf x1 b l := by
  rw [val_main_v47_apply, val_main_cst_6_apply, Ideal.ofBits_def, Ideal.ofBits_zero_f32, zero_add]
  have e : ∀ l : Fin 2048, idx_main_v47 (ix2 b k) l = ix3 b l k := fun l => by
    funext a; match a with | ⟨0, _⟩ => rfl | ⟨1, _⟩ => rfl | ⟨2, _⟩ => rfl
  simp only [e, val_main_v46_apply, second_v41, mask_v45, Ideal.mulf_def]

/-- The reference's result at (b, k) is `resR`. -/
theorem ref_eq_resR (b : Fin 32) (k : Fin 512) :
    val_main_v49 (F := Ideal) x0 x1 x2 x3 x4 x5 x6 x7 (ix2 b k)
      = resR (arr3 x0) (maskOf x1) (arr2 x2) (arr1 x3) (arr1 x4) (arr1 x5) (arr2 x6) (arr1 x7) b k := by
  rw [val_main_v49_apply, sum_v47, counts_v48]
  rfl

end Cert.MlpPool.Ref

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.NormAlgebra.lean ====
/-
  The kernel's one-pass batch normalisation equals the reference's two-pass one, over the extended reals, when the
  inputs are finite and the mask is 0/1.

  With weights m ∈ {0, 1} of total n = Σ m ≥ 1 and first-layer values h = a + c (c the bias the kernel centres at):
  the weighted mean of h is s + c, where s is the weighted mean of a; the weighted variance of h about its mean is
  the second moment of a minus s²; that variance is not negative, so adding ε > 0 gives a positive real whose
  reciprocal square root is finite; and (h − mean)·r·γ + β = h·(γ·r) + (β − (s + c)·(γ·r)). Everything is a finite
  real, so the extended-real expressions are inclusions of real ones and the identities are checked in ℝ.
  A masked token is multiplied by zero in the pooled sum, so the agreement is only needed where the mask has a one.
-/
import proofs.«153426_j55430847922218_2_alg».proof.Proof.Spec
import proofs.«153426_j55430847922218_2_alg».proof.Proof.LibERealSums
import Mathlib

noncomputable section

open scoped BigOperators

namespace Cert.MlpPool

open Idealize.ShloMosaic Cert.Attn

/-! ### Weighted statistics over the reals

Two finite index types ι, κ (the sequences and the positions), centred values a, weights w with total weight n ≠ 0,
and an offset c added to every value. -/

section RealStats
variable {ι κ : Type} [Fintype ι] [Fintype κ]

/-- Adding a constant c to every value adds c to the weighted mean. -/
theorem weighted_mean_shift (a w : ι → κ → ℝ) (c n : ℝ) (hn : ∑ i, ∑ j, w i j = n) (hn0 : n ≠ 0) :
    (∑ i, ∑ j, (a i j + c) * w i j) * (1 / n) = (∑ i, ∑ j, a i j * w i j) * (1 / n) + c := by
  have h : ∑ i, ∑ j, (a i j + c) * w i j = (∑ i, ∑ j, a i j * w i j) + c * n := by
    rw [← hn]
    simp only [add_mul, Finset.sum_add_distrib, Finset.mul_sum]
  rw [h]
  field_simp

/-- The weighted sum of squared deviations from s, expanded: Σ (a - s)² w = Σ (a w) a - 2 s Σ a w + s² Σ w. -/
theorem sum_sq_dev_expand (a w : ι → κ → ℝ) (s n : ℝ) (hn : ∑ i, ∑ j, w i j = n) :
    ∑ i, ∑ j, ((a i j - s) * (a i j - s)) * w i j
      = (∑ i, ∑ j, (a i j * w i j) * a i j) - 2 * s * (∑ i, ∑ j, a i j * w i j) + s * s * n := by
  rw [← hn]
  simp only [Finset.mul_sum, ← Finset.sum_add_distrib, ← Finset.sum_sub_distrib]
  refine Finset.sum_congr rfl fun i _ => Finset.sum_congr rfl fun j _ => ?_
  ring

/-- The two-pass variance about the weighted mean s is the one-pass form: second moment minus s². -/
theorem two_pass_variance_eq_one_pass (a w : ι → κ → ℝ) (n : ℝ) (hn : ∑ i, ∑ j, w i j = n) (hn0 : n ≠ 0) :
    (∑ i, ∑ j, ((a i j - (∑ i, ∑ j, a i j * w i j) * (1 / n)) * (a i j - (∑ i, ∑ j, a i j * w i j) * (1 / n))) * w i j)
        * (1 / n)
      = (∑ i, ∑ j, (a i j * w i j) * a i j) * (1 / n)
        - ((∑ i, ∑ j, a i j * w i j) * (1 / n)) * ((∑ i, ∑ j, a i j * w i j) * (1 / n)) := by
  rw [sum_sq_dev_expand a w _ n hn]
  field_simp
  ring

/-- The one-pass variance is not negative: it is a weighted mean of squares, for weights that are not negative. -/
theorem one_pass_variance_nonneg (a w : ι → κ → ℝ) (n : ℝ) (hn : ∑ i, ∑ j, w i j = n) (hpos : 0 < n)
    (hw : ∀ i j, 0 ≤ w i j) :
    0 ≤ (∑ i, ∑ j, (a i j * w i j) * a i j) * (1 / n)
        - ((∑ i, ∑ j, a i j * w i j) * (1 / n)) * ((∑ i, ∑ j, a i j * w i j) * (1 / n)) := by
  rw [← two_pass_variance_eq_one_pass a w n hn hpos.ne']
  refine mul_nonneg (Finset.sum_nonneg fun i _ => Finset.sum_nonneg fun j _ => ?_) (by positivity)
  exact mul_nonneg (mul_self_nonneg _) (hw i j)

end RealStats

/-! ### The two float constants -/

/-- The float word 0x3F800000 is the real number one. -/
theorem one_eq : one = 1 := by
  rw [show (1 : EReal) = ((1 : ℝ) : EReal) by norm_cast]
  simp [one, Ideal.ofBits, Ideal.ieee, -EReal.coe_mul]; norm_num

/-- The float word of ε is a positive real number (a positive significand times a power of two). -/
theorem eps_pos_real : ∃ e : ℝ, 0 < e ∧ eps = (e : EReal) := by
  simp [eps, Ideal.ofBits, Ideal.ieee, -EReal.coe_mul]

/-- The reciprocal square root of a positive real is the finite real (√r)⁻¹. -/
theorem rsqrt_coe_of_pos (r : ℝ) (hr : 0 < r) : Ideal.rsqrt (r : EReal) = (((Real.sqrt r)⁻¹ : ℝ) : EReal) := by
  rw [Ideal.rsqrt_coe, if_neg (not_lt.mpr hr.le), if_neg hr.ne']

/-- A double sum of included reals is the included double sum. -/
theorem sum_sum_coe {ι κ : Type} [Fintype ι] [Fintype κ] (f : ι → κ → ℝ) :
    ∑ i, ∑ j, ((f i j : ℝ) : EReal) = ((∑ i, ∑ j, f i j : ℝ) : EReal) := by
  rw [coe_sum_univ]
  exact Finset.sum_congr rfl fun i _ => (coe_sum_univ _).symm

/-! ### The statistics of both programs at real inputs

Throughout: feature k is fixed, a b l is the centred first layer Σ_d x·w1 at token (b, l), c the bias b1 k, m the real
0/1 mask and n = Σ m ≥ 1 its total. -/

section Coerced
variable (X : Fin 32 → Fin 2048 → Fin 768 → EReal) (Mk : Fin 32 → Fin 2048 → EReal)
  (W1 : Fin 768 → Fin 512 → EReal) (b1 γ β : Fin 512 → EReal)

/-- The first layer at real inputs is the real  Σ_d x·w1 + c . -/
theorem lin1_eq_coe (x : Fin 32 → Fin 2048 → Fin 768 → ℝ) (w1 : Fin 768 → Fin 512 → ℝ) (c : Fin 512 → ℝ)
    (hX : ∀ b l d, X b l d = (x b l d : EReal)) (hW1 : ∀ d k, W1 d k = (w1 d k : EReal))
    (hb1 : ∀ k, b1 k = (c k : EReal)) (b : Fin 32) (l : Fin 2048) (k : Fin 512) :
    lin1 X W1 b1 b l k = (((∑ d, x b l d * w1 d k) + c k : ℝ) : EReal) := by
  unfold lin1
  simp only [hX, hW1, hb1]
  rw [sum_coe_mul_coe, EReal.coe_add]

variable (a m : Fin 32 → Fin 2048 → ℝ) (c n : ℝ) (k : Fin 512)

/-- The token count, at a mask with at least one unmasked token, is the real total n. -/
theorem nValid_eq_coe (hMk : ∀ b l, Mk b l = (m b l : EReal)) (hn : ∑ b, ∑ l, m b l = n) (hn1 : 1 ≤ n) :
    nValid Mk = (n : EReal) := by
  unfold nValid
  simp only [hMk]
  rw [sum_sum_coe, hn, one_eq, ← EReal.coe_one, max_eq_left (EReal.coe_le_coe_iff.mpr hn1)]

/-- The kernel's centred sum. -/
theorem sumK_eq_coe (hlin : ∀ b l, lin1 X W1 b1 b l k = ((a b l + c : ℝ) : EReal)) (hb1k : b1 k = (c : EReal))
    (hMk : ∀ b l, Mk b l = (m b l : EReal)) :
    sumK X Mk W1 b1 k = ((∑ b, ∑ l, a b l * m b l : ℝ) : EReal) := by
  unfold sumK
  simp only [hlin, hb1k, hMk, ← EReal.coe_sub, ← EReal.coe_mul, add_sub_cancel_right]
  rw [sum_sum_coe]

/-- The kernel's centred sum of squares. -/
theorem sumsqK_eq_coe (hlin : ∀ b l, lin1 X W1 b1 b l k = ((a b l + c : ℝ) : EReal)) (hb1k : b1 k = (c : EReal))
    (hMk : ∀ b l, Mk b l = (m b l : EReal)) :
    sumsqK X Mk W1 b1 k = ((∑ b, ∑ l, (a b l * m b l) * a b l : ℝ) : EReal) := by
  unfold sumsqK
  simp only [hlin, hb1k, hMk, ← EReal.coe_sub, ← EReal.coe_mul, add_sub_cancel_right]
  rw [sum_sum_coe]

/-- The kernel's centred mean s. -/
theorem meanS_eq_coe (hlin : ∀ b l, lin1 X W1 b1 b l k = ((a b l + c : ℝ) : EReal)) (hb1k : b1 k = (c : EReal))
    (hMk : ∀ b l, Mk b l = (m b l : EReal)) (hn : ∑ b, ∑ l, m b l = n) (hn1 : 1 ≤ n) :
    meanS X Mk W1 b1 k = (((∑ b, ∑ l, a b l * m b l) * (1 / n) : ℝ) : EReal) := by
  have hn0 : n ≠ 0 := by linarith
  unfold meanS
  rw [sumK_eq_coe X Mk W1 b1 a m c k hlin hb1k hMk, nValid_eq_coe Mk m n hMk hn hn1, Ideal.div_coe hn0,
    ← EReal.coe_mul]

/-- The kernel's one-pass variance v. -/
theorem varK_eq_coe (hlin : ∀ b l, lin1 X W1 b1 b l k = ((a b l + c : ℝ) : EReal)) (hb1k : b1 k = (c : EReal))
    (hMk : ∀ b l, Mk b l = (m b l : EReal)) (hn : ∑ b, ∑ l, m b l = n) (hn1 : 1 ≤ n) :
    varK X Mk W1 b1 k = (((∑ b, ∑ l, (a b l * m b l) * a b l) * (1 / n)
      - ((∑ b, ∑ l, a b l * m b l) * (1 / n)) * ((∑ b, ∑ l, a b l * m b l) * (1 / n)) : ℝ) : EReal) := by
  have hn0 : n ≠ 0 := by linarith
  unfold varK
  rw [sumsqK_eq_coe X Mk W1 b1 a m c k hlin hb1k hMk, nValid_eq_coe Mk m n hMk hn hn1,
    meanS_eq_coe X Mk W1 b1 a m c n k hlin hb1k hMk hn hn1, Ideal.div_coe hn0, ← EReal.coe_mul, ← EReal.coe_mul,
    ← EReal.coe_sub]

/-- The reference's mean is the centred mean plus the bias: s + c. -/
theorem meanR_eq_coe (hlin : ∀ b l, lin1 X W1 b1 b l k = ((a b l + c : ℝ) : EReal))
    (hMk : ∀ b l, Mk b l = (m b l : EReal)) (hn : ∑ b, ∑ l, m b l = n) (hn1 : 1 ≤ n) :
    meanR X Mk W1 b1 k = (((∑ b, ∑ l, a b l * m b l) * (1 / n) + c : ℝ) : EReal) := by
  have hn0 : n ≠ 0 := by linarith
  unfold meanR
  simp only [hlin, hMk, ← EReal.coe_mul]
  rw [sum_sum_coe, nValid_eq_coe Mk m n hMk hn hn1, Ideal.div_coe hn0, ← EReal.coe_mul,
    weighted_mean_shift a m c n hn hn0]

/-- The reference's two-pass variance is the kernel's one-pass variance v. -/
theorem varR_eq_coe (hlin : ∀ b l, lin1 X W1 b1 b l k = ((a b l + c : ℝ) : EReal))
    (hMk : ∀ b l, Mk b l = (m b l : EReal)) (hn : ∑ b, ∑ l, m b l = n) (hn1 : 1 ≤ n) :
    varR X Mk W1 b1 k = (((∑ b, ∑ l, (a b l * m b l) * a b l) * (1 / n)
      - ((∑ b, ∑ l, a b l * m b l) * (1 / n)) * ((∑ b, ∑ l, a b l * m b l) * (1 / n)) : ℝ) : EReal) := by
  have hn0 : n ≠ 0 := by linarith
  have hmean := meanR_eq_coe X Mk W1 b1 a m c n k hlin hMk hn hn1
  unfold varR
  simp only [hlin, hMk, hmean, ← EReal.coe_sub, ← EReal.coe_mul, add_sub_add_right_eq_sub]
  rw [sum_sum_coe, nValid_eq_coe Mk m n hMk hn hn1, Ideal.div_coe hn0, ← EReal.coe_mul,
    two_pass_variance_eq_one_pass a m n hn hn0]

end Coerced

/-! ### The two normalisations agree -/

section Agree
variable (X : Fin 32 → Fin 2048 → Fin 768 → EReal) (Mk : Fin 32 → Fin 2048 → EReal)
  (W1 : Fin 768 → Fin 512 → EReal) (b1 γ β : Fin 512 → EReal)

/-- At real inputs, a nonnegative real mask of total n ≥ 1: the kernel's  h·scale + shift  is the reference's
    (h − mean)·rsqrt(var + ε)·γ + β . Both variances are the same real v ≥ 0, so v + ε > 0 and the reciprocal square
    root is one finite real r on both sides; the rest is the identity
    (h − (s + c))·r·γ + β = h·(γ·r) + (β − (s + c)·(γ·r)). -/
theorem preK_eq_preR_of_real (a m : Fin 32 → Fin 2048 → ℝ) (c n g be : ℝ) (k : Fin 512)
    (hlin : ∀ b l, lin1 X W1 b1 b l k = ((a b l + c : ℝ) : EReal)) (hb1k : b1 k = (c : EReal))
    (hγk : γ k = (g : EReal)) (hβk : β k = (be : EReal))
    (hMk : ∀ b l, Mk b l = (m b l : EReal)) (hm : ∀ b l, 0 ≤ m b l) (hn : ∑ b, ∑ l, m b l = n) (hn1 : 1 ≤ n)
    (b : Fin 32) (l : Fin 2048) :
    preK X Mk W1 b1 γ β b l k = preR X Mk W1 b1 γ β b l k := by
  obtain ⟨e, he, heps⟩ := eps_pos_real
  have hv := one_pass_variance_nonneg a m n hn (by linarith) hm
  have hpos : 0 < (∑ b, ∑ l, (a b l * m b l) * a b l) * (1 / n)
      - ((∑ b, ∑ l, a b l * m b l) * (1 / n)) * ((∑ b, ∑ l, a b l * m b l) * (1 / n)) + e := by linarith
  unfold preK preR shiftK scaleK
  rw [hlin, varK_eq_coe X Mk W1 b1 a m c n k hlin hb1k hMk hn hn1, varR_eq_coe X Mk W1 b1 a m c n k hlin hMk hn hn1,
    meanS_eq_coe X Mk W1 b1 a m c n k hlin hb1k hMk hn hn1, meanR_eq_coe X Mk W1 b1 a m c n k hlin hMk hn hn1,
    heps, hb1k, hγk, hβk, ← EReal.coe_add, rsqrt_coe_of_pos _ hpos]
  simp only [← EReal.coe_mul, ← EReal.coe_add, ← EReal.coe_sub]
  congr 1
  ring

/-- The two normalisations agree at every token and feature, for finite inputs and a 0/1 mask with some entry 1. -/
theorem preK_eq_preR (hX : ∀ b l d, ∃ r : ℝ, X b l d = (r : EReal)) (hM : ∀ b l, Mk b l = 0 ∨ Mk b l = 1)
    (hW1 : ∀ d k, ∃ r : ℝ, W1 d k = (r : EReal)) (hb1 : ∀ k, ∃ r : ℝ, b1 k = (r : EReal))
    (hγ : ∀ k, ∃ r : ℝ, γ k = (r : EReal)) (hβ : ∀ k, ∃ r : ℝ, β k = (r : EReal))
    (hsome : ∃ b₀ l₀, Mk b₀ l₀ = 1) (b : Fin 32) (l : Fin 2048) (k : Fin 512) :
    preK X Mk W1 b1 γ β b l k = preR X Mk W1 b1 γ β b l k := by
  choose x hx using hX
  choose w1 hw1 using hW1
  choose c hc using hb1
  choose g hg using hγ
  choose be hbe using hβ
  have hM' : ∀ b l, ∃ r : ℝ, (r = 0 ∨ r = 1) ∧ Mk b l = (r : EReal) := fun b l => by
    rcases hM b l with h | h
    · exact ⟨0, Or.inl rfl, by rw [h, EReal.coe_zero]⟩
    · exact ⟨1, Or.inr rfl, by rw [h, EReal.coe_one]⟩
  choose m hm01 hMk using hM'
  have hm : ∀ b l, 0 ≤ m b l := fun b l => by rcases hm01 b l with h | h <;> rw [h] <;> norm_num
  obtain ⟨b₀, l₀, h₀⟩ := hsome
  have hm₀ : m b₀ l₀ = 1 := by
    have := h₀; rw [hMk, ← EReal.coe_one, EReal.coe_eq_coe_iff] at this; exact this
  have hn1 : 1 ≤ ∑ b, ∑ l, m b l := by
    calc (1 : ℝ) = m b₀ l₀ := hm₀.symm
      _ ≤ ∑ l, m b₀ l := Finset.single_le_sum (f := fun l => m b₀ l) (fun l _ => hm b₀ l) (Finset.mem_univ l₀)
      _ ≤ ∑ b, ∑ l, m b l :=
        Finset.single_le_sum (f := fun b => ∑ l, m b l) (fun b _ => Finset.sum_nonneg fun l _ => hm b l)
          (Finset.mem_univ b₀)
  exact preK_eq_preR_of_real X Mk W1 b1 γ β (fun b l => ∑ d, x b l d * w1 d k) m (c k) _ (g k) (be k) k
    (fun b l => lin1_eq_coe X W1 b1 x w1 c hx hw1 hc b l k) (hc k) (hg k) (hbe k) hMk hm rfl hn1 b l

/-- The kernel's result is the reference's, for finite inputs and a 0/1 mask: a masked token contributes zero to the
    pooled sum whatever its value, and at an unmasked token the mask has an entry 1, so the normalisations agree. -/
theorem resK_eq_resR (W2 : Fin 512 → Fin 512 → EReal) (b2 : Fin 512 → EReal)
    (hX : ∀ b l d, ∃ r : ℝ, X b l d = (r : EReal)) (hM : ∀ b l, Mk b l = 0 ∨ Mk b l = 1)
    (hW1 : ∀ d k, ∃ r : ℝ, W1 d k = (r : EReal)) (hb1 : ∀ k, ∃ r : ℝ, b1 k = (r : EReal))
    (hγ : ∀ k, ∃ r : ℝ, γ k = (r : EReal)) (hβ : ∀ k, ∃ r : ℝ, β k = (r : EReal)) (b : Fin 32) (k : Fin 512) :
    resK X Mk W1 b1 γ β W2 b2 b k = resR X Mk W1 b1 γ β W2 b2 b k := by
  unfold resK resR pooled
  congr 1
  refine Finset.sum_congr rfl fun l _ => ?_
  rcases hM b l with h0 | h1
  · rw [h0, mul_zero, mul_zero]
  · have hpre : ∀ j, preK X Mk W1 b1 γ β b l j = preR X Mk W1 b1 γ β b l j := fun j =>
      preK_eq_preR X Mk W1 b1 γ β hX hM hW1 hb1 hγ hβ ⟨b, l, h1⟩ b l j
    unfold second
    simp only [hpre]

end Agree

end Cert.MlpPool

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.PreDecode.lean ====
/-
  The precondition read back.

  The predicate is a conjunction of eight one-bit words. Seven of them are "every entry of a float array has absolute
  value below +∞": an and-reduction, over all axes, of the comparison  max(x, -x) < ⊤  taken entry by entry. The eighth
  is "every entry of the integer mask is 0 or 1": an and-reduction of (m = 0) or (m = 1). An and-reduction to a single
  word is 1 only if every entry reduced is 1, a conjunction of bits is 1 only if both are, and  max(x, -x) < ⊤  on the
  extended reals holds only at a real number. So where the predicate is 1, every float entry is (the image of) a real
  number and every mask entry is the word 0 or the word 1; read signed, the mask is then the extended real 0 or 1.
-/
import proofs.«153426_j55430847922218_2_alg».proof.Pre_finite_inputs
import proofs.«153426_j55430847922218_2_alg».proof.Proof.Gen.Pre_finite_inputs
import proofs.«153426_j55430847922218_2_alg».proof.Proof.LibFiniteEntry
import proofs.«153426_j55430847922218_2_alg».proof.Proof.Spec
import Idealize.ShloMosaic.Lib.ReduceAll

noncomputable section

namespace Cert.MlpPool.Pre

open Idealize.ShloMosaic Idealize.ShloMosaic.ValueIdx
open Cert.Pre_finite_inputs

/-- The rank-0 shape has one index. -/
instance scalarIdxSubsingleton : Subsingleton S_.Idx := ⟨fun _ _ => funext fun d => d.elim0⟩

/-- One conjunct "all |x| < +∞" read back: where the and-reduction of the entrywise comparison is 1, every entry of x
    is a real number. -/
theorem real_of_all_abs_lt_inf {s : Shape} {axes : List (Fin s.rank)} (x : FVec Ideal s .f32)
    (hb : S_.BroadcastsInDim s (![] : Fin 0 → Fin s.rank)) (hr : s.ReducesTo axes S_) (hS : 0 < S_.numel)
    (init : IVec S_ 1) (j : S_.Idx)
    (e : Host.reduce IntOp.andi
          (cmpf .olt (Host.absf x) (broadcastInDim s ![] hb (constant (F := Ideal) S_ .f32 0x7F800000#32))) init hr hS j = 1#1) :
    ∀ i, ∃ r : ℝ, x i = (r : EReal) := by
  intro i
  have h1 := Host.reduce_andi_all _ _ hr hS j e i
  exact Ideal.real_of_abs_lt_inf (x i) h1

/-- The mask conjunct read back: where the and-reduction of (m = 0) or (m = 1) is 1, every entry of m is the word 0 or
    the word 1. -/
theorem zero_or_one_of_all_eq {s : Shape} {axes : List (Fin s.rank)} (m : IVec s 32)
    (hb : S_.BroadcastsInDim s (![] : Fin 0 → Fin s.rank)) (hr : s.ReducesTo axes S_) (hS : 0 < S_.numel)
    (init : IVec S_ 1) (j : S_.Idx)
    (e : Host.reduce IntOp.andi
          (ori (cmpi .eq m (broadcastInDim s ![] hb (constantI S_ 32 0#32)))
               (cmpi .eq m (broadcastInDim s ![] hb (constantI S_ 32 1#32)))) init hr hS j = 1#1) :
    ∀ i, m i = 0#32 ∨ m i = 1#32 := by
  intro i
  have h1 := Host.reduce_andi_all _ _ hr hS j e i
  rcases IntOp.ori_eq_one.1 h1 with h | h
  · exact Or.inl (IntOp.cmpi_eq.1 h)
  · exact Or.inr (IntOp.cmpi_eq.1 h)

/-- A conjunction of two one-bit words, entry by entry, is 1 at an index exactly when both are. -/
theorem andi_apply_eq_one {s : Shape} (x y : IVec s 1) (i : s.Idx) : andi x y i = 1#1 ↔ x i = 1#1 ∧ y i = 1#1 :=
  IntOp.andi_eq_one

variable [Facts]

/-- THE PRECONDITION DECODED: every float argument is real at every index, and the mask holds only the words 0 and 1. -/
theorem decode (a0 : FVec Ideal S32x2048x768 .f32) (a1 : IVec S32x2048 32) (a2 : FVec Ideal S768x512 .f32)
    (a3 a4 a5 : FVec Ideal S512 .f32) (a6 : FVec Ideal S512x512 .f32) (a7 : FVec Ideal S512 .f32)
    (h : Cert.Pre_finite_inputs.fn (F := Ideal) a0 a1 a2 a3 a4 a5 a6 a7 = fun _ => 1#1) :
    (∀ i, ∃ r : ℝ, a0 i = (r : EReal)) ∧ (∀ i, a1 i = 0#32 ∨ a1 i = 1#32) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have e := congrFun h ix0
  dsimp only [Cert.Pre_finite_inputs.fn, Cert.Pre_finite_inputs.fn_part1, Cert.Pre_finite_inputs.fn_part2] at e
  simp only [andi_apply_eq_one] at e
  obtain ⟨⟨⟨⟨⟨⟨⟨h0, h2⟩, h3⟩, h4⟩, h5⟩, h6⟩, h7⟩, h1⟩ := e
  exact ⟨real_of_all_abs_lt_inf a0 _ _ _ _ _ h0, zero_or_one_of_all_eq a1 _ _ _ _ _ h1,
    real_of_all_abs_lt_inf a2 _ _ _ _ _ h2, real_of_all_abs_lt_inf a3 _ _ _ _ _ h3,
    real_of_all_abs_lt_inf a4 _ _ _ _ _ h4, real_of_all_abs_lt_inf a5 _ _ _ _ _ h5,
    real_of_all_abs_lt_inf a6 _ _ _ _ _ h6, real_of_all_abs_lt_inf a7 _ _ _ _ _ h7⟩

/-! ### In the specification's words -/

/-- The mask, read signed as extended reals, takes only the values 0 and 1. -/
theorem mask01 (a0 : FVec Ideal S32x2048x768 .f32) (a1 : IVec S32x2048 32) (a2 : FVec Ideal S768x512 .f32)
    (a3 a4 a5 : FVec Ideal S512 .f32) (a6 : FVec Ideal S512x512 .f32) (a7 : FVec Ideal S512 .f32)
    (h : Cert.Pre_finite_inputs.fn (F := Ideal) a0 a1 a2 a3 a4 a5 a6 a7 = fun _ => 1#1) :
    ∀ b l, Cert.MlpPool.maskOf a1 b l = 0 ∨ Cert.MlpPool.maskOf a1 b l = 1 := by
  intro b l
  rcases (decode a0 a1 a2 a3 a4 a5 a6 a7 h).2.1 (ix2 b l) with hm | hm
  · left
    show (((a1 (ix2 b l)).toInt : ℝ) : EReal) = 0
    rw [hm]; simp
  · right
    show (((a1 (ix2 b l)).toInt : ℝ) : EReal) = 1
    rw [hm]
    have : (1#32 : BitVec 32).toInt = 1 := by decide
    rw [this]; simp

/-- Every argument array of floats, read by coordinates, holds real numbers. -/
theorem real_coords (a0 : FVec Ideal S32x2048x768 .f32) (a1 : IVec S32x2048 32) (a2 : FVec Ideal S768x512 .f32)
    (a3 a4 a5 : FVec Ideal S512 .f32) (a6 : FVec Ideal S512x512 .f32) (a7 : FVec Ideal S512 .f32)
    (h : Cert.Pre_finite_inputs.fn (F := Ideal) a0 a1 a2 a3 a4 a5 a6 a7 = fun _ => 1#1) :
    (∀ b l d, ∃ r : ℝ, Cert.MlpPool.arr3 a0 b l d = (r : EReal)) ∧
    (∀ d k, ∃ r : ℝ, Cert.MlpPool.arr2 a2 d k = (r : EReal)) ∧
    (∀ k, ∃ r : ℝ, Cert.MlpPool.arr1 a3 k = (r : EReal)) ∧
    (∀ k, ∃ r : ℝ, Cert.MlpPool.arr1 a4 k = (r : EReal)) ∧
    (∀ k, ∃ r : ℝ, Cert.MlpPool.arr1 a5 k = (r : EReal)) ∧
    (∀ j k, ∃ r : ℝ, Cert.MlpPool.arr2 a6 j k = (r : EReal)) ∧
    (∀ k, ∃ r : ℝ, Cert.MlpPool.arr1 a7 k = (r : EReal)) := by
  obtain ⟨h0, -, h2, h3, h4, h5, h6, h7⟩ := decode a0 a1 a2 a3 a4 a5 a6 a7 h
  exact ⟨fun b l d => h0 (ix3 b l d), fun d k => h2 (ix2 d k), fun k => h3 (ix1 k), fun k => h4 (ix1 k),
    fun k => h5 (ix1 k), fun j k => h6 (ix2 j k), fun k => h7 (ix1 k)⟩

end Cert.MlpPool.Pre

end
-- ==== Proof.lean ====
/-
  The certificate of the masked-mean MLP pooling kernel against its jnp reference.

  The kernel makes two passes. The first (grid: 32 sequences × 2 tiles of 1024 tokens) computes the first affine
  layer h = x·W1 + b1 per token, keeps it, and accumulates per sequence the masked sum and the masked sum of squares
  of h - b1 in two scratch rows carried from a sequence's first tile to its last. Host operations turn the batch
  totals into the batch-norm scale and shift. The second pass (grid: 32 sequences) normalises h, applies the ReLU
  and the second affine layer, and sums the tokens of each sequence under the mask; a last host division by the
  token counts gives the masked mean. The reference computes the same with the two-pass mean and variance.

  The three frames: the kernel program (at the word level and at the exact extended reals) by the run of its five
  segments; the reference by its generated run. The equivalence: the kernel's result is `resK`, the reference's is
  `resR` (Proof/Spec.lean), and the two agree when the float inputs are finite and the mask is 0/1 — the one-pass
  variance centred at b1 is the two-pass variance, and the affine form h·scale + shift is (h - mean)·rstd·γ + β.
-/
import proofs.«153426_j55430847922218_2_alg».proof.Defs
import proofs.«153426_j55430847922218_2_alg».proof.Proof.Gen.Kernel
import proofs.«153426_j55430847922218_2_alg».proof.Proof.Gen.KernelIdeal
import proofs.«153426_j55430847922218_2_alg».proof.Proof.Gen.ReferenceIdeal
import proofs.«153426_j55430847922218_2_alg».proof.Proof.Gen.Pre_finite_inputs
import proofs.«153426_j55430847922218_2_alg».proof.Proof.Gen.ReferenceIdeal.Run
import proofs.«153426_j55430847922218_2_alg».proof.Proof.Gen.ReferenceIdeal.Read
import proofs.«153426_j55430847922218_2_alg».proof.Proof.KernelRun
import proofs.«153426_j55430847922218_2_alg».proof.Proof.WordKernelRun
import proofs.«153426_j55430847922218_2_alg».proof.Proof.KernelValue
import proofs.«153426_j55430847922218_2_alg».proof.Proof.RefValue
import proofs.«153426_j55430847922218_2_alg».proof.Proof.NormAlgebra
import proofs.«153426_j55430847922218_2_alg».proof.Proof.PreDecode
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments unchanged. -/
theorem frame_kernel : Cert.frame_Kernel := fun m ρ _ => Cert.Kernel.Gen.frame m ρ
/-- So does its reading at the exact extended reals. -/
theorem frame_kernelIdeal : Cert.frame_KernelIdeal := fun m ρ _ => Cert.KernelIdeal.Gen.frame m ρ
/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- From memories agreeing on the arguments both programs run, and their results agree entry by entry: the
    kernel's is `resK` of its arguments (the run read back), the reference's is `resR` of the same arguments, and
    the two are equal because the precondition makes every float input a real number and every mask entry 0 or 1. -/
theorem algebraic : Cert.algebraic_KernelIdeal_ReferenceIdeal := by
  intro m ρ m' ρ' hpre hagree
  refine ⟨fun c => Cert.KernelIdeal.Gen.B5 (F := Ideal) m ρ c (Proc.devRef .tc Cert.KernelIdeal.main_v34),
    Cert.KernelIdeal.Gen.run_value (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨b, k, rfl⟩ : ∃ (b : Fin 32) (k : Fin 512), i = ValueIdx.ix2 b k := ⟨i 0, i 1, ValueIdx.eq_ix2 i⟩
  have hr := Cert.MlpPool.Pre.real_coords _ _ _ _ _ _ _ _ (hpre c)
  have hm := Cert.MlpPool.Pre.mask01 _ _ _ _ _ _ _ _ (hpre c)
  rw [Cert.MlpPool.Ref.ref_eq_resR]
  rw [← Cert.MlpPool.resK_eq_resR _ _ _ _ _ _ _ _ hr.1 hm hr.2.1 hr.2.2.1 hr.2.2.2.1 hr.2.2.2.2.1 b k]
  exact (Cert.MlpPool.KernelValue.kernel_value m ρ c b k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
